-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x3200000 : Shape := ⟨2, ![2, 3200000]⟩
abbrev S20x64 : Shape := ⟨2, ![20, 64]⟩
abbrev S64 : Shape := ⟨1, ![64]⟩
abbrev S64x64 : Shape := ⟨2, ![64, 64]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S20x64 : S_.BroadcastsInDim S20x64 (![] : Fin 0 → Fin S20x64.rank)
  reducesTo_S20x64_S_d0_1 : S20x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S20x64 1) : IVec S_ 1 :=
  let main_c_5 : IVec S_ 1 := constantI S_ 1 1#1
  let main_v17 : IVec S_ 1 := (fun x v => Host.reduce IntOp.andi x v reducesTo_S20x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x20 .f32) (main_arg1 : IVec S2x3200000 32) (main_arg2 : FVec F S20x64 .f32) (main_arg3 : FVec F S64 .f32) (main_arg4 : FVec F S20x64 .f32) (main_arg5 : FVec F S64x64 .f32) (main_arg6 : FVec F S64 .f32) (main_arg7 : FVec F S64x64 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S20x64 .f32 := Host.absf main_arg2
  let main_cst_0 : FVec F S_ .f32 := constant S_ .f32 0x7F800000#32
  let main_v5 : FVec F S20x64 .f32 := broadcastInDim S20x64 ![] bcast_S_S20x64 main_cst_0
  let main_v6 : IVec S20x64 1 := cmpf .olt main_v4 main_v5
  let main_c_1 : IVec S_ 1 := constantI S_ 1 1#1
  let main_v7 : IVec S_ 1 := (fun x v => Host.reduce IntOp.andi x v reducesTo_S20x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S20x64 .f32 := Host.absf main_arg4
  let main_cst_4 : FVec F S_ .f32 := constant S_ .f32 0x7F800000#32
  let main_v15 : FVec F S20x64 .f32 := broadcastInDim S20x64 ![] bcast_S_S20x64 main_cst_4
  let main_v16 : IVec S20x64 1 := cmpf .olt main_v14 main_v15
  fn_part1 (F := F) main_arg5 main_arg6 main_arg7 main_v13 main_v16
-- ==== Kernel.lean ====
abbrev S100000x20 : Shape := ⟨2, ![100000, 20]⟩
abbrev S2x3200000 : Shape := ⟨2, ![2, 3200000]⟩
abbrev S20x64 : Shape := ⟨2, ![20, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000 : Shape := ⟨1, ![100000]⟩
abbrev S100000x1 : Shape := ⟨2, ![100000, 1]⟩
abbrev S3200000x20 : Shape := ⟨2, ![3200000, 20]⟩
abbrev S1x64 : Shape := ⟨2, ![1, 64]⟩
abbrev S100000x64 : Shape := ⟨2, ![100000, 64]⟩
abbrev S4000x20 : Shape := ⟨2, ![4000, 20]⟩
abbrev S4000x1 : Shape := ⟨2, ![4000, 1]⟩
abbrev S4000x64 : Shape := ⟨2, ![4000, 64]⟩
abbrev S3200000x64 : Shape := ⟨2, ![3200000, 64]⟩

abbrev nBuf : Space → Nat
  | .hbm => 89
  | .vmem => 22
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S20x64, .f32⟩
  | .hbm, ⟨3, _⟩ => ⟨S64, .f32⟩
  | .hbm, ⟨4, _⟩ => ⟨S20x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000, .i32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000, .i32⟩
  | .hbm, ⟨33, _⟩ => ⟨S_, .f32⟩
  | .hbm, ⟨34, _⟩ => ⟨S3200000, .f32⟩
  | .hbm, ⟨35, _⟩ => ⟨S_, .f32⟩
  | .hbm, ⟨36, _⟩ => ⟨S100000, .f32⟩
  | .hbm, ⟨37, _⟩ => ⟨S3200000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .i1⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S_, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000x20, .f32⟩
  | .hbm, ⟨62, _⟩ => ⟨S_, .f32⟩
  | .hbm, ⟨63, _⟩ => ⟨S100000x20, .f32⟩
  | .hbm, ⟨64, _⟩ => ⟨S3200000x1, .i32⟩
  | .hbm, ⟨65, _⟩ => ⟨S100000x20, .f32⟩
  | .hbm, ⟨66, _⟩ => ⟨S1x64, .f32⟩
  | .hbm, ⟨67, _⟩ => ⟨S20x64, .bf16⟩
  | .hbm, ⟨68, _⟩ => ⟨S20x64, .bf16⟩
  | .hbm, ⟨69, _⟩ => ⟨S100000x64, .bf16⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x64, .bf16⟩
  | .hbm, ⟨79, _⟩ => ⟨S3200000x64, .f32⟩
  | .hbm, ⟨80, _⟩ => ⟨S_, .f32⟩
  | .hbm, ⟨81, _⟩ => ⟨S100000x64, .f32⟩
  | .hbm, ⟨82, _⟩ => ⟨S3200000x1, .i32⟩
  | .hbm, ⟨83, _⟩ => ⟨S100000x64, .f32⟩
  | .hbm, ⟨84, _⟩ => ⟨S1x64, .f32⟩
  | .hbm, ⟨85, _⟩ => ⟨S64x64, .bf16⟩
  | .hbm, ⟨86, _⟩ => ⟨S64x64, .bf16⟩
  | .hbm, ⟨87, _⟩ => ⟨S1x64, .f32⟩
  | .hbm, ⟨88, _⟩ => ⟨S64, .f32⟩
  | .local _ .vmem, ⟨0, _⟩ => ⟨S4000x20, .f32⟩
  | .local _ .vmem, ⟨1, _⟩ => ⟨S4000x20, .f32⟩
  | .local _ .vmem, ⟨2, _⟩ => ⟨S4000x20, .f32⟩
  | .local _ .vmem, ⟨3, _⟩ => ⟨S4000x20, .f32⟩
  | .local _ .vmem, ⟨4, _⟩ => ⟨S4000x1, .f32⟩
  | .local _ .vmem, ⟨5, _⟩ => ⟨S4000x1, .f32⟩
  | .local _ .vmem, ⟨6, _⟩ => ⟨S20x64, .bf16⟩
  | .local _ .vmem, ⟨7, _⟩ => ⟨S1x64, .f32⟩
  | .local _ .vmem, ⟨8, _⟩ => ⟨S20x64, .bf16⟩
  | .local _ .vmem, ⟨9, _⟩ => ⟨S4000x64, .bf16⟩
  | .local _ .vmem, ⟨10, _⟩ => ⟨S4000x64, .bf16⟩
  | .local _ .vmem, ⟨11, _⟩ => ⟨S4000x64, .f32⟩
  | .local _ .vmem, ⟨12, _⟩ => ⟨S4000x64, .f32⟩
  | .local _ .vmem, ⟨13, _⟩ => ⟨S4000x64, .bf16⟩
  | .local _ .vmem, ⟨14, _⟩ => ⟨S4000x64, .bf16⟩
  | .local _ .vmem, ⟨15, _⟩ => ⟨S4000x1, .f32⟩
  | .local _ .vmem, ⟨16, _⟩ => ⟨S4000x1, .f32⟩
  | .local _ .vmem, ⟨17, _⟩ => ⟨S64x64, .bf16⟩
  | .local _ .vmem, ⟨18, _⟩ => ⟨S1x64, .f32⟩
  | .local _ .vmem, ⟨19, _⟩ => ⟨S64x64, .bf16⟩
  | .local _ .vmem, ⟨20, _⟩ => ⟨S1x64, .f32⟩
  | .local _ .vmem, ⟨21, _⟩ => ⟨S1x64, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1_0 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_18 : BitVec 32 := 0#32
  let v32 : BitVec 1 := Scalar.cmpi .ne v31 c0_i32_18
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  shapeCasts_S100000_S100000x1 : S100000.ShapeCasts S100000x1
  bcast_S_S100000x20 : S_.BroadcastsInDim S100000x20 (![] : Fin 0 → Fin S100000x20.rank)
  shapeCasts_S64_S1x64 : S64.ShapeCasts S1x64
  bitsLt_bf16_f32 : FTy.bits .bf16 < FTy.bits .f32
  inb_S4000x20_S4000x20_0_0 : ∀ a, (![0, 0] : Fin 2 → Nat) a + S4000x20.size a ≤ S4000x20.size a
  h_S4000x20 : 0 < S4000x20.numel
  shapeCasts_S4000x20_S4000x20 : S4000x20.ShapeCasts S4000x20
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x20 : S4000x1.Broadcasts S4000x20
  inb_S20x64_S20x64_0_0 : ∀ a, (![0, 0] : Fin 2 → Nat) a + S20x64.size a ≤ S20x64.size a
  h_S20x64 : 0 < S20x64.numel
  shapeCasts_S20x64_S20x64 : S20x64.ShapeCasts S20x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S4000x64_S64 : S4000x64.Reduces [0] S64
  shapeCasts_S1x64_S64 : S1x64.ShapeCasts S64
  gather_S3200000_S3200000x1_S3200000_n_0_n_n_0_1_1_wf : GatherDims.WF S3200000 S3200000x1 S3200000 [] [0] [] [0] [] 1 ![1]
  scatter_S100000_S3200000x1_S3200000_n_0_0_1_wf : ScatterDims.WF S100000 S3200000x1 S3200000 [] [0] [0] 1
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S4000x20_S20x64_S4000x64_1_0_0_1_n_n_wf : DotDims.WF S4000x20 S20x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x20.size a ≤ S100000x20.size a
  hwx0_0 : ∀ i : grid0.Coords, EltTy.bits .f32 = 32 ∨ (Rect.block (s := S100000x20) S4000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x20.size a ≤ S100000x20.size a
  hwx0_1 : ∀ i : grid0.Coords, EltTy.bits .f32 = 32 ∨ (Rect.block (s := S100000x20) S4000x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x64.size a ≤ S20x64.size a
  hwx0_3 : ∀ i : grid0.Coords, EltTy.bits .bf16 = 32 ∨ (Rect.block (s := S20x64) S20x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x64.size a ≤ S20x64.size a
  hwx0_5 : ∀ i : grid0.Coords, EltTy.bits .bf16 = 32 ∨ (Rect.block (s := S20x64) S20x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .bf16 = 32 ∨ (Rect.block (s := S100000x64) S4000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S3200000_S3200000x1_S3200000_n_0_n_n_0_1_1 : GatherDims S3200000 S3200000x1 S3200000 where
  offsetDims := []
  collapsedSliceDims := [0]
  operandBatchingDims := []
  startIndicesBatchingDims := []
  startIndexMap := [0]
  indexVectorDim := 1
  sliceSizes := ![1]
  wf := gather_S3200000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S4000x20_S20x64_S4000x64_1_0_0_1_n_n : DotDims S4000x20 S20x64 S4000x64 where
  lhsContracting := [1]
  rhsContracting := [0]
  lhsNonContracting := [0]
  rhsNonContracting := [1]
  lhsBatch := []
  rhsBatch := []
  wf := dot_S4000x20_S20x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v40) S4000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S20x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S20x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v55) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S100000x20 : Shape := ⟨2, ![100000, 20]⟩
abbrev S2x3200000 : Shape := ⟨2, ![2, 3200000]⟩
abbrev S20x64 : Shape := ⟨2, ![20, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x20 : Shape := ⟨2, ![3200000, 20]⟩
abbrev S100000x1 : Shape := ⟨2, ![100000, 1]⟩
abbrev S100000x64 : Shape := ⟨2, ![100000, 64]⟩
abbrev S1x64 : Shape := ⟨2, ![1, 64]⟩
abbrev S3200000x64 : Shape := ⟨2, ![3200000, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S20x64, .f32⟩
  | .hbm, ⟨3, _⟩ => ⟨S64, .f32⟩
  | .hbm, ⟨4, _⟩ => ⟨S20x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x20, .f32⟩
  | .hbm, ⟨40, _⟩ => ⟨S_, .f32⟩
  | .hbm, ⟨41, _⟩ => ⟨S100000x20, .f32⟩
  | .hbm, ⟨42, _⟩ => ⟨S3200000x1, .i32⟩
  | .hbm, ⟨43, _⟩ => ⟨S100000x20, .f32⟩
  | .hbm, ⟨44, _⟩ => ⟨S100000x1, .f32⟩
  | .hbm, ⟨45, _⟩ => ⟨S100000x20, .f32⟩
  | .hbm, ⟨46, _⟩ => ⟨S100000x20, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x64, .f32⟩
  | .hbm, ⟨65, _⟩ => ⟨S_, .f32⟩
  | .hbm, ⟨66, _⟩ => ⟨S100000x64, .f32⟩
  | .hbm, ⟨67, _⟩ => ⟨S3200000x1, .i32⟩
  | .hbm, ⟨68, _⟩ => ⟨S100000x64, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x20 : S_.BroadcastsInDim S100000x20 (![] : Fin 0 → Fin S100000x20.rank)
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S3200000x1_S3200000_n_0_0_1_wf : ScatterDims.WF S100000 S3200000x1 S3200000 [] [0] [0] 1
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S100000x20_S20x64_S100000x64_1_0_0_1_n_n_wf : DotDims.WF S100000x20 S20x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S100000x20_S20x64_S100000x64_1_0_0_1_n_n : DotDims S100000x20 S20x64 S100000x64 where
  lhsContracting := [1]
  rhsContracting := [0]
  lhsNonContracting := [0]
  rhsNonContracting := [1]
  lhsBatch := []
  rhsBatch := []
  wf := dot_S100000x20_S20x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.R0.lean ====
/- Region 0 of @main, the call of cc0__combine_relu_kernel on its grid of 25 points, at the buffer contents V the
   region is entered with. Each of the six input windows is loaded whole and the output window is stored whole once,
   so after the body at a point the output's staging buffer is the payload k0_pay1 of the six input blocks and every
   input's buffer is its block still. Stated for any float instance. -/
import proofs.«170781_j19602230739553_2_alg».proof.Proof.Gen.Kernel.Launch
import proofs.«170781_j19602230739553_2_alg».proof.Proof.Gen.Kernel.Skeleton
import proofs.«170781_j19602230739553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered: the parameter each region's half is stated at
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the block was fetched there or
    is the one an earlier point fetched (its block index has not moved since), for any proof data whose array is V's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the block was fetched there or
    is the one an earlier point fetched (its block index has not moved since), for any proof data whose array is V's
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the block was fetched there or
    is the one an earlier point fetched (its block index has not moved since), for any proof data whose array is V's
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the block was fetched there or
    is the one an earlier point fetched (its block index has not moved since), for any proof data whose array is V's
    and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the block was fetched there or
    is the one an earlier point fetched (its block index has not moved since), for any proof data whose array is V's
    and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the block was fetched there or
    is the one an earlier point fetched (its block index has not moved since), for any proof data whose array is V's
    and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S4000x20 := Rect.unit (s := S4000x20) ![0, 0] S4000x20.size inb_S4000x20_S4000x20_0_0
abbrev rD0 : Rect S4000x1 := Rect.unit (s := S4000x1) ![0, 0] S4000x1.size inb_S4000x1_S4000x1_0_0
abbrev rW0 : Rect S20x64 := Rect.unit (s := S20x64) ![0, 0] S20x64.size inb_S20x64_S20x64_0_0
abbrev rB0 : Rect S1x64 := Rect.unit (s := S1x64) ![0, 0] S1x64.size inb_S1x64_S1x64_0_0
abbrev rO0 : Rect S4000x64 := Rect.unit (s := S4000x64) ![0, 0] S4000x64.size inb_S4000x64_S4000x64_0_0

/-! ## What the body leaves in the output window's buffer -/

/-- window 6's staging buffer after the body, from the six input blocks (window order 0..5): its one store, of the
    payload of the six whole loads, as the single piece of the buffer. -/
def out0_6 (x0 : Vec F S4000x20 .f32) (x1 : Vec F S4000x20 .f32) (x2 : Vec F S4000x1 .f32) (x3 : Vec F S20x64 .bf16) (x4 : Vec F S1x64 .f32) (x5 : Vec F S20x64 .bf16) : Vec F S4000x64 .bf16 :=
  View.canon [⟨rO0, k0_pay1 (View.ld x0 rA0) (View.ld x2 rD0) (View.ld x1 rA0) (View.ld x3 rW0) (View.ld x4 rB0) (View.ld x5 rW0)⟩]

/-- The one store is of the whole buffer, so every index of the buffer lies in it. -/
theorem cover0_6 (p0 : Vec F S4000x64 .bf16) (y : S4000x64.Idx) :
    ∃ pc ∈ ([⟨rO0, p0⟩] : List (View.Piece (Elt F) S4000x64 .bf16)), y ∈ pc.1.set :=
  View.cover_of_tiled [⟨rO0, p0⟩] S4000x64.size (by rfl) y

/-! ## The body's triple -/

set_option maxHeartbeats 1000000 in
/-- The kernel body at any grid coordinate, on whole staging memrefs, the six inputs' at read contents x0..x5 and the
    output's at anything, runs to the continuation holding the inputs' as they were and the output's at out0_6 of the
    inputs': six whole loads, a load of the output's buffer whose value is not used, and one whole store of the payload. -/
theorem sound_kernel0 (c : Dev nD) (E : Set ℕ) (i : grid0.Coords) (arg1 : Memref sig .tc .vmem S4000x20 .f32) (harg1 : arg1.IsWhole) (arg2 : Memref sig .tc .vmem S4000x20 .f32) (harg2 : arg2.IsWhole) (arg3 : Memref sig .tc .vmem S4000x1 .f32) (harg3 : arg3.IsWhole) (arg4 : Memref sig .tc .vmem S20x64 .bf16) (harg4 : arg4.IsWhole) (arg5 : Memref sig .tc .vmem S1x64 .f32) (harg5 : arg5.IsWhole) (arg6 : Memref sig .tc .vmem S20x64 .bf16) (harg6 : arg6.IsWhole) (arg7 : Memref sig .tc .vmem S4000x64 .bf16) (harg7 : arg7.IsWhole)
    (x0 : Vec F S4000x20 .f32) (x1 : Vec F S4000x20 .f32) (x2 : Vec F S4000x1 .f32) (x3 : Vec F S20x64 .bf16) (x4 : Vec F S1x64 .f32) (x5 : Vec F S20x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__combine_relu_kernel i arg1 harg1 arg2 harg2 arg3 harg3 arg4 harg4 arg5 harg5 arg6 harg6 arg7 harg7) K := by
  simp only [cc0__combine_relu_kernel_eq_skeleton]; unfold cc0__combine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of region 0's pipeline on core c: the arrays as the region finds them; after the body at point t
    each input's buffer at its block and the output's at out0_6 of the six input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point t: the invariant, what is owed, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and what
    is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.R1Runs.lean ====
/- Region 1 (the mean over all rows, accumulated block by block): what the three cases of its body share.
   The grid has 25 points. At the first point the kernel zeroes its accumulator (the scratch operand), at every point it
   adds the block's column sums to the accumulator, and at the last point it stores the accumulator scaled by 1/100000
   into the output block, which no other point touches. Here: the input blocks, the two branch conditions in closed form,
   where the output window is idle, the staging memrefs at a point, and the region invariant with the accumulator named. -/
import proofs.«170781_j19602230739553_2_alg».proof.Proof.Gen.Kernel.Launch
import proofs.«170781_j19602230739553_2_alg».proof.Proof.Gen.Kernel.Skeleton
import proofs.«170781_j19602230739553_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents (`View.cover_of_tiledL`) recurses once per coordinate of the long axes
set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (the three row
    blocks are fetched at every point; the two weight matrices and the bias have a constant block index and are fetched
    once: unfetched, the index has not moved), for any proof data whose array is `V`'s and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first branch (zero the accumulator), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second branch (store the scaled accumulator into the output), from the grid coordinate. -/
abbrev cond1_1 (i : grid1.Coords) : Prop := k1_cond2 i = 1#1
/-- It holds at the last point only. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-! The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At the first point the output window is idle: the body stores nothing into it. -/
theorem idleAt1_6_A : ∀ t : Fin cfg1.N, cond1_0 (grid1.coords t) → ¬cond1_1 (grid1.coords t) → cfg1.idle 6 (grid1.coords t) = true := by decide +kernel
/-- At the first point the output block is not written back. -/
theorem noFlush1_6_A : ∀ t : Fin cfg1.N, cond1_0 (grid1.coords t) → ¬cond1_1 (grid1.coords t) → (cfg1.win 6).flush t = false := by decide +kernel
/-- At a middle point the output window is idle: the body stores nothing into it. -/
theorem idleAt1_6_B : ∀ t : Fin cfg1.N, ¬cond1_0 (grid1.coords t) → ¬cond1_1 (grid1.coords t) → cfg1.idle 6 (grid1.coords t) = true := by decide +kernel
/-- At a middle point the output block is not written back. -/
theorem noFlush1_6_B : ∀ t : Fin cfg1.N, ¬cond1_0 (grid1.coords t) → ¬cond1_1 (grid1.coords t) → (cfg1.win 6).flush t = false := by decide +kernel
/-- At the last point the output window is live: the body stores into it. -/
theorem liveAt1_6_C : ∀ t : Fin cfg1.N, ¬cond1_0 (grid1.coords t) → cond1_1 (grid1.coords t) → cfg1.idle 6 (grid1.coords t) = false := by decide +kernel

/-! ## The staging memrefs and the accumulator -/

/-- The output window's one staging buffer, through which its contents are stated. -/
abbrev VO1_6 : View sig .tc .vmem S1x64 .f32 := (Memref.whole cc1_stg6_0 : Memref sig .tc .vmem S1x64 .f32).view
/-! Each window's current staging memref at point `t`, as the pipeline passes it to the body, and its wholeness. -/
abbrev ms1_0 (t : Fin cfg1.N) : Memref sig .tc .vmem S4000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S1x64 .f32 := Memref.whole cc1_scratch0
/-- The accumulator as a view: what it holds is stated through it. -/
abbrev VS1_0 : View sig .tc .vmem S1x64 .f32 := scM1_0.view

/-- The core's scoped buffers that are no staging buffer of this region: the other region's staging buffers, each at
    some contents, and the accumulator as `S` states it. -/
def scoped1 (c : Dev nD) (S : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ S)

/-- The class's region invariant with the accumulator as a memref owned at some contents: what the body obligation
    hands the body at the first point and what the region gives back at the end. -/
theorem PhiA1_eq (c : Dev nD) :
    (Pipeline.ΦA spec1 c : sProp 𝕄)
      = iprop(scoped1 (F := F) c (iprop(∃ d, owns (c : Thread nD τ) scM1_0 fullShare d)) ∗ (∃ r, prngReg c r)) := by
  unfold Pipeline.ΦA scoped1; rw [scopedRest1_eq]; simp only [scM1_0, owns_whole]; try rfl

end Cert.Kernel.Hand

end
-- ==== Proof.K.R1RunA.lean ====
/- Region 1, the body's run at the FIRST point: the accumulator, found at anything, is zeroed and then receives the
   block's column sums added to what it holds; the output block is not touched. -/
import proofs.«170781_j19602230739553_2_alg».proof.Proof.K.R1Runs

-- membership in a rectangle of large extents (`View.cover_of_tiledL`) recurses once per coordinate of the long axes
set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first), at the
    first point (first branch taken, second not), with the proof that on whole memrefs — the six inputs at their
    contents, the output at contents `xi6` handed back untouched, the accumulator at anything — the body runs to the
    continuation holding the inputs as they were, the output as it was and the accumulator with its pieces written. -/
noncomputable def kernelRun1_A (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) :
    Σ' (L6 : List (View.Piece (Elt F) S1x64 .f32)), { LS0 : List (View.Piece (Elt F) S1x64 .f32) //
      ∀ (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1__combine_mean_kernel i arg1 harg1 arg2 harg2 arg3 harg3 arg4 harg4 arg5 harg5 arg6 harg6 arg7 harg7 arg8 harg8) K } := by
  refine ⟨[], ?_, fun xi6 E K => ?run⟩
  case run =>
    simp only [cc1__combine_mean_kernel_eq_skeleton]; unfold cc1__combine_mean_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Hand

end
-- ==== Proof.K.R1RunB.lean ====
/- Region 1, the body's run at a MIDDLE point: the accumulator, found at what the point before left, receives the
   block's column sums added to it; the output block is not touched. -/
import proofs.«170781_j19602230739553_2_alg».proof.Proof.K.R1RunA

-- membership in a rectangle of large extents (`View.cover_of_tiledL`) recurses once per coordinate of the long axes
set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first), at a
    middle point (neither branch taken), with the proof that on whole memrefs — the six inputs at their contents, the
    output at contents `xi6` handed back untouched, the accumulator at the contents `xs0` the point before left — the
    body runs to the continuation holding the inputs as they were, the output as it was and the accumulator with its
    pieces written. -/
noncomputable def kernelRun1_B (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) :
    Σ' (L6 : List (View.Piece (Elt F) S1x64 .f32)), { LS0 : List (View.Piece (Elt F) S1x64 .f32) //
      ∀ (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1__combine_mean_kernel i arg1 harg1 arg2 harg2 arg3 harg3 arg4 harg4 arg5 harg5 arg6 harg6 arg7 harg7 arg8 harg8) K } := by
  refine ⟨[], ?_, fun xi6 E K => ?run⟩
  case run =>
    simp only [cc1__combine_mean_kernel_eq_skeleton]; unfold cc1__combine_mean_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Hand

end
-- ==== Proof.K.R1RunC.lean ====
/- Region 1, the body's run at the LAST point: the accumulator, found at what the point before left, receives the
   block's column sums added to it, and the output block receives the accumulator scaled by 1/100000. -/
import proofs.«170781_j19602230739553_2_alg».proof.Proof.K.R1RunB

-- membership in a rectangle of large extents (`View.cover_of_tiledL`) recurses once per coordinate of the long axes
set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first), at the
    last point (first branch not taken, second taken), with the proof that on whole memrefs — the six inputs at their
    contents, the output at anything, the accumulator at the contents `xs0` the point before left — the body runs to the
    continuation holding the inputs as they were and the output and the accumulator with their pieces written. -/
noncomputable def kernelRun1_C (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) :
    Σ' (L6 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc1__combine_mean_kernel i arg1 harg1 arg2 harg2 arg3 harg3 arg4 harg4 arg5 harg5 arg6 harg6 arg7 harg7 arg8 harg8) K } := by
  refine ⟨?_, ?_, fun E K => ?run⟩
  case run =>
    simp only [cc1__combine_mean_kernel_eq_skeleton]; unfold cc1__combine_mean_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Hand

end
-- ==== Proof.K.R1.lean ====
/- Region 1 (the mean over all rows, accumulated block by block): the region's half of the certificate. What the
   output block and the accumulator hold after each of the 25 points (`outsAt1`: the first point's run over nothing, each
   later point's run over what the accumulator held before it), the proof data (`dat1`), the body obligation at every
   point from the three runs, and the invariant's two ends (`hin1`, `hout1`). -/
import proofs.«170781_j19602230739553_2_alg».proof.Proof.K.R1RunC

-- membership in a rectangle of large extents (`View.cover_of_tiledL`) recurses once per coordinate of the long axes
set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- At the first point the body stores nothing into the output block (the window is idle there and not written back): no
    pieces — a placeholder that nothing consults. -/
def out1_A_6 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) : Vec F S1x64 .f32 :=
  VO1_6.read (Elt F) (VO1_6.writes (Elt F) VO1_6.junk (kernelRun1_A c i arg1 harg1 arg2 harg2 arg3 harg3 arg4 harg4 arg5 harg5 arg6 harg6 arg7 harg7 arg8 harg8 hc0 hc1 x0 x1 x2 x3 x4 x5).1)

/-- At the first point the body's stores into the accumulator cover it (each is of the whole buffer). -/
theorem scover1_A_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (y : S1x64.Idx) :
    ∃ pc ∈ (kernelRun1_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).2.1 S1x64.size (by sl_kernel_rfl) y

/-- What the body leaves in the accumulator at the first point: its pieces read back. -/
def sout1_A_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) : Vec F S1x64 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2 x3 x4 x5).2.1)

/-- At a middle point the body stores nothing into the output block (the window is idle there and not written back): no
    pieces — a placeholder that nothing consults. -/
def out1_B_6 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) : Vec F S1x64 .f32 :=
  VO1_6.read (Elt F) (VO1_6.writes (Elt F) VO1_6.junk (kernelRun1_B c i arg1 harg1 arg2 harg2 arg3 harg3 arg4 harg4 arg5 harg5 arg6 harg6 arg7 harg7 arg8 harg8 hc0 hc1 x0 x1 x2 x3 x4 x5 xs0).1)

/-- At a middle point the body's stores into the accumulator cover it (each is of the whole buffer). -/
theorem scover1_B_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) (y : S1x64.Idx) :
    ∃ pc ∈ (kernelRun1_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xs0).2.1 S1x64.size (by sl_kernel_rfl) y

/-- What the body leaves in the accumulator at a middle point: its pieces read back. -/
def sout1_B_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 x3 x4 x5 xs0).2.1)

/-- At the last point the body's one store into the output block covers it. -/
theorem cover1_C_6 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) (y : S1x64.Idx) :
    ∃ pc ∈ (kernelRun1_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 x5 xs0).1 S1x64.size (by sl_kernel_rfl) y

/-- What the body leaves in the output's staging buffer at the last point: its pieces read back. -/
def out1_C_6 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) : Vec F S1x64 .f32 :=
  VO1_6.read (Elt F) (VO1_6.writes (Elt F) VO1_6.junk (kernelRun1_C c i arg1 harg1 arg2 harg2 arg3 harg3 arg4 harg4 arg5 harg5 arg6 harg6 arg7 harg7 arg8 harg8 hc0 hc1 x0 x1 x2 x3 x4 x5 xs0).1)

/-- At the last point the body's stores into the accumulator cover it (each is of the whole buffer). -/
theorem scover1_C_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) (y : S1x64.Idx) :
    ∃ pc ∈ (kernelRun1_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 x5 xs0).2.1 S1x64.size (by sl_kernel_rfl) y

/-- What the body leaves in the accumulator at the last point: its pieces read back. -/
def sout1_C_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) : Vec F S1x64 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 x3 x4 x5 xs0).2.1)

/-! ## What the output and the accumulator hold after each point -/

/-- THE ACCUMULATION. What the output's staging buffer and the accumulator hold after the body at position `n`:
    the case the closed forms select at `n`, run at the point's memrefs and input blocks, over what the accumulator
    held after position `n - 1`. -/
def outsAt1 (c : Dev nD) : (n : ℕ) → n < cfg1.N → Vec F S1x64 .f32 × Vec F S1x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 25 = 0 then
      if h1 : (n + 1) % 25 = 24 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 25 = 24 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at the first point. -/
theorem outsAt1_A (c : Dev nD) (t : Fin cfg1.N) (h0 : t.val % 25 = 0) (h1 : ¬t.val % 25 = 24) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a middle point: over what the point before left in the accumulator. -/
theorem outsAt1_B (c : Dev nD) (t : Fin cfg1.N) (h0 : ¬t.val % 25 = 0) (h1 : ¬t.val % 25 = 24) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: over what the point before left in the accumulator. -/
theorem outsAt1_C (c : Dev nD) (t : Fin cfg1.N) (h0 : ¬t.val % 25 = 0) (h1 : t.val % 25 = 24) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer at anything, the generator register at some state); afterwards the same with the accumulator at what the point
    before left in it. -/
def PhiS1 (c : Dev nD) : (n : ℕ) → n ≤ cfg1.N → sProp 𝕄
  | 0, _ => Pipeline.ΦA spec1 c
  | n + 1, hn => iprop(scoped1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(scoped1 (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(scoped1 (F := F) c (owns (c : Thread nD τ) scM1_0 fullShare ((outsAt1 V c (n - 1) (by omega)).2)) ∗ (∃ r, prngReg c r)) := by
  cases n with
  | zero => exact absurd rfl hz
  | succ n => rfl

/-! ## The proof data -/

/-- The proof data of the region on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t | ⟨1, _⟩ => iblk1 V c 1 t | ⟨2, _⟩ => iblk1 V c 2 t | ⟨3, _⟩ => iblk1 V c 3 t | ⟨4, _⟩ => iblk1 V c 4 t | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which of the three cases the
    point is in; that case's run applies. The invariant hands the body the accumulator at what the point before left
    (at anything at the first point) and takes it back at this point's contents, the body's stores covering it; the
    other scoped buffers and the generator register pass through untouched; the core owes nothing throughout. At the
    first and the middle points the output's buffer is handed back as found; at the last point the body's store
    covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  by_cases h0 : t.val % 25 = 0
  · by_cases h1 : t.val % 25 = 24
    · exfalso; omega
    · have hz : t.val = 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      rw [PhiS1_castSucc V c t, PhiS1_zero V c _ _ hz, PhiA1_eq]
      unfold scoped1
      iintro ⟨⟨⟨R0, R1, R2, R3, R4, R5, R6, R7, R8, R9, R10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [R0 R1 R2 R3 R4 R5 R6 R7 R8 R9 R10 HS0 Hg]
      · isplitl [R0 R1 R2 R3 R4 R5 R6 R7 R8 R9 R10 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS0
          ipureintro; exact View.read_writes_of_cover _ _ _ _ _ (scover1_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 25 = 24
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      rw [PhiS1_castSucc V c t, PhiS1_pos V c _ _ hz]
      unfold scoped1
      iintro ⟨⟨⟨R0, R1, R2, R3, R4, R5, R6, R7, R8, R9, R10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [R0 R1 R2 R3 R4 R5 R6 R7 R8 R9 R10 HS0 Hg]
      · isplitl [R0 R1 R2 R3 R4 R5 R6 R7 R8 R9 R10 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      unfold scoped1
      iintro ⟨⟨⟨R0, R1, R2, R3, R4, R5, R6, R7, R8, R9, R10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [R0 R1 R2 R3 R4 R5 R6 R7 R8 R9 R10 HS0 Hg]
      · isplitl [R0 R1 R2 R3 R4 R5 R6 R7 R8 R9 R10 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨R0, R1, R2, R3, R4, R5, R6, R7, R8, R9, R10, HS0⟩, Hg⟩
  isplitl [R0 R1 R2 R3 R4 R5 R6 R7 R8 R9 R10 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Cert.Kernel.Hand

end
-- ==== Proof.K.Run.lean ====
/- The run of @main from the launch to the return. @main is nine items: five stretches of host operations, the first
   pipelined region (one block of `main_v44` per grid point), a host stretch, the second pipelined region (the mean,
   written to `main_v59` at the last grid point), and a last host stretch. Between two items every unscoped buffer of a
   core is held whole at a known valuation (`Gen.V0` … `Gen.V9`); a region changes only its output array, and what it
   leaves there is the fold of its write-backs over the grid (`Dat.arrAt … N`). The two regions' records are chained
   with the host stretches, and the last valuation is read against the final memory. -/
import proofs.«170781_j19602230739553_2_alg».proof.Proof.Gen.Kernel.Launch
import proofs.«170781_j19602230739553_2_alg».proof.Proof.Gen.Kernel.Skeleton
import proofs.«170781_j19602230739553_2_alg».proof.Proof.Gen.Kernel.Points
import proofs.«170781_j19602230739553_2_alg».proof.Proof.Gen.Kernel.Regions
import proofs.«170781_j19602230739553_2_alg».proof.Proof.K.R0
import proofs.«170781_j19602230739553_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The buffers' contents around the two regions -/

/-- The TensorCore's buffers as the first region finds them: the launch memory after the five host stretches. -/
abbrev Vin0 : (c : Dev nD) → (b : Ref sig .tc) → Buf (Elt F) ((c : Thread nD τ).loc b) := fun c b => Gen.V5 m c b

/-- What the first region leaves: `main_v44` holds the fold of the region's 25 write-backs over what it held at entry
    (every other index and reference is never read). -/
def outs0 : Gen.Outs (F := F) := fun _ r c =>
  Pipeline.withArrays spec0 c (Gen.V5 m c) (fun w => (dat0 (Vin0 m) c).arrAt w cfg0.N) (Proc.devRef .tc r)

/-- The TensorCore's buffers as the second region finds them: they depend on the first region's output only. -/
abbrev Vin1 : (c : Dev nD) → (b : Ref sig .tc) → Buf (Elt F) ((c : Thread nD τ).loc b) := fun c b => Gen.V7 m (outs0 m) c b

/-- What the two regions leave: the first region's output as `outs0`; after the second region `main_v59` holds the
    fold of that region's write-backs (the single one of the last grid point) over what it held at entry. -/
def outs : Gen.Outs (F := F) := fun J r c =>
  if J = 8 then Pipeline.withArrays spec1 c (Gen.V7 m (outs0 m) c) (fun w => (dat1 (Vin1 m) c).arrAt w cfg1.N) (Proc.devRef .tc r)
  else outs0 m J r c

theorem outs0_v44 (c : Dev nD) : outs0 m 6 main_v44 c = (dat0 (Vin0 m) c).arrAt 6 cfg0.N :=
  Pipeline.withArrays_arr spec0 launch0.win.arr_inj c _ _ 6

theorem outs_eq_outs0 (c : Dev nD) : outs m 6 main_v44 c = outs0 m 6 main_v44 c := if_neg (by decide)

theorem outs_v44 (c : Dev nD) : outs m 6 main_v44 c = (dat0 (Vin0 m) c).arrAt 6 cfg0.N :=
  (outs_eq_outs0 m c).trans (outs0_v44 m c)

theorem outs_v59 (c : Dev nD) : outs m 8 main_v59 c = (dat1 (Vin1 m) c).arrAt 6 cfg1.N :=
  (if_pos rfl).trans (Pipeline.withArrays_arr spec1 launch1.win.arr_inj c _ _ 6)

/-- The second region's entry contents do not depend on the second stage of `outs`. -/
theorem V7_outs (c : Dev nD) : Gen.V7 m (outs m) c = Gen.V7 m (outs0 m) c := by
  show StableHlo.after hostOps1 (Function.update (Gen.V5 m c) main_v44 (outs m 6 main_v44 c))
    = StableHlo.after hostOps1 (Function.update (Gen.V5 m c) main_v44 (outs0 m 6 main_v44 c))
  rw [outs_eq_outs0 m c]

/-- The buffers as the first region leaves them, and as the second does, read at the TensorCore's references. -/
abbrev Vout0 : (c : Dev nD) → (b : Ref sig .tc) → Buf (Elt F) ((c : Thread nD τ).loc b) := fun c b => Gen.V6 m (outs m) c b
abbrev Vout1 : (c : Dev nD) → (b : Ref sig .tc) → Buf (Elt F) ((c : Thread nD τ).loc b) := fun c b => Gen.V8 m (outs m) c b

/-! ### At a region's exit its arrays hold what the pipeline leaves, every other buffer what it held at entry -/

/-- An input array of the first region is left as entered. -/
theorem hF0_in (c : Dev nD) (w : Fin cfg0.W) (hin : (cfg0.win w).isOut = false)
    (hne : Pipeline.arrRef spec0 w ∉ ([main_v44] : List (Ref sig .tc))) :
    (dat0 (Vin0 m) c).arrAt w cfg0.N = Vout0 m c (Pipeline.arrRef spec0 w) :=
  ((dat0 (Vin0 m) c).arrAt_in w hin _).trans ((A_eq0 (Vin0 m) c w).trans (Gen.V6_of m (outs m) c _ hne).symm)

theorem hF0 (c : Dev nD) : ∀ w : Fin cfg0.W, (dat0 (Vin0 m) c).arrAt w cfg0.N = Vout0 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => (outs_v44 m c).symm.trans (Function.update_self (Proc.devRef (τ := τ) .tc main_v44) (outs m 6 main_v44 c) (Gen.V5 m c)).symm

theorem hrest0 (c : Dev nD) : ∀ b, b ∉ Finset.univ.image (Pipeline.arrRef spec0) → Vout0 m c b = Vin0 m c b :=
  fun b hb => Gen.V6_of m (outs m) c b fun h =>
    hb (Finset.mem_image.mpr ⟨6, Finset.mem_univ _, (List.mem_singleton.mp h).symm⟩)

/-- An input array of the second region is left as entered. -/
theorem hF1_in (c : Dev nD) (w : Fin cfg1.W) (hin : (cfg1.win w).isOut = false)
    (hne : Pipeline.arrRef spec1 w ∉ ([main_v59] : List (Ref sig .tc))) :
    (dat1 (Vin1 m) c).arrAt w cfg1.N = Vout1 m c (Pipeline.arrRef spec1 w) :=
  ((dat1 (Vin1 m) c).arrAt_in w hin _).trans ((A_eq1 (Vin1 m) c w).trans
    ((congrFun (V7_outs m c) _).symm.trans (Gen.V8_of m (outs m) c _ hne).symm))

theorem hF1 (c : Dev nD) : ∀ w : Fin cfg1.W, (dat1 (Vin1 m) c).arrAt w cfg1.N = Vout1 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => (outs_v59 m c).symm.trans (Function.update_self (Proc.devRef (τ := τ) .tc main_v59) (outs m 8 main_v59 c) (Gen.V7 m (outs m) c)).symm

theorem hrest1 (c : Dev nD) : ∀ b, b ∉ Finset.univ.image (Pipeline.arrRef spec1) → Vout1 m c b = Vin1 m c b :=
  fun b hb => (Gen.V8_of m (outs m) c b fun h =>
    hb (Finset.mem_image.mpr ⟨6, Finset.mem_univ _, (List.mem_singleton.mp h).symm⟩)).trans (congrFun (V7_outs m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No kernel variant is chosen, and no core owes another anything: no level is assigned. -/
abbrev 𝒱₀ : Variants := Variants.none
abbrev L : GSem nD τ sig → Finset Unit := fun _ => ∅
abbrev lv : GSem nD τ sig → Unit → ℕ := fun _ _ => 0

/-- What rides beside the held buffers through every item: the core's generator register at some state (a region's
    invariant takes it in and gives it back) and the core's dues, at nothing. -/
abbrev R (c : Dev nD) : sProp 𝕄 := iprop((∃ r, prngReg c r) ∗ ∃ W, owes (c : Thread nD τ) (0 : CellTallies nD τ sig Unit) W)
/-- The rest state is the same at the three stages (before the first region, between the two, after the second). -/
abbrev E : Fin 3 → Dev nD → sProp 𝕄 := fun _ c => R c

/-! ## The regions as segments -/

set_option backward.isDefEq.respectTransparency.types false in
/-- THE FIRST REGION over the thread state: entered from every unscoped buffer at `Gen.V5`, left at `Gen.V6`. Its seven
    arrays are split out of the unscoped buffers and put back at the exit contents (`hF0`, `hrest0`); the generator
    register goes into the region's invariant beside the scoped buffers no window stages, and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `Gen.V7` (read at the first stage of
    `outs`: `V7_outs`), left at `Gen.V8`. Its arrays are split out and put back as the first region's; its invariant
    carries the accumulator from grid point to grid point, and is entered from and left at the scoped buffers no
    window stages beside the generator register (`hin1`, `hout1`); nothing is owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V7 m (outs0 m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun w => A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vin1 m) c
    unfold Pipeline.ΦA at h
    show _ ⊢ (dat1 (Vin1 m) c).Φ 0
    iintro ⟨Hp, -, Hr⟩
    iapply h
    isplitl [Hr]; · iexact Hr
    iexact Hp
  hout c := by
    have h := hout1 (Vin1 m) c
    unfold Pipeline.ΦA at h
    rw [Pipeline.ownSems0_none]
    show (dat1 (Vin1 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The second region is entered from the thread state the host stretch before it leaves. -/
theorem hpre1 (c : Dev nD) :
    iprop(StableHlo.held (c : Thread nD τ) (Pipeline.ucRefs τ sig) (Gen.V7 m (outs m) c) ∗ E (F := F) 1 c) ⊢ (reg1 m).pre c := by
  rw [V7_outs m c]; exact .rfl

set_option backward.isDefEq.respectTransparency.types false in
/-- THE RUN. From any memory `m` with zero counters, every weakly fair execution of @main on the TensorCores terminates,
    and in every final memory each unscoped buffer of each core holds the last valuation `Gen.V9` at the contents `outs`
    the two regions leave: the nine items chained from the launch's thread state, the last one read against the final
    state. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V9 m (outs m) c b) := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ R c))
    (Tₙ := fun c => StableHlo.held (c : Thread nD τ) (Pipeline.ucRefs τ sig) (Gen.V9 m (outs m) c))
    (hch := fun c => ⟨.rfl, .rfl, .rfl, .rfl, .rfl, .rfl, .rfl, hpre1 m c, .rfl, sep_mono .rfl (by iintro ⟨-, HO⟩; iexact HO)⟩)
    (hinit := ?_)
    (QY := fun c s => ∀ b ∈ Pipeline.ucRefs τ sig, s.mem ((c : Thread nD τ).1, b) = Gen.V9 m (outs m) c b)
    (hfin := fun c s' => ?_) (hQ := fun _ h => h)
  · -- the launch element is the pipeline library's, and no core holds a ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: the unscoped buffers are held at the launch contents; the generator register and the dues ride beside
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every held buffer read off the final state
    iintro ⟨Hh, HSI⟩
    unfold StableHlo.held
    imodintro
    iapply (pointsTo_read_all (Pipeline.ucRefs τ sig) (fun b => ((c : Thread nD τ).1, b)) (Gen.V9 m (outs m) c) s')
    isplitl [Hh] <;> iassumption

/-- THE FRAME, at any float instance: every weakly fair execution of @main terminates, and every argument array ends
    holding its launch contents — no host operation writes an argument, and a region changes its output array only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (Gen.V9_main_arg0 m (outs m) c),
    (h c _ (mem_uc main_arg1 (by decide))).trans (Gen.V9_main_arg1 m (outs m) c),
    (h c _ (mem_uc main_arg2 (by decide))).trans (Gen.V9_main_arg2 m (outs m) c),
    (h c _ (mem_uc main_arg3 (by decide))).trans (Gen.V9_main_arg3 m (outs m) c),
    (h c _ (mem_uc main_arg4 (by decide))).trans (Gen.V9_main_arg4 m (outs m) c),
    (h c _ (mem_uc main_arg5 (by decide))).trans (Gen.V9_main_arg5 m (outs m) c),
    (h c _ (mem_uc main_arg6 (by decide))).trans (Gen.V9_main_arg6 m (outs m) c),
    (h c _ (mem_uc main_arg7 (by decide))).trans (Gen.V9_main_arg7 m (outs m) c)⟩) (run_all m ρ)

/-- info: 'Cert.Kernel.Hand.run_all' depends on axioms: [propext, Classical.choice, Quot.sound] -/
#guard_msgs in #print axioms run_all
/-- info: 'Cert.Kernel.Hand.frame' depends on axioms: [propext, Classical.choice, Quot.sound] -/
#guard_msgs in #print axioms frame

end Cert.Kernel.Hand

end
-- ==== Proof.KI.R0.lean ====
/- Region 0 of @main, the call of cc0__combine_relu_kernel on its grid of 25 points, at the buffer contents V the
   region is entered with. Each of the six input windows is loaded whole and the output window is stored whole once,
   so after the body at a point the output's staging buffer is the payload k0_pay1 of the six input blocks and every
   input's buffer is its block still. Stated for any float instance. -/
import proofs.«170781_j19602230739553_2_alg».proof.Proof.Gen.KernelIdeal.Launch
import proofs.«170781_j19602230739553_2_alg».proof.Proof.Gen.KernelIdeal.Skeleton
import proofs.«170781_j19602230739553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
-- the TensorCore's buffer contents when a region is entered: the parameter each region's half is stated at
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the block was fetched there or
    is the one an earlier point fetched (its block index has not moved since), for any proof data whose array is V's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the block was fetched there or
    is the one an earlier point fetched (its block index has not moved since), for any proof data whose array is V's
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the block was fetched there or
    is the one an earlier point fetched (its block index has not moved since), for any proof data whose array is V's
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the block was fetched there or
    is the one an earlier point fetched (its block index has not moved since), for any proof data whose array is V's
    and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the block was fetched there or
    is the one an earlier point fetched (its block index has not moved since), for any proof data whose array is V's
    and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the block was fetched there or
    is the one an earlier point fetched (its block index has not moved since), for any proof data whose array is V's
    and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S4000x20 := Rect.unit (s := S4000x20) ![0, 0] S4000x20.size inb_S4000x20_S4000x20_0_0
abbrev rD0 : Rect S4000x1 := Rect.unit (s := S4000x1) ![0, 0] S4000x1.size inb_S4000x1_S4000x1_0_0
abbrev rW0 : Rect S20x64 := Rect.unit (s := S20x64) ![0, 0] S20x64.size inb_S20x64_S20x64_0_0
abbrev rB0 : Rect S1x64 := Rect.unit (s := S1x64) ![0, 0] S1x64.size inb_S1x64_S1x64_0_0
abbrev rO0 : Rect S4000x64 := Rect.unit (s := S4000x64) ![0, 0] S4000x64.size inb_S4000x64_S4000x64_0_0

/-! ## What the body leaves in the output window's buffer -/

/-- window 6's staging buffer after the body, from the six input blocks (window order 0..5): its one store, of the
    payload of the six whole loads, as the single piece of the buffer. -/
def out0_6 (x0 : Vec F S4000x20 .f32) (x1 : Vec F S4000x20 .f32) (x2 : Vec F S4000x1 .f32) (x3 : Vec F S20x64 .bf16) (x4 : Vec F S1x64 .f32) (x5 : Vec F S20x64 .bf16) : Vec F S4000x64 .bf16 :=
  View.canon [⟨rO0, k0_pay1 (View.ld x0 rA0) (View.ld x2 rD0) (View.ld x1 rA0) (View.ld x3 rW0) (View.ld x4 rB0) (View.ld x5 rW0)⟩]

/-- The one store is of the whole buffer, so every index of the buffer lies in it. -/
theorem cover0_6 (p0 : Vec F S4000x64 .bf16) (y : S4000x64.Idx) :
    ∃ pc ∈ ([⟨rO0, p0⟩] : List (View.Piece (Elt F) S4000x64 .bf16)), y ∈ pc.1.set :=
  View.cover_of_tiled [⟨rO0, p0⟩] S4000x64.size (by rfl) y

/-! ## The body's triple -/

set_option maxHeartbeats 1000000 in
/-- The kernel body at any grid coordinate, on whole staging memrefs, the six inputs' at read contents x0..x5 and the
    output's at anything, runs to the continuation holding the inputs' as they were and the output's at out0_6 of the
    inputs': six whole loads, a load of the output's buffer whose value is not used, and one whole store of the payload. -/
theorem sound_kernel0 (c : Dev nD) (E : Set ℕ) (i : grid0.Coords) (arg1 : Memref sig .tc .vmem S4000x20 .f32) (harg1 : arg1.IsWhole) (arg2 : Memref sig .tc .vmem S4000x20 .f32) (harg2 : arg2.IsWhole) (arg3 : Memref sig .tc .vmem S4000x1 .f32) (harg3 : arg3.IsWhole) (arg4 : Memref sig .tc .vmem S20x64 .bf16) (harg4 : arg4.IsWhole) (arg5 : Memref sig .tc .vmem S1x64 .f32) (harg5 : arg5.IsWhole) (arg6 : Memref sig .tc .vmem S20x64 .bf16) (harg6 : arg6.IsWhole) (arg7 : Memref sig .tc .vmem S4000x64 .bf16) (harg7 : arg7.IsWhole)
    (x0 : Vec F S4000x20 .f32) (x1 : Vec F S4000x20 .f32) (x2 : Vec F S4000x1 .f32) (x3 : Vec F S20x64 .bf16) (x4 : Vec F S1x64 .f32) (x5 : Vec F S20x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__combine_relu_kernel i arg1 harg1 arg2 harg2 arg3 harg3 arg4 harg4 arg5 harg5 arg6 harg6 arg7 harg7) K := by
  simp only [cc0__combine_relu_kernel_eq_skeleton]; unfold cc0__combine_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of region 0's pipeline on core c: the arrays as the region finds them; after the body at point t
    each input's buffer at its block and the output's at out0_6 of the six input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point t: the invariant, what is owed, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and what
    is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.R1Runs.lean ====
/- Region 1 (the mean over all rows, accumulated block by block): what the three cases of its body share.
   The grid has 25 points. At the first point the kernel zeroes its accumulator (the scratch operand), at every point it
   adds the block's column sums to the accumulator, and at the last point it stores the accumulator scaled by 1/100000
   into the output block, which no other point touches. Here: the input blocks, the two branch conditions in closed form,
   where the output window is idle, the staging memrefs at a point, and the region invariant with the accumulator named. -/
import proofs.«170781_j19602230739553_2_alg».proof.Proof.Gen.KernelIdeal.Launch
import proofs.«170781_j19602230739553_2_alg».proof.Proof.Gen.KernelIdeal.Skeleton
import proofs.«170781_j19602230739553_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents (`View.cover_of_tiledL`) recurses once per coordinate of the long axes
set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (the three row
    blocks are fetched at every point; the two weight matrices and the bias have a constant block index and are fetched
    once: unfetched, the index has not moved), for any proof data whose array is `V`'s and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first branch (zero the accumulator), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second branch (store the scaled accumulator into the output), from the grid coordinate. -/
abbrev cond1_1 (i : grid1.Coords) : Prop := k1_cond2 i = 1#1
/-- It holds at the last point only. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-! The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At the first point the output window is idle: the body stores nothing into it. -/
theorem idleAt1_6_A : ∀ t : Fin cfg1.N, cond1_0 (grid1.coords t) → ¬cond1_1 (grid1.coords t) → cfg1.idle 6 (grid1.coords t) = true := by decide +kernel
/-- At the first point the output block is not written back. -/
theorem noFlush1_6_A : ∀ t : Fin cfg1.N, cond1_0 (grid1.coords t) → ¬cond1_1 (grid1.coords t) → (cfg1.win 6).flush t = false := by decide +kernel
/-- At a middle point the output window is idle: the body stores nothing into it. -/
theorem idleAt1_6_B : ∀ t : Fin cfg1.N, ¬cond1_0 (grid1.coords t) → ¬cond1_1 (grid1.coords t) → cfg1.idle 6 (grid1.coords t) = true := by decide +kernel
/-- At a middle point the output block is not written back. -/
theorem noFlush1_6_B : ∀ t : Fin cfg1.N, ¬cond1_0 (grid1.coords t) → ¬cond1_1 (grid1.coords t) → (cfg1.win 6).flush t = false := by decide +kernel
/-- At the last point the output window is live: the body stores into it. -/
theorem liveAt1_6_C : ∀ t : Fin cfg1.N, ¬cond1_0 (grid1.coords t) → cond1_1 (grid1.coords t) → cfg1.idle 6 (grid1.coords t) = false := by decide +kernel

/-! ## The staging memrefs and the accumulator -/

/-- The output window's one staging buffer, through which its contents are stated. -/
abbrev VO1_6 : View sig .tc .vmem S1x64 .f32 := (Memref.whole cc1_stg6_0 : Memref sig .tc .vmem S1x64 .f32).view
/-! Each window's current staging memref at point `t`, as the pipeline passes it to the body, and its wholeness. -/
abbrev ms1_0 (t : Fin cfg1.N) : Memref sig .tc .vmem S4000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S1x64 .f32 := Memref.whole cc1_scratch0
/-- The accumulator as a view: what it holds is stated through it. -/
abbrev VS1_0 : View sig .tc .vmem S1x64 .f32 := scM1_0.view

/-- The core's scoped buffers that are no staging buffer of this region: the other region's staging buffers, each at
    some contents, and the accumulator as `S` states it. -/
def scoped1 (c : Dev nD) (S : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ S)

/-- The class's region invariant with the accumulator as a memref owned at some contents: what the body obligation
    hands the body at the first point and what the region gives back at the end. -/
theorem PhiA1_eq (c : Dev nD) :
    (Pipeline.ΦA spec1 c : sProp 𝕄)
      = iprop(scoped1 (F := F) c (iprop(∃ d, owns (c : Thread nD τ) scM1_0 fullShare d)) ∗ (∃ r, prngReg c r)) := by
  unfold Pipeline.ΦA scoped1; rw [scopedRest1_eq]; simp only [scM1_0, owns_whole]; try rfl

end Cert.KernelIdeal.Hand

end
-- ==== Proof.KI.R1RunA.lean ====
/- Region 1, the body's run at the FIRST point: the accumulator, found at anything, is zeroed and then receives the
   block's column sums added to what it holds; the output block is not touched. -/
import proofs.«170781_j19602230739553_2_alg».proof.Proof.KI.R1Runs

-- membership in a rectangle of large extents (`View.cover_of_tiledL`) recurses once per coordinate of the long axes
set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first), at the
    first point (first branch taken, second not), with the proof that on whole memrefs — the six inputs at their
    contents, the output at contents `xi6` handed back untouched, the accumulator at anything — the body runs to the
    continuation holding the inputs as they were, the output as it was and the accumulator with its pieces written. -/
noncomputable def kernelRun1_A (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) :
    Σ' (L6 : List (View.Piece (Elt F) S1x64 .f32)), { LS0 : List (View.Piece (Elt F) S1x64 .f32) //
      ∀ (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1__combine_mean_kernel i arg1 harg1 arg2 harg2 arg3 harg3 arg4 harg4 arg5 harg5 arg6 harg6 arg7 harg7 arg8 harg8) K } := by
  refine ⟨[], ?_, fun xi6 E K => ?run⟩
  case run =>
    simp only [cc1__combine_mean_kernel_eq_skeleton]; unfold cc1__combine_mean_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Hand

end
-- ==== Proof.KI.R1RunB.lean ====
/- Region 1, the body's run at a MIDDLE point: the accumulator, found at what the point before left, receives the
   block's column sums added to it; the output block is not touched. -/
import proofs.«170781_j19602230739553_2_alg».proof.Proof.KI.R1RunA

-- membership in a rectangle of large extents (`View.cover_of_tiledL`) recurses once per coordinate of the long axes
set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first), at a
    middle point (neither branch taken), with the proof that on whole memrefs — the six inputs at their contents, the
    output at contents `xi6` handed back untouched, the accumulator at the contents `xs0` the point before left — the
    body runs to the continuation holding the inputs as they were, the output as it was and the accumulator with its
    pieces written. -/
noncomputable def kernelRun1_B (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) :
    Σ' (L6 : List (View.Piece (Elt F) S1x64 .f32)), { LS0 : List (View.Piece (Elt F) S1x64 .f32) //
      ∀ (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1__combine_mean_kernel i arg1 harg1 arg2 harg2 arg3 harg3 arg4 harg4 arg5 harg5 arg6 harg6 arg7 harg7 arg8 harg8) K } := by
  refine ⟨[], ?_, fun xi6 E K => ?run⟩
  case run =>
    simp only [cc1__combine_mean_kernel_eq_skeleton]; unfold cc1__combine_mean_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Hand

end
-- ==== Proof.KI.R1RunC.lean ====
/- Region 1, the body's run at the LAST point: the accumulator, found at what the point before left, receives the
   block's column sums added to it, and the output block receives the accumulator scaled by 1/100000. -/
import proofs.«170781_j19602230739553_2_alg».proof.Proof.KI.R1RunB

-- membership in a rectangle of large extents (`View.cover_of_tiledL`) recurses once per coordinate of the long axes
set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator, as pieces (last first), at the
    last point (first branch not taken, second taken), with the proof that on whole memrefs — the six inputs at their
    contents, the output at anything, the accumulator at the contents `xs0` the point before left — the body runs to the
    continuation holding the inputs as they were and the output and the accumulator with their pieces written. -/
noncomputable def kernelRun1_C (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) :
    Σ' (L6 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc1__combine_mean_kernel i arg1 harg1 arg2 harg2 arg3 harg3 arg4 harg4 arg5 harg5 arg6 harg6 arg7 harg7 arg8 harg8) K } := by
  refine ⟨?_, ?_, fun E K => ?run⟩
  case run =>
    simp only [cc1__combine_mean_kernel_eq_skeleton]; unfold cc1__combine_mean_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Hand

end
-- ==== Proof.KI.R1.lean ====
/- Region 1 (the mean over all rows, accumulated block by block): the region's half of the certificate. What the
   output block and the accumulator hold after each of the 25 points (`outsAt1`: the first point's run over nothing, each
   later point's run over what the accumulator held before it), the proof data (`dat1`), the body obligation at every
   point from the three runs, and the invariant's two ends (`hin1`, `hout1`). -/
import proofs.«170781_j19602230739553_2_alg».proof.Proof.KI.R1RunC

-- membership in a rectangle of large extents (`View.cover_of_tiledL`) recurses once per coordinate of the long axes
set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- At the first point the body stores nothing into the output block (the window is idle there and not written back): no
    pieces — a placeholder that nothing consults. -/
def out1_A_6 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) : Vec F S1x64 .f32 :=
  VO1_6.read (Elt F) (VO1_6.writes (Elt F) VO1_6.junk (kernelRun1_A c i arg1 harg1 arg2 harg2 arg3 harg3 arg4 harg4 arg5 harg5 arg6 harg6 arg7 harg7 arg8 harg8 hc0 hc1 x0 x1 x2 x3 x4 x5).1)

/-- At the first point the body's stores into the accumulator cover it (each is of the whole buffer). -/
theorem scover1_A_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (y : S1x64.Idx) :
    ∃ pc ∈ (kernelRun1_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).2.1 S1x64.size (by sl_kernel_rfl) y

/-- What the body leaves in the accumulator at the first point: its pieces read back. -/
def sout1_A_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) : Vec F S1x64 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2 x3 x4 x5).2.1)

/-- At a middle point the body stores nothing into the output block (the window is idle there and not written back): no
    pieces — a placeholder that nothing consults. -/
def out1_B_6 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) : Vec F S1x64 .f32 :=
  VO1_6.read (Elt F) (VO1_6.writes (Elt F) VO1_6.junk (kernelRun1_B c i arg1 harg1 arg2 harg2 arg3 harg3 arg4 harg4 arg5 harg5 arg6 harg6 arg7 harg7 arg8 harg8 hc0 hc1 x0 x1 x2 x3 x4 x5 xs0).1)

/-- At a middle point the body's stores into the accumulator cover it (each is of the whole buffer). -/
theorem scover1_B_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) (y : S1x64.Idx) :
    ∃ pc ∈ (kernelRun1_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xs0).2.1 S1x64.size (by sl_kernel_rfl) y

/-- What the body leaves in the accumulator at a middle point: its pieces read back. -/
def sout1_B_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 x3 x4 x5 xs0).2.1)

/-- At the last point the body's one store into the output block covers it. -/
theorem cover1_C_6 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) (y : S1x64.Idx) :
    ∃ pc ∈ (kernelRun1_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 x5 xs0).1 S1x64.size (by sl_kernel_rfl) y

/-- What the body leaves in the output's staging buffer at the last point: its pieces read back. -/
def out1_C_6 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) : Vec F S1x64 .f32 :=
  VO1_6.read (Elt F) (VO1_6.writes (Elt F) VO1_6.junk (kernelRun1_C c i arg1 harg1 arg2 harg2 arg3 harg3 arg4 harg4 arg5 harg5 arg6 harg6 arg7 harg7 arg8 harg8 hc0 hc1 x0 x1 x2 x3 x4 x5 xs0).1)

/-- At the last point the body's stores into the accumulator cover it (each is of the whole buffer). -/
theorem scover1_C_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) (y : S1x64.Idx) :
    ∃ pc ∈ (kernelRun1_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 x5 xs0).2.1 S1x64.size (by sl_kernel_rfl) y

/-- What the body leaves in the accumulator at the last point: its pieces read back. -/
def sout1_C_0 (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) : Vec F S1x64 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 x3 x4 x5 xs0).2.1)

/-! ## What the output and the accumulator hold after each point -/

/-- THE ACCUMULATION. What the output's staging buffer and the accumulator hold after the body at position `n`:
    the case the closed forms select at `n`, run at the point's memrefs and input blocks, over what the accumulator
    held after position `n - 1`. -/
def outsAt1 (c : Dev nD) : (n : ℕ) → n < cfg1.N → Vec F S1x64 .f32 × Vec F S1x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 25 = 0 then
      if h1 : (n + 1) % 25 = 24 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 25 = 24 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at the first point. -/
theorem outsAt1_A (c : Dev nD) (t : Fin cfg1.N) (h0 : t.val % 25 = 0) (h1 : ¬t.val % 25 = 24) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a middle point: over what the point before left in the accumulator. -/
theorem outsAt1_B (c : Dev nD) (t : Fin cfg1.N) (h0 : ¬t.val % 25 = 0) (h1 : ¬t.val % 25 = 24) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: over what the point before left in the accumulator. -/
theorem outsAt1_C (c : Dev nD) (t : Fin cfg1.N) (h0 : ¬t.val % 25 = 0) (h1 : t.val % 25 = 24) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer at anything, the generator register at some state); afterwards the same with the accumulator at what the point
    before left in it. -/
def PhiS1 (c : Dev nD) : (n : ℕ) → n ≤ cfg1.N → sProp 𝕄
  | 0, _ => Pipeline.ΦA spec1 c
  | n + 1, hn => iprop(scoped1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(scoped1 (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(scoped1 (F := F) c (owns (c : Thread nD τ) scM1_0 fullShare ((outsAt1 V c (n - 1) (by omega)).2)) ∗ (∃ r, prngReg c r)) := by
  cases n with
  | zero => exact absurd rfl hz
  | succ n => rfl

/-! ## The proof data -/

/-- The proof data of the region on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t | ⟨1, _⟩ => iblk1 V c 1 t | ⟨2, _⟩ => iblk1 V c 2 t | ⟨3, _⟩ => iblk1 V c 3 t | ⟨4, _⟩ => iblk1 V c 4 t | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which of the three cases the
    point is in; that case's run applies. The invariant hands the body the accumulator at what the point before left
    (at anything at the first point) and takes it back at this point's contents, the body's stores covering it; the
    other scoped buffers and the generator register pass through untouched; the core owes nothing throughout. At the
    first and the middle points the output's buffer is handed back as found; at the last point the body's store
    covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  by_cases h0 : t.val % 25 = 0
  · by_cases h1 : t.val % 25 = 24
    · exfalso; omega
    · have hz : t.val = 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      rw [PhiS1_castSucc V c t, PhiS1_zero V c _ _ hz, PhiA1_eq]
      unfold scoped1
      iintro ⟨⟨⟨R0, R1, R2, R3, R4, R5, R6, R7, R8, R9, R10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [R0 R1 R2 R3 R4 R5 R6 R7 R8 R9 R10 HS0 Hg]
      · isplitl [R0 R1 R2 R3 R4 R5 R6 R7 R8 R9 R10 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS0
          ipureintro; exact View.read_writes_of_cover _ _ _ _ _ (scover1_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 25 = 24
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      rw [PhiS1_castSucc V c t, PhiS1_pos V c _ _ hz]
      unfold scoped1
      iintro ⟨⟨⟨R0, R1, R2, R3, R4, R5, R6, R7, R8, R9, R10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [R0 R1 R2 R3 R4 R5 R6 R7 R8 R9 R10 HS0 Hg]
      · isplitl [R0 R1 R2 R3 R4 R5 R6 R7 R8 R9 R10 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      unfold scoped1
      iintro ⟨⟨⟨R0, R1, R2, R3, R4, R5, R6, R7, R8, R9, R10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [R0 R1 R2 R3 R4 R5 R6 R7 R8 R9 R10 HS0 Hg]
      · isplitl [R0 R1 R2 R3 R4 R5 R6 R7 R8 R9 R10 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨R0, R1, R2, R3, R4, R5, R6, R7, R8, R9, R10, HS0⟩, Hg⟩
  isplitl [R0 R1 R2 R3 R4 R5 R6 R7 R8 R9 R10 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Cert.KernelIdeal.Hand

end
-- ==== Proof.KI.Run.lean ====
/- The run of @main from the launch to the return. @main is nine items: five stretches of host operations, the first
   pipelined region (one block of `main_v44` per grid point), a host stretch, the second pipelined region (the mean,
   written to `main_v59` at the last grid point), and a last host stretch. Between two items every unscoped buffer of a
   core is held whole at a known valuation (`Gen.V0` … `Gen.V9`); a region changes only its output array, and what it
   leaves there is the fold of its write-backs over the grid (`Dat.arrAt … N`). The two regions' records are chained
   with the host stretches, and the last valuation is read against the final memory. -/
import proofs.«170781_j19602230739553_2_alg».proof.Proof.Gen.KernelIdeal.Launch
import proofs.«170781_j19602230739553_2_alg».proof.Proof.Gen.KernelIdeal.Skeleton
import proofs.«170781_j19602230739553_2_alg».proof.Proof.Gen.KernelIdeal.Points
import proofs.«170781_j19602230739553_2_alg».proof.Proof.Gen.KernelIdeal.Regions
import proofs.«170781_j19602230739553_2_alg».proof.Proof.KI.R0
import proofs.«170781_j19602230739553_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-! ## The buffers' contents around the two regions -/

/-- The TensorCore's buffers as the first region finds them: the launch memory after the five host stretches. -/
abbrev Vin0 : (c : Dev nD) → (b : Ref sig .tc) → Buf (Elt F) ((c : Thread nD τ).loc b) := fun c b => Gen.V5 m c b

/-- What the first region leaves: `main_v44` holds the fold of the region's 25 write-backs over what it held at entry
    (every other index and reference is never read). -/
def outs0 : Gen.Outs (F := F) := fun _ r c =>
  Pipeline.withArrays spec0 c (Gen.V5 m c) (fun w => (dat0 (Vin0 m) c).arrAt w cfg0.N) (Proc.devRef .tc r)

/-- The TensorCore's buffers as the second region finds them: they depend on the first region's output only. -/
abbrev Vin1 : (c : Dev nD) → (b : Ref sig .tc) → Buf (Elt F) ((c : Thread nD τ).loc b) := fun c b => Gen.V7 m (outs0 m) c b

/-- What the two regions leave: the first region's output as `outs0`; after the second region `main_v59` holds the
    fold of that region's write-backs (the single one of the last grid point) over what it held at entry. -/
def outs : Gen.Outs (F := F) := fun J r c =>
  if J = 8 then Pipeline.withArrays spec1 c (Gen.V7 m (outs0 m) c) (fun w => (dat1 (Vin1 m) c).arrAt w cfg1.N) (Proc.devRef .tc r)
  else outs0 m J r c

theorem outs0_v44 (c : Dev nD) : outs0 m 6 main_v44 c = (dat0 (Vin0 m) c).arrAt 6 cfg0.N :=
  Pipeline.withArrays_arr spec0 launch0.win.arr_inj c _ _ 6

theorem outs_eq_outs0 (c : Dev nD) : outs m 6 main_v44 c = outs0 m 6 main_v44 c := if_neg (by decide)

theorem outs_v44 (c : Dev nD) : outs m 6 main_v44 c = (dat0 (Vin0 m) c).arrAt 6 cfg0.N :=
  (outs_eq_outs0 m c).trans (outs0_v44 m c)

theorem outs_v59 (c : Dev nD) : outs m 8 main_v59 c = (dat1 (Vin1 m) c).arrAt 6 cfg1.N :=
  (if_pos rfl).trans (Pipeline.withArrays_arr spec1 launch1.win.arr_inj c _ _ 6)

/-- The second region's entry contents do not depend on the second stage of `outs`. -/
theorem V7_outs (c : Dev nD) : Gen.V7 m (outs m) c = Gen.V7 m (outs0 m) c := by
  show StableHlo.after hostOps1 (Function.update (Gen.V5 m c) main_v44 (outs m 6 main_v44 c))
    = StableHlo.after hostOps1 (Function.update (Gen.V5 m c) main_v44 (outs0 m 6 main_v44 c))
  rw [outs_eq_outs0 m c]

/-- The buffers as the first region leaves them, and as the second does, read at the TensorCore's references. -/
abbrev Vout0 : (c : Dev nD) → (b : Ref sig .tc) → Buf (Elt F) ((c : Thread nD τ).loc b) := fun c b => Gen.V6 m (outs m) c b
abbrev Vout1 : (c : Dev nD) → (b : Ref sig .tc) → Buf (Elt F) ((c : Thread nD τ).loc b) := fun c b => Gen.V8 m (outs m) c b

/-! ### At a region's exit its arrays hold what the pipeline leaves, every other buffer what it held at entry -/

/-- An input array of the first region is left as entered. -/
theorem hF0_in (c : Dev nD) (w : Fin cfg0.W) (hin : (cfg0.win w).isOut = false)
    (hne : Pipeline.arrRef spec0 w ∉ ([main_v44] : List (Ref sig .tc))) :
    (dat0 (Vin0 m) c).arrAt w cfg0.N = Vout0 m c (Pipeline.arrRef spec0 w) :=
  ((dat0 (Vin0 m) c).arrAt_in w hin _).trans ((A_eq0 (Vin0 m) c w).trans (Gen.V6_of m (outs m) c _ hne).symm)

theorem hF0 (c : Dev nD) : ∀ w : Fin cfg0.W, (dat0 (Vin0 m) c).arrAt w cfg0.N = Vout0 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => (outs_v44 m c).symm.trans (Function.update_self (Proc.devRef (τ := τ) .tc main_v44) (outs m 6 main_v44 c) (Gen.V5 m c)).symm

theorem hrest0 (c : Dev nD) : ∀ b, b ∉ Finset.univ.image (Pipeline.arrRef spec0) → Vout0 m c b = Vin0 m c b :=
  fun b hb => Gen.V6_of m (outs m) c b fun h =>
    hb (Finset.mem_image.mpr ⟨6, Finset.mem_univ _, (List.mem_singleton.mp h).symm⟩)

/-- An input array of the second region is left as entered. -/
theorem hF1_in (c : Dev nD) (w : Fin cfg1.W) (hin : (cfg1.win w).isOut = false)
    (hne : Pipeline.arrRef spec1 w ∉ ([main_v59] : List (Ref sig .tc))) :
    (dat1 (Vin1 m) c).arrAt w cfg1.N = Vout1 m c (Pipeline.arrRef spec1 w) :=
  ((dat1 (Vin1 m) c).arrAt_in w hin _).trans ((A_eq1 (Vin1 m) c w).trans
    ((congrFun (V7_outs m c) _).symm.trans (Gen.V8_of m (outs m) c _ hne).symm))

theorem hF1 (c : Dev nD) : ∀ w : Fin cfg1.W, (dat1 (Vin1 m) c).arrAt w cfg1.N = Vout1 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => (outs_v59 m c).symm.trans (Function.update_self (Proc.devRef (τ := τ) .tc main_v59) (outs m 8 main_v59 c) (Gen.V7 m (outs m) c)).symm

theorem hrest1 (c : Dev nD) : ∀ b, b ∉ Finset.univ.image (Pipeline.arrRef spec1) → Vout1 m c b = Vin1 m c b :=
  fun b hb => (Gen.V8_of m (outs m) c b fun h =>
    hb (Finset.mem_image.mpr ⟨6, Finset.mem_univ _, (List.mem_singleton.mp h).symm⟩)).trans (congrFun (V7_outs m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No kernel variant is chosen, and no core owes another anything: no level is assigned. -/
abbrev 𝒱₀ : Variants := Variants.none
abbrev L : GSem nD τ sig → Finset Unit := fun _ => ∅
abbrev lv : GSem nD τ sig → Unit → ℕ := fun _ _ => 0

/-- What rides beside the held buffers through every item: the core's generator register at some state (a region's
    invariant takes it in and gives it back) and the core's dues, at nothing. -/
abbrev R (c : Dev nD) : sProp 𝕄 := iprop((∃ r, prngReg c r) ∗ ∃ W, owes (c : Thread nD τ) (0 : CellTallies nD τ sig Unit) W)
/-- The rest state is the same at the three stages (before the first region, between the two, after the second). -/
abbrev E : Fin 3 → Dev nD → sProp 𝕄 := fun _ c => R c

/-! ## The regions as segments -/

set_option backward.isDefEq.respectTransparency.types false in
/-- THE FIRST REGION over the thread state: entered from every unscoped buffer at `Gen.V5`, left at `Gen.V6`. Its seven
    arrays are split out of the unscoped buffers and put back at the exit contents (`hF0`, `hrest0`); the generator
    register goes into the region's invariant beside the scoped buffers no window stages, and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `Gen.V7` (read at the first stage of
    `outs`: `V7_outs`), left at `Gen.V8`. Its arrays are split out and put back as the first region's; its invariant
    carries the accumulator from grid point to grid point, and is entered from and left at the scoped buffers no
    window stages beside the generator register (`hin1`, `hout1`); nothing is owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V7 m (outs0 m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun w => A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vin1 m) c
    unfold Pipeline.ΦA at h
    show _ ⊢ (dat1 (Vin1 m) c).Φ 0
    iintro ⟨Hp, -, Hr⟩
    iapply h
    isplitl [Hr]; · iexact Hr
    iexact Hp
  hout c := by
    have h := hout1 (Vin1 m) c
    unfold Pipeline.ΦA at h
    rw [Pipeline.ownSems0_none]
    show (dat1 (Vin1 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The second region is entered from the thread state the host stretch before it leaves. -/
theorem hpre1 (c : Dev nD) :
    iprop(StableHlo.held (c : Thread nD τ) (Pipeline.ucRefs τ sig) (Gen.V7 m (outs m) c) ∗ E (F := F) 1 c) ⊢ (reg1 m).pre c := by
  rw [V7_outs m c]; exact .rfl

set_option backward.isDefEq.respectTransparency.types false in
/-- THE RUN. From any memory `m` with zero counters, every weakly fair execution of @main on the TensorCores terminates,
    and in every final memory each unscoped buffer of each core holds the last valuation `Gen.V9` at the contents `outs`
    the two regions leave: the nine items chained from the launch's thread state, the last one read against the final
    state. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V9 m (outs m) c b) := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ R c))
    (Tₙ := fun c => StableHlo.held (c : Thread nD τ) (Pipeline.ucRefs τ sig) (Gen.V9 m (outs m) c))
    (hch := fun c => ⟨.rfl, .rfl, .rfl, .rfl, .rfl, .rfl, .rfl, hpre1 m c, .rfl, sep_mono .rfl (by iintro ⟨-, HO⟩; iexact HO)⟩)
    (hinit := ?_)
    (QY := fun c s => ∀ b ∈ Pipeline.ucRefs τ sig, s.mem ((c : Thread nD τ).1, b) = Gen.V9 m (outs m) c b)
    (hfin := fun c s' => ?_) (hQ := fun _ h => h)
  · -- the launch element is the pipeline library's, and no core holds a ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: the unscoped buffers are held at the launch contents; the generator register and the dues ride beside
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every held buffer read off the final state
    iintro ⟨Hh, HSI⟩
    unfold StableHlo.held
    imodintro
    iapply (pointsTo_read_all (Pipeline.ucRefs τ sig) (fun b => ((c : Thread nD τ).1, b)) (Gen.V9 m (outs m) c) s')
    isplitl [Hh] <;> iassumption

/-- THE FRAME, at any float instance: every weakly fair execution of @main terminates, and every argument array ends
    holding its launch contents — no host operation writes an argument, and a region changes its output array only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (Gen.V9_main_arg0 m (outs m) c),
    (h c _ (mem_uc main_arg1 (by decide))).trans (Gen.V9_main_arg1 m (outs m) c),
    (h c _ (mem_uc main_arg2 (by decide))).trans (Gen.V9_main_arg2 m (outs m) c),
    (h c _ (mem_uc main_arg3 (by decide))).trans (Gen.V9_main_arg3 m (outs m) c),
    (h c _ (mem_uc main_arg4 (by decide))).trans (Gen.V9_main_arg4 m (outs m) c),
    (h c _ (mem_uc main_arg5 (by decide))).trans (Gen.V9_main_arg5 m (outs m) c),
    (h c _ (mem_uc main_arg6 (by decide))).trans (Gen.V9_main_arg6 m (outs m) c),
    (h c _ (mem_uc main_arg7 (by decide))).trans (Gen.V9_main_arg7 m (outs m) c)⟩) (run_all m ρ)

/-- info: 'Cert.KernelIdeal.Hand.run_all' depends on axioms: [propext, Classical.choice, Quot.sound] -/
#guard_msgs in #print axioms run_all
/-- info: 'Cert.KernelIdeal.Hand.frame' depends on axioms: [propext, Classical.choice, Quot.sound] -/
#guard_msgs in #print axioms frame

end Cert.KernelIdeal.Hand

end
-- ==== Proof.Algebraic.lean ====
/- The last conjunct of the claim, reduced to one equation. At the ideal instance, from memories that agree on the
   eight arguments, the kernel program's run ends with every unscoped buffer at the last valuation of its nine items
   (so its result `main_v60` holds that valuation there, and the arguments their launch contents), and the reference
   program's run ends with its result `main_v56` at the composed term of its 75 host operations (and the arguments as
   launched). The two results are equal as soon as that term, at the reference's memory, is the kernel's last valuation
   at `main_v60`: the one hypothesis `hres`. -/
import proofs.«170781_j19602230739553_2_alg».proof.Defs
import proofs.«170781_j19602230739553_2_alg».proof.Proof.Gen.KernelIdeal
import proofs.«170781_j19602230739553_2_alg».proof.Proof.Gen.ReferenceIdeal
import proofs.«170781_j19602230739553_2_alg».proof.Proof.Gen.Pre_finite_inputs
import proofs.«170781_j19602230739553_2_alg».proof.Proof.KI.Run
import proofs.«170781_j19602230739553_2_alg».proof.Proof.RefRun
import proofs.«170781_j19602230739553_2_alg».proof.Proof.RefRead

noncomputable section

open Idealize.ShloMosaic Idealize.ShloMosaic.TcCoe Idealize.SL.Sem

namespace Cert.Proof.Alg

/-- THE ALGEBRAIC CONJUNCT FROM ONE EQUATION. If, whenever the two memories agree on the eight arguments, the
    reference's result term at its memory is the kernel's last valuation at `main_v60`, then at the ideal instance both
    programs run, end with equal results and leave their arguments unchanged. -/
theorem algebraic_of
    (hres : ∀ (m : (ℓ : Loc Cert.KernelIdeal.nD Cert.KernelIdeal.τ Cert.KernelIdeal.sig) → Buf (Elt Ideal) ℓ)
      (m' : (ℓ : Loc Cert.ReferenceIdeal.nD Cert.ReferenceIdeal.τ Cert.ReferenceIdeal.sig) → Buf (Elt Ideal) ℓ),
      (∀ c : Dev Cert.KernelIdeal.nD,
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
      ∀ c : Dev Cert.KernelIdeal.nD,
        Cert.ReferenceIdeal.ValueP.res_main_v56 (F := Ideal) m' c
          = Cert.KernelIdeal.Gen.V9 m (Cert.KernelIdeal.Hand.outs m) c Cert.KernelIdeal.main_v60) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.Gen.V9 m (Cert.KernelIdeal.Hand.outs m) c Cert.KernelIdeal.main_v60, ?_, ?_⟩
  · -- the kernel: its result and its arguments read off the last valuation
    exact (θ_run Cert.KernelIdeal.defs _ _).mono (fun r h c => ⟨
      h c _ (Cert.KernelIdeal.Hand.mem_uc Cert.KernelIdeal.main_v60 (by decide)),
      (h c _ (Cert.KernelIdeal.Hand.mem_uc Cert.KernelIdeal.main_arg0 (by decide))).trans (Cert.KernelIdeal.Gen.V9_main_arg0 m (Cert.KernelIdeal.Hand.outs m) c),
      (h c _ (Cert.KernelIdeal.Hand.mem_uc Cert.KernelIdeal.main_arg1 (by decide))).trans (Cert.KernelIdeal.Gen.V9_main_arg1 m (Cert.KernelIdeal.Hand.outs m) c),
      (h c _ (Cert.KernelIdeal.Hand.mem_uc Cert.KernelIdeal.main_arg2 (by decide))).trans (Cert.KernelIdeal.Gen.V9_main_arg2 m (Cert.KernelIdeal.Hand.outs m) c),
      (h c _ (Cert.KernelIdeal.Hand.mem_uc Cert.KernelIdeal.main_arg3 (by decide))).trans (Cert.KernelIdeal.Gen.V9_main_arg3 m (Cert.KernelIdeal.Hand.outs m) c),
      (h c _ (Cert.KernelIdeal.Hand.mem_uc Cert.KernelIdeal.main_arg4 (by decide))).trans (Cert.KernelIdeal.Gen.V9_main_arg4 m (Cert.KernelIdeal.Hand.outs m) c),
      (h c _ (Cert.KernelIdeal.Hand.mem_uc Cert.KernelIdeal.main_arg5 (by decide))).trans (Cert.KernelIdeal.Gen.V9_main_arg5 m (Cert.KernelIdeal.Hand.outs m) c),
      (h c _ (Cert.KernelIdeal.Hand.mem_uc Cert.KernelIdeal.main_arg6 (by decide))).trans (Cert.KernelIdeal.Gen.V9_main_arg6 m (Cert.KernelIdeal.Hand.outs m) c),
      (h c _ (Cert.KernelIdeal.Hand.mem_uc Cert.KernelIdeal.main_arg7 (by decide))).trans (Cert.KernelIdeal.Gen.V9_main_arg7 m (Cert.KernelIdeal.Hand.outs m) c)⟩)
      (Cert.KernelIdeal.Hand.run_all (F := Ideal) m ρ)
  · -- the reference: its result term is the kernel's last valuation at the result, by the hypothesis
    exact (θ_run Cert.ReferenceIdeal.defs _ _).mono (fun r h c => ⟨(h c).1.trans (hres m m' hagree c), (h c).2⟩)
      (Cert.ReferenceIdeal.ValueP.run (F := Ideal) m' ρ')

/-- info: 'Cert.Proof.Alg.algebraic_of' depends on axioms: [propext, Classical.choice, Quot.sound] -/
#guard_msgs in #print axioms algebraic_of

end Cert.Proof.Alg

end
-- ==== Proof.KI.Host.lean ====
/-
  The host side of the kernel program: what @main's host operations compute from the argument arrays, as
  definitions over those arrays, and the generated valuations read back at them.

  @main splits the edge list into its source row and destination row, sorts the edge positions stably by
  destination, reads both rows in that order, counts each node's incoming edges, inverts the clamped count
  (zero where a node has no incoming edge), sums the source rows of the features into the destination rows,
  and — after the first kernel region — does the same with the hidden rows. The sort is never evaluated here:
  it is kept as the one term `order`.
-/
import proofs.«170781_j19602230739553_2_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe

variable {F : FTy → Type} [FloatOps F] [Named F]

/-! ## The host values -/

section Values

variable (x : (⟨S100000x20, .f32⟩ : BufTy).Contents (Elt F)) (ei : (⟨S2x3200000, .i32⟩ : BufTy).Contents (Elt F))

/-- Row 0 of the edge list: each edge's source node. -/
def srcRaw : (⟨S3200000, .i32⟩ : BufTy).Contents (Elt F) :=
  shapeCast S3200000 (extractStridedSlice S1x3200000 ![0, 0] ei slices_S2x3200000_S1x3200000_0_0) shapeCasts_S1x3200000_S3200000

/-- Row 1 of the edge list: each edge's destination node. -/
def dstRaw : (⟨S3200000, .i32⟩ : BufTy).Contents (Elt F) :=
  shapeCast S3200000 (extractStridedSlice S1x3200000 ![1, 0] ei slices_S2x3200000_S1x3200000_1_0) shapeCasts_S1x3200000_S3200000

/-- The edge positions sorted stably by destination: position `k` of the result is the edge that comes `k`-th. -/
def order : (⟨S3200000, .i32⟩ : BufTy).Contents (Elt F) :=
  (Host.sort2 S3200000 0 comparator_i32_i32_d0 (dstRaw ei) (iotaInDim S3200000 32 0 : (⟨S3200000, .i32⟩ : BufTy).Contents (Elt F))).2

/-- A negative index counted from the end of an axis of length `n`: `v + n` where `v < 0`, else `v`. -/
def wrapIdx (n : BitVec 32) (v : (⟨S3200000, .i32⟩ : BufTy).Contents (Elt F)) : (⟨S3200000, .i32⟩ : BufTy).Contents (Elt F) :=
  select (cmpi .slt v (broadcastInDim S3200000 ![] bcast_S_S3200000 (constantI S_ 32 0#32 : (⟨S_, .i32⟩ : BufTy).Contents (Elt F)))
            : (⟨S3200000, .i1⟩ : BufTy).Contents (Elt F))
    (addi v (broadcastInDim S3200000 ![] bcast_S_S3200000 (constantI S_ 32 n : (⟨S_, .i32⟩ : BufTy).Contents (Elt F)))) v

/-- A vector of edge values as the one-column index array a gather or scatter takes. -/
def column (v : (⟨S3200000, .i32⟩ : BufTy).Contents (Elt F)) : (⟨S3200000x1, .i32⟩ : BufTy).Contents (Elt F) :=
  broadcastInDim S3200000x1 ![0] bcast_S3200000_S3200000x1_0 v

/-- The destinations in sorted order. -/
def dstS : (⟨S3200000, .i32⟩ : BufTy).Contents (Elt F) :=
  Host.gather gather_S3200000_S3200000x1_S3200000_n_0_n_n_0_1_1 (dstRaw ei) (column (wrapIdx 3200000#32 (order ei)))

/-- The sources in the same order. -/
def srcS : (⟨S3200000, .i32⟩ : BufTy).Contents (Elt F) :=
  Host.gather gather_S3200000_S3200000x1_S3200000_n_0_n_n_0_1_1 (srcRaw ei) (column (wrapIdx 3200000#32 (order ei)))

/-- Each node's number of incoming edges: ones added at the destinations. -/
def deg : (⟨S100000, .f32⟩ : BufTy).Contents (Elt F) :=
  Host.scatterAdd scatter_S100000_S3200000x1_S3200000_n_0_0_1
    (broadcastInDim S100000 ![] bcast_S_S100000 (constant S_ .f32 0x00000000#32 : (⟨S_, .f32⟩ : BufTy).Contents (Elt F)))
    (column (dstS ei))
    (broadcastInDim S3200000 ![] bcast_S_S3200000 (constant S_ .f32 0x3F800000#32 : (⟨S_, .f32⟩ : BufTy).Contents (Elt F)))

/-- Whether a node has an incoming edge. -/
def hasIn : (⟨S100000, .i1⟩ : BufTy).Contents (Elt F) :=
  cmpf .ogt (deg ei) (broadcastInDim S100000 ![] bcast_S_S100000 (constant S_ .f32 0x00000000#32 : (⟨S_, .f32⟩ : BufTy).Contents (Elt F)))

/-- `1 / max deg 1`, node by node. -/
def invDeg : (⟨S100000, .f32⟩ : BufTy).Contents (Elt F) :=
  Host.divf (broadcastInDim S100000 ![] bcast_S_S100000 (constant S_ .f32 0x3F800000#32 : (⟨S_, .f32⟩ : BufTy).Contents (Elt F)))
    (maximumf (deg ei) (broadcastInDim S100000 ![] bcast_S_S100000 (constant S_ .f32 0x3F800000#32 : (⟨S_, .f32⟩ : BufTy).Contents (Elt F))))

/-- The inverse degree as a column: `1 / max deg 1` where a node has an incoming edge, `0` elsewhere. -/
def dinv : (⟨S100000x1, .f32⟩ : BufTy).Contents (Elt F) :=
  shapeCast S100000x1
    (select
      (hasIn ei) (invDeg ei)
      (broadcastInDim S100000 ![] bcast_S_S100000 (constant S_ .f32 0x00000000#32 : (⟨S_, .f32⟩ : BufTy).Contents (Elt F)))
      : (⟨S100000, .f32⟩ : BufTy).Contents (Elt F))
    shapeCasts_S100000_S100000x1

/-- The feature rows summed over each node's incoming edges: row `src` of `x` added into row `dst`, edge by edge. -/
def agg1 : (⟨S100000x20, .f32⟩ : BufTy).Contents (Elt F) :=
  Host.scatterAdd scatter_S100000x20_S3200000x1_S3200000x20_1_0_0_1
    (broadcastInDim S100000x20 ![] bcast_S_S100000x20 (constant S_ .f32 0x00000000#32 : (⟨S_, .f32⟩ : BufTy).Contents (Elt F)))
    (column (dstS ei))
    (Host.gather gather_S100000x20_S3200000x1_S3200000x20_1_0_n_n_0_1_120 x (column (wrapIdx 100000#32 (srcS ei))))

end Values

/-- The hidden rows (widened to f32) summed over each node's incoming edges. -/
def agg2 (h : (⟨S100000x64, .bf16⟩ : BufTy).Contents (Elt F)) (ei : (⟨S2x3200000, .i32⟩ : BufTy).Contents (Elt F)) : (⟨S100000x64, .f32⟩ : BufTy).Contents (Elt F) :=
  Host.scatterAdd scatter_S100000x64_S3200000x1_S3200000x64_1_0_0_1
    (broadcastInDim S100000x64 ![] bcast_S_S100000x64 (constant S_ .f32 0x00000000#32 : (⟨S_, .f32⟩ : BufTy).Contents (Elt F)))
    (column (dstS ei))
    (extf .f32 (Host.gather gather_S100000x64_S3200000x1_S3200000x64_1_0_n_n_0_1_164 h (column (wrapIdx 100000#32 (srcS ei)))) bitsLt_bf16_f32
      : (⟨S3200000x64, .f32⟩ : BufTy).Contents (Elt F))

/-- A bias vector as the one-row array the kernel regions take. -/
def biasRow (b : (⟨S64, .f32⟩ : BufTy).Contents (Elt F)) : (⟨S1x64, .f32⟩ : BufTy).Contents (Elt F) :=
  shapeCast S1x64 b shapeCasts_S64_S1x64

/-! ## The valuations read back -/

section ReadBack

variable (m : (ℓ : Loc nD τ sig) → Buf (Elt F) ℓ) (c : Dev nD)

set_option maxHeartbeats 400000 in
theorem V1_v1 : Gen.V1 m c main_v1 = srcRaw (m ((c : Thread nD τ).loc main_arg1)) := by
  show StableHlo.after hostOps0 (Gen.V0 m c) (Proc.devRef .tc main_v1) = _
  after_results
  first | rfl | fail "V1_v1 rfl"

set_option maxHeartbeats 400000 in
theorem V1_v3 : Gen.V1 m c main_v3 = dstRaw (m ((c : Thread nD τ).loc main_arg1)) := by
  show StableHlo.after hostOps0 (Gen.V0 m c) (Proc.devRef .tc main_v3) = _
  after_results
  first | rfl | fail "V1_v3 rfl"

theorem V2_v1 : Gen.V2 m c main_v1 = srcRaw (m ((c : Thread nD τ).loc main_arg1)) :=
  (Gen.V2_of m c main_v1 (by decide)).trans (V1_v1 m c)

theorem V2_v3 : Gen.V2 m c main_v3 = dstRaw (m ((c : Thread nD τ).loc main_arg1)) :=
  (Gen.V2_of m c main_v3 (by decide)).trans (V1_v3 m c)

set_option maxHeartbeats 400000 in
theorem V2_v4 : Gen.V2 m c main_v4 = order (m ((c : Thread nD τ).loc main_arg1)) := by
  show StableHlo.after hostOps0_1 (Gen.V1 m c) (Proc.devRef .tc main_v4) = _
  have h3 : Gen.V1 m c (Proc.devRef .tc main_v3) = _ := V1_v3 m c
  generalize Gen.V1 m c = W at h3 ⊢
  after_results
  rw [h3]
  first | rfl | fail "V2_v4 rfl"

set_option maxHeartbeats 1000000 in
theorem V3_v11 : Gen.V3 m c main_v11 = dstS (m ((c : Thread nD τ).loc main_arg1)) := by
  show StableHlo.after hostOps0_2 (Gen.V2 m c) (Proc.devRef .tc main_v11) = _
  have h3 : Gen.V2 m c (Proc.devRef .tc main_v3) = _ := V2_v3 m c
  have h4 : Gen.V2 m c (Proc.devRef .tc main_v4) = _ := V2_v4 m c
  generalize Gen.V2 m c = W at h3 h4 ⊢
  after_results
  rw [h3, h4]
  first | rfl | fail "V3_v11 rfl"

set_option maxHeartbeats 1000000 in
theorem V3_v18 : Gen.V3 m c main_v18 = srcS (m ((c : Thread nD τ).loc main_arg1)) := by
  show StableHlo.after hostOps0_2 (Gen.V2 m c) (Proc.devRef .tc main_v18) = _
  have h1 : Gen.V2 m c (Proc.devRef .tc main_v1) = _ := V2_v1 m c
  have h4 : Gen.V2 m c (Proc.devRef .tc main_v4) = _ := V2_v4 m c
  generalize Gen.V2 m c = W at h1 h4 ⊢
  after_results
  rw [h1, h4]
  first | rfl | fail "V3_v18 rfl"

set_option maxHeartbeats 1000000 in
theorem V3_v22 : Gen.V3 m c main_v22 = deg (m ((c : Thread nD τ).loc main_arg1)) := by
  show StableHlo.after hostOps0_2 (Gen.V2 m c) (Proc.devRef .tc main_v22) = _
  have h3 : Gen.V2 m c (Proc.devRef .tc main_v3) = _ := V2_v3 m c
  have h4 : Gen.V2 m c (Proc.devRef .tc main_v4) = _ := V2_v4 m c
  generalize Gen.V2 m c = W at h3 h4 ⊢
  after_results
  rw [h3, h4]
  first | rfl | fail "V3_v22 rfl"

set_option maxHeartbeats 1000000 in
theorem V3_v24 : Gen.V3 m c main_v24 = hasIn (m ((c : Thread nD τ).loc main_arg1)) := by
  show StableHlo.after hostOps0_2 (Gen.V2 m c) (Proc.devRef .tc main_v24) = _
  have h3 : Gen.V2 m c (Proc.devRef .tc main_v3) = _ := V2_v3 m c
  have h4 : Gen.V2 m c (Proc.devRef .tc main_v4) = _ := V2_v4 m c
  generalize Gen.V2 m c = W at h3 h4 ⊢
  after_results
  rw [h3, h4]
  first | rfl | fail "V3_v24 rfl"

set_option maxHeartbeats 1000000 in
theorem V3_v28 : Gen.V3 m c main_v28 = invDeg (m ((c : Thread nD τ).loc main_arg1)) := by
  show StableHlo.after hostOps0_2 (Gen.V2 m c) (Proc.devRef .tc main_v28) = _
  have h3 : Gen.V2 m c (Proc.devRef .tc main_v3) = _ := V2_v3 m c
  have h4 : Gen.V2 m c (Proc.devRef .tc main_v4) = _ := V2_v4 m c
  generalize Gen.V2 m c = W at h3 h4 ⊢
  after_results
  rw [h3, h4]
  first | rfl | fail "V3_v28 rfl"

theorem V3_cst_7 : Gen.V3 m c main_cst_7 = (constant S_ .f32 0x00000000#32 : (⟨S_, .f32⟩ : BufTy).Contents (Elt F)) := by
  show StableHlo.after hostOps0_2 (Gen.V2 m c) (Proc.devRef .tc main_cst_7) = _
  generalize Gen.V2 m c = W
  after_results

set_option maxHeartbeats 1000000 in
theorem V4_v29 : Gen.V4 m c main_v29 = (select (hasIn (m ((c : Thread nD τ).loc main_arg1))) (invDeg (m ((c : Thread nD τ).loc main_arg1)))
      (broadcastInDim S100000 ![] bcast_S_S100000 (constant S_ .f32 0x00000000#32 : (⟨S_, .f32⟩ : BufTy).Contents (Elt F)))
      : (⟨S100000, .f32⟩ : BufTy).Contents (Elt F)) := by
  show StableHlo.after hostOps0_3 (Gen.V3 m c) (Proc.devRef .tc main_v29) = _
  have h24 : Gen.V3 m c (Proc.devRef .tc main_v24) = _ := V3_v24 m c
  have h28 : Gen.V3 m c (Proc.devRef .tc main_v28) = _ := V3_v28 m c
  have h7 : Gen.V3 m c (Proc.devRef .tc main_cst_7) = _ := V3_cst_7 m c
  generalize Gen.V3 m c = W at h24 h28 h7 ⊢
  after_results
  rw [h24, h28, h7]
  first | rfl | fail "V4_v29 rfl"

theorem V4_v11 : Gen.V4 m c main_v11 = dstS (m ((c : Thread nD τ).loc main_arg1)) :=
  (Gen.V4_of m c main_v11 (by decide)).trans (V3_v11 m c)
theorem V4_v18 : Gen.V4 m c main_v18 = srcS (m ((c : Thread nD τ).loc main_arg1)) :=
  (Gen.V4_of m c main_v18 (by decide)).trans (V3_v18 m c)
theorem V4_arg (r : Ref sig .tc) (h1 : r ∉ Gen.hostOps0_3_W) (h2 : r ∉ Gen.hostOps0_2_W) (h3 : r ∉ Gen.hostOps0_1_W) (h4 : r ∉ Gen.hostOps0_W) :
    Gen.V4 m c r = m ((c : Thread nD τ).loc r) :=
  (Gen.V4_of m c r h1).trans <| (Gen.V3_of m c r h2).trans <| (Gen.V2_of m c r h3).trans <| (Gen.V1_of m c r h4).trans rfl

theorem V5_v30 : Gen.V5 m c main_v30 = dinv (m ((c : Thread nD τ).loc main_arg1)) := by
  show StableHlo.after hostOps0_4 (Gen.V4 m c) (Proc.devRef .tc main_v30) = _
  have h29 : Gen.V4 m c (Proc.devRef .tc main_v29) = _ := V4_v29 m c
  generalize Gen.V4 m c = W at h29 ⊢
  after_results
  rw [h29]
  first | rfl | fail "V5_v30 rfl"

set_option maxHeartbeats 1000000 in
theorem V5_v40 : Gen.V5 m c main_v40 = agg1 (m ((c : Thread nD τ).loc main_arg0)) (m ((c : Thread nD τ).loc main_arg1)) := by
  show StableHlo.after hostOps0_4 (Gen.V4 m c) (Proc.devRef .tc main_v40) = _
  have h11 : Gen.V4 m c (Proc.devRef .tc main_v11) = _ := V4_v11 m c
  have h18 : Gen.V4 m c (Proc.devRef .tc main_v18) = _ := V4_v18 m c
  have h0 : Gen.V4 m c (Proc.devRef .tc main_arg0) = _ := V4_arg m c main_arg0 (by decide) (by decide) (by decide) (by decide)
  generalize Gen.V4 m c = W at h11 h18 h0 ⊢
  after_results
  rw [h11, h18, h0]
  first | rfl | fail "V5_v40 rfl"

theorem V5_v41 : Gen.V5 m c main_v41 = biasRow (m ((c : Thread nD τ).loc main_arg3)) := by
  show StableHlo.after hostOps0_4 (Gen.V4 m c) (Proc.devRef .tc main_v41) = _
  have h0 : Gen.V4 m c (Proc.devRef .tc main_arg3) = _ := V4_arg m c main_arg3 (by decide) (by decide) (by decide) (by decide)
  generalize Gen.V4 m c = W at h0 ⊢
  after_results
  rw [h0]
  first | rfl | fail "V5_v41 rfl"

theorem V5_v42 : Gen.V5 m c main_v42 = (truncf .bf16 (m ((c : Thread nD τ).loc main_arg2)) bitsLt_bf16_f32 : (⟨S20x64, .bf16⟩ : BufTy).Contents (Elt F)) := by
  show StableHlo.after hostOps0_4 (Gen.V4 m c) (Proc.devRef .tc main_v42) = _
  have h0 : Gen.V4 m c (Proc.devRef .tc main_arg2) = _ := V4_arg m c main_arg2 (by decide) (by decide) (by decide) (by decide)
  generalize Gen.V4 m c = W at h0 ⊢
  after_results
  rw [h0]

theorem V5_v43 : Gen.V5 m c main_v43 = (truncf .bf16 (m ((c : Thread nD τ).loc main_arg4)) bitsLt_bf16_f32 : (⟨S20x64, .bf16⟩ : BufTy).Contents (Elt F)) := by
  show StableHlo.after hostOps0_4 (Gen.V4 m c) (Proc.devRef .tc main_v43) = _
  have h0 : Gen.V4 m c (Proc.devRef .tc main_arg4) = _ := V4_arg m c main_arg4 (by decide) (by decide) (by decide) (by decide)
  generalize Gen.V4 m c = W at h0 ⊢
  after_results
  rw [h0]

theorem V5_arg0 : Gen.V5 m c main_arg0 = m ((c : Thread nD τ).loc main_arg0) :=
  (Gen.V5_of m c main_arg0 (by decide)).trans (V4_arg m c main_arg0 (by decide) (by decide) (by decide) (by decide))

/-- An argument array, or any buffer the first five host stretches do not write, still holds its launch contents when region 0 is entered. -/
theorem V5_arg (r : Ref sig .tc) (h0 : r ∉ Gen.hostOps0_4_W) (h1 : r ∉ Gen.hostOps0_3_W) (h2 : r ∉ Gen.hostOps0_2_W) (h3 : r ∉ Gen.hostOps0_1_W) (h4 : r ∉ Gen.hostOps0_W) :
    Gen.V5 m c r = m ((c : Thread nD τ).loc r) :=
  (Gen.V5_of m c r h0).trans (V4_arg m c r h1 h2 h3 h4)

variable (outs : Gen.Outs (F := F))

theorem V6_v44 : Gen.V6 m outs c main_v44 = outs 6 main_v44 c := by
  show Function.update (Gen.V5 m c) (Proc.devRef .tc main_v44) (outs 6 main_v44 c) (Proc.devRef .tc main_v44) = _
  exact Function.update_self ..

theorem V6_v11 : Gen.V6 m outs c main_v11 = dstS (m ((c : Thread nD τ).loc main_arg1)) :=
  (Gen.V6_of m outs c main_v11 (by decide)).trans <| (Gen.V5_of m c main_v11 (by decide)).trans (V4_v11 m c)
theorem V6_v18 : Gen.V6 m outs c main_v18 = srcS (m ((c : Thread nD τ).loc main_arg1)) :=
  (Gen.V6_of m outs c main_v18 (by decide)).trans <| (Gen.V5_of m c main_v18 (by decide)).trans (V4_v18 m c)
theorem V6_arg (r : Ref sig .tc) (h : r ∉ ([main_v44] : List (Ref sig .tc))) (h0 : r ∉ Gen.hostOps0_4_W) (h1 : r ∉ Gen.hostOps0_3_W) (h2 : r ∉ Gen.hostOps0_2_W) (h3 : r ∉ Gen.hostOps0_1_W) (h4 : r ∉ Gen.hostOps0_W) :
    Gen.V6 m outs c r = m ((c : Thread nD τ).loc r) :=
  (Gen.V6_of m outs c r h).trans (V5_arg m c r h0 h1 h2 h3 h4)

theorem V7_v44 : Gen.V7 m outs c main_v44 = outs 6 main_v44 c :=
  (Gen.V7_of m outs c main_v44 (by decide)).trans (V6_v44 m c outs)

theorem V7_v30 : Gen.V7 m outs c main_v30 = dinv (m ((c : Thread nD τ).loc main_arg1)) :=
  (Gen.V7_of m outs c main_v30 (by decide)).trans <| (Gen.V6_of m outs c main_v30 (by decide)).trans (V5_v30 m c)

set_option maxHeartbeats 1000000 in
theorem V7_v55 : Gen.V7 m outs c main_v55 = agg2 (outs 6 main_v44 c) (m ((c : Thread nD τ).loc main_arg1)) := by
  show StableHlo.after hostOps1 (Gen.V6 m outs c) (Proc.devRef .tc main_v55) = _
  have h11 : Gen.V6 m outs c (Proc.devRef .tc main_v11) = _ := V6_v11 m c outs
  have h18 : Gen.V6 m outs c (Proc.devRef .tc main_v18) = _ := V6_v18 m c outs
  have h44 : Gen.V6 m outs c (Proc.devRef .tc main_v44) = _ := V6_v44 m c outs
  generalize Gen.V6 m outs c = W at h11 h18 h44 ⊢
  after_results
  rw [h11, h18, h44]
  first | rfl | fail "V7_v55 rfl"

theorem V7_v56 : Gen.V7 m outs c main_v56 = biasRow (m ((c : Thread nD τ).loc main_arg6)) := by
  show StableHlo.after hostOps1 (Gen.V6 m outs c) (Proc.devRef .tc main_v56) = _
  have h0 : Gen.V6 m outs c (Proc.devRef .tc main_arg6) = _ := V6_arg m c outs main_arg6 (by decide) (by decide) (by decide) (by decide) (by decide) (by decide)
  generalize Gen.V6 m outs c = W at h0 ⊢
  after_results
  rw [h0]
  first | rfl | fail "V7_v56 rfl"

theorem V7_v57 : Gen.V7 m outs c main_v57 = (truncf .bf16 (m ((c : Thread nD τ).loc main_arg5)) bitsLt_bf16_f32 : (⟨S64x64, .bf16⟩ : BufTy).Contents (Elt F)) := by
  show StableHlo.after hostOps1 (Gen.V6 m outs c) (Proc.devRef .tc main_v57) = _
  have h0 : Gen.V6 m outs c (Proc.devRef .tc main_arg5) = _ := V6_arg m c outs main_arg5 (by decide) (by decide) (by decide) (by decide) (by decide) (by decide)
  generalize Gen.V6 m outs c = W at h0 ⊢
  after_results
  rw [h0]

theorem V7_v58 : Gen.V7 m outs c main_v58 = (truncf .bf16 (m ((c : Thread nD τ).loc main_arg7)) bitsLt_bf16_f32 : (⟨S64x64, .bf16⟩ : BufTy).Contents (Elt F)) := by
  show StableHlo.after hostOps1 (Gen.V6 m outs c) (Proc.devRef .tc main_v58) = _
  have h0 : Gen.V6 m outs c (Proc.devRef .tc main_arg7) = _ := V6_arg m c outs main_arg7 (by decide) (by decide) (by decide) (by decide) (by decide) (by decide)
  generalize Gen.V6 m outs c = W at h0 ⊢
  after_results
  rw [h0]

theorem V8_v59 : Gen.V8 m outs c main_v59 = outs 8 main_v59 c := by
  show Function.update (Gen.V7 m outs c) (Proc.devRef .tc main_v59) (outs 8 main_v59 c) (Proc.devRef .tc main_v59) = _
  exact Function.update_self ..

theorem V9_v60 : Gen.V9 m outs c main_v60 = shapeCast S64 (outs 8 main_v59 c) shapeCasts_S1x64_S64 := by
  show StableHlo.after hostOps2 (Gen.V8 m outs c) (Proc.devRef .tc main_v60) = _
  have h0 : Gen.V8 m outs c (Proc.devRef .tc main_v59) = _ := V8_v59 m c outs
  generalize Gen.V8 m outs c = W at h0 ⊢
  after_results
  rw [h0]
  first | rfl | fail "V9_v60 rfl"

end ReadBack

end Cert.KernelIdeal.Hand

end
-- ==== Proof.Spec.lean ====
/-
  The common specification: what one mean-aggregation graph layer computes at one entry, and the two arrays the
  two tiled computations leave, as functions of whole arrays on the extended reals.

  A layer takes the neighbourhood sums `agg` (one row per node), the inverse degrees `dinv` (one per node, kept as a
  one-column matrix), the node features `feat`, two weight matrices and a bias row, and gives at node `r`, output column `j`

      ( Σ_k (agg r k · dinv r) · Wl k j  +  b j )  +  Σ_k feat r k · Wr k j .

  The first layer clamps this at zero from below; the second is averaged over the 100000 nodes, the average written as the
  sum times the real number 1/100000.
-/
import Idealize.ShloMosaic.PureOps.Ideal
import Idealize.ShloMosaic.Lib.ValueIdx

noncomputable section

open scoped BigOperators

namespace Cert.Spec

open Idealize.ShloMosaic Idealize.ShloMosaic.ValueIdx

/-- A layer before its activation at node `r` and output column `j`, over `K` input columns: the scaled neighbourhood sum
    through the neighbour weights, plus the bias, plus the node's own features through the root weights — the additions
    grouped as both programs group them. -/
def pre {K : ℕ} (agg feat : (⟨2, ![100000, K]⟩ : Shape).Idx → EReal) (dinv : (⟨2, ![100000, 1]⟩ : Shape).Idx → EReal)
    (Wl : (⟨2, ![K, 64]⟩ : Shape).Idx → EReal) (b : (⟨2, ![1, 64]⟩ : Shape).Idx → EReal)
    (Wr : (⟨2, ![K, 64]⟩ : Shape).Idx → EReal) (r : Fin 100000) (j : Fin 64) : EReal :=
  ((∑ k : Fin K, (agg (ix2 r k) * dinv (ix2 r 0)) * Wl (ix2 k j)) + b (ix2 0 j)) + ∑ k : Fin K, feat (ix2 r k) * Wr (ix2 k j)

/-- The first layer's output array: the layer clamped at zero from below, entry by entry. -/
def layer1 (agg feat : (⟨2, ![100000, 20]⟩ : Shape).Idx → EReal) (dinv : (⟨2, ![100000, 1]⟩ : Shape).Idx → EReal)
    (Wl : (⟨2, ![20, 64]⟩ : Shape).Idx → EReal) (b : (⟨2, ![1, 64]⟩ : Shape).Idx → EReal)
    (Wr : (⟨2, ![20, 64]⟩ : Shape).Idx → EReal) : (⟨2, ![100000, 64]⟩ : Shape).Idx → EReal :=
  fun i => max (pre agg feat dinv Wl b Wr (i 0) (i 1)) 0

/-- The second layer averaged over the nodes, as a one-row matrix: column `j` is the sum over all nodes of the layer's
    entry times 1/100000. -/
def meanOut (agg feat : (⟨2, ![100000, 64]⟩ : Shape).Idx → EReal) (dinv : (⟨2, ![100000, 1]⟩ : Shape).Idx → EReal)
    (Wl : (⟨2, ![64, 64]⟩ : Shape).Idx → EReal) (b : (⟨2, ![1, 64]⟩ : Shape).Idx → EReal)
    (Wr : (⟨2, ![64, 64]⟩ : Shape).Idx → EReal) : (⟨2, ![1, 64]⟩ : Shape).Idx → EReal :=
  fun i => (∑ r : Fin 100000, pre agg feat dinv Wl b Wr r (i 1)) * ((1 / 100000 : ℝ) : EReal)

theorem layer1_apply (agg feat : (⟨2, ![100000, 20]⟩ : Shape).Idx → EReal) (dinv : (⟨2, ![100000, 1]⟩ : Shape).Idx → EReal)
    (Wl : (⟨2, ![20, 64]⟩ : Shape).Idx → EReal) (b : (⟨2, ![1, 64]⟩ : Shape).Idx → EReal)
    (Wr : (⟨2, ![20, 64]⟩ : Shape).Idx → EReal) (r : Fin 100000) (j : Fin 64) :
    layer1 agg feat dinv Wl b Wr (ix2 r j) = max (pre agg feat dinv Wl b Wr r j) 0 := rfl

theorem meanOut_apply (agg feat : (⟨2, ![100000, 64]⟩ : Shape).Idx → EReal) (dinv : (⟨2, ![100000, 1]⟩ : Shape).Idx → EReal)
    (Wl : (⟨2, ![64, 64]⟩ : Shape).Idx → EReal) (b : (⟨2, ![1, 64]⟩ : Shape).Idx → EReal)
    (Wr : (⟨2, ![64, 64]⟩ : Shape).Idx → EReal) (u : Fin 1) (j : Fin 64) :
    meanOut agg feat dinv Wl b Wr (ix2 u j) = (∑ r : Fin 100000, pre agg feat dinv Wl b Wr r j) * ((1 / 100000 : ℝ) : EReal) := rfl

end Cert.Spec

end
-- ==== Proof.KI.Value0.lean ====
/- What region 0 leaves in its output array, on the extended reals: the first layer of the common specification applied
   to the six arrays the region reads. First the payload of one block at one entry; then what each grid point writes
   back, as a block of the specification's array; then, the 25 blocks of 4000 rows covering all 100000 rows, the array. -/
import proofs.«170781_j19602230739553_2_alg».proof.Proof.KI.R0
import proofs.«170781_j19602230739553_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand
open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-! ## The payload at one entry -/

/-- The product's left factor is read at the output's row, -/
theorem dot0_lhs_row (i : S4000x64.Idx) (κ : dot_S4000x20_S20x64_S4000x64_1_0_0_1_n_n.contr.Idx) : (dot_S4000x20_S20x64_S4000x64_1_0_0_1_n_n.lhsIdx i κ 0).val = (i 0).val := by
  unfold DotDims.lhsIdx
  rw [dif_neg (show ¬(0 : Fin S4000x20.rank) ∈ dot_S4000x20_S20x64_S4000x64_1_0_0_1_n_n.lhsBatch by decide), dif_pos (show (0 : Fin S4000x20.rank) ∈ dot_S4000x20_S20x64_S4000x64_1_0_0_1_n_n.lhsNonContracting by decide)]
  rfl
/-- and at the contracted position; -/
theorem dot0_lhs_col (i : S4000x64.Idx) (κ : dot_S4000x20_S20x64_S4000x64_1_0_0_1_n_n.contr.Idx) : (dot_S4000x20_S20x64_S4000x64_1_0_0_1_n_n.lhsIdx i κ 1).val = (κ ⟨0, by decide⟩).val :=
  dot_S4000x20_S20x64_S4000x64_1_0_0_1_n_n.lhsIdx_val_of_single rfl i κ
/-- the right factor at the contracted position, -/
theorem dot0_rhs_row (i : S4000x64.Idx) (κ : dot_S4000x20_S20x64_S4000x64_1_0_0_1_n_n.contr.Idx) : (dot_S4000x20_S20x64_S4000x64_1_0_0_1_n_n.rhsIdx i κ 0).val = (κ ⟨0, by decide⟩).val :=
  dot_S4000x20_S20x64_S4000x64_1_0_0_1_n_n.rhsIdx_val_of_single rfl i κ
/-- and at the output's column. -/
theorem dot0_rhs_col (i : S4000x64.Idx) (κ : dot_S4000x20_S20x64_S4000x64_1_0_0_1_n_n.contr.Idx) : (dot_S4000x20_S20x64_S4000x64_1_0_0_1_n_n.rhsIdx i κ 1).val = (i 1).val := by
  unfold DotDims.rhsIdx
  rw [dif_neg (show ¬(1 : Fin S20x64.rank) ∈ dot_S4000x20_S20x64_S4000x64_1_0_0_1_n_n.rhsBatch by decide), dif_pos (show (1 : Fin S20x64.rank) ∈ dot_S4000x20_S20x64_S4000x64_1_0_0_1_n_n.rhsNonContracting by decide)]
  rfl

/-- A [4000,20] by [20,64] product into the zero matrix, at row p and column q: the sum over the 20 contracted
    positions of the products of the two factors' entries. -/
theorem dot0_apply {φ₁ φ₂ : FTy} (A : FVec Ideal S4000x20 φ₁) (B : FVec Ideal S20x64 φ₂) (p : Fin 4000) (q : Fin 64) :
    matmul dot_S4000x20_S20x64_S4000x64_1_0_0_1_n_n none A B (constant S4000x64 .f32 0x00000000#32) (ix2 p q)
      = ∑ k : Fin 20, A (ix2 p k) * B (ix2 k q) := by
  simp only [matmul]
  rw [Ideal.matmul_constant_zero_apply, ← Equiv.sum_comp (contrEquiv1 dot_S4000x20_S20x64_S4000x64_1_0_0_1_n_n 20 rfl rfl).symm]
  refine Finset.sum_congr rfl fun k _ => ?_
  have hk := contrEquiv1_symm_val dot_S4000x20_S20x64_S4000x64_1_0_0_1_n_n 20 rfl rfl k
  have el : dot_S4000x20_S20x64_S4000x64_1_0_0_1_n_n.lhsIdx (ix2 p q) ((contrEquiv1 dot_S4000x20_S20x64_S4000x64_1_0_0_1_n_n 20 rfl rfl).symm k) = ix2 p k :=
    funext fun a => Fin.ext (by
      match a with
      | ⟨0, _⟩ => exact dot0_lhs_row _ _
      | ⟨1, _⟩ => exact (dot0_lhs_col _ _).trans hk)
  have er : dot_S4000x20_S20x64_S4000x64_1_0_0_1_n_n.rhsIdx (ix2 p q) ((contrEquiv1 dot_S4000x20_S20x64_S4000x64_1_0_0_1_n_n 20 rfl rfl).symm k) = ix2 k q :=
    funext fun a => Fin.ext (by
      match a with
      | ⟨0, _⟩ => exact (dot0_rhs_row _ _).trans hk
      | ⟨1, _⟩ => exact dot0_rhs_col _ _)
  rw [el, er]

/-- A one-column matrix spread over 20 columns reads its row's one entry. -/
theorem bcast_col0_apply {α : Type} (x : S4000x1.Idx → α) (p : Fin 4000) (k : Fin 20) :
    broadcastTo S4000x20 x broadcasts_S4000x1_S4000x20 (ix2 p k) = x (ix2 p 0) :=
  broadcastTo_apply x broadcasts_S4000x1_S4000x20 (ix2 p k) (ix2 p 0) (fun a => match a with
    | ⟨0, _⟩ => by show p.val = if (4000 : Nat) = 1 then 0 else p.val; rw [if_neg (by decide)]
    | ⟨1, _⟩ => by show (0 : Nat) = if (1 : Nat) = 1 then 0 else k.val; rw [if_pos rfl])

/-- A one-row matrix spread over 4000 rows reads its column's one entry. -/
theorem bcast_row0_apply {α : Type} (x : S1x64.Idx → α) (p : Fin 4000) (q : Fin 64) :
    broadcastTo S4000x64 x broadcasts_S1x64_S4000x64 (ix2 p q) = x (ix2 0 q) :=
  broadcastTo_apply x broadcasts_S1x64_S4000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The body's payload at row p and column q of its block, over the six loaded blocks (neighbourhood sums x0, inverse
    degrees x2, features x1, the two weight matrices x3 and x5, the bias row x4): the scaled sums through the first
    weights, plus the bias, plus the features through the second weights, clamped at zero from below. The roundings
    to the narrower format are the identity on the extended reals. -/
theorem pay0_apply (x0 x1 : Vec Ideal S4000x20 .f32) (x2 : Vec Ideal S4000x1 .f32) (x3 x5 : Vec Ideal S20x64 .bf16)
    (x4 : Vec Ideal S1x64 .f32) (p : Fin 4000) (q : Fin 64) :
    k0_pay1 x0 x2 x1 x3 x4 x5 (ix2 p q)
      = max (((∑ k : Fin 20, (x0 (ix2 p k) * x2 (ix2 p 0)) * x3 (ix2 k q)) + x4 (ix2 0 q)) + ∑ k : Fin 20, x1 (ix2 p k) * x5 (ix2 k q)) 0 := by
  unfold k0_pay1
  simp only [shapeCast_self]
  show max ((matmul (F := Ideal) dot_S4000x20_S20x64_S4000x64_1_0_0_1_n_n none (truncf .bf16 (mulf x0 (broadcastTo S4000x20 x2 broadcasts_S4000x1_S4000x20)) bitsLt_bf16_f32) x3 (constant S4000x64 .f32 0x00000000#32) (ix2 p q)
        + broadcastTo S4000x64 x4 broadcasts_S1x64_S4000x64 (ix2 p q))
      + matmul (F := Ideal) dot_S4000x20_S20x64_S4000x64_1_0_0_1_n_n none (truncf .bf16 x1 bitsLt_bf16_f32) x5 (constant S4000x64 .f32 0x00000000#32) (ix2 p q))
    (Ideal.ofBits .f32 0x00000000#32) = _
  rw [dot0_apply, dot0_apply, bcast_row0_apply, Ideal.ofBits_zero_f32]
  refine congrArg (fun s => max ((s + x4 (ix2 0 q)) + ∑ k : Fin 20, x1 (ix2 p k) * x5 (ix2 k q)) 0) ?_
  refine Finset.sum_congr rfl fun k _ => ?_
  show (x0 (ix2 p k) * broadcastTo S4000x20 x2 broadcasts_S4000x1_S4000x20 (ix2 p k)) * x3 (ix2 k q) = _
  rw [bcast_col0_apply]

/-! ## What a grid point writes back -/

theorem hz0 : (![0, 0] : Fin 2 → Nat) = fun _ => 0 := funext fun a => by fin_cases a <;> rfl

-- the buffer contents the region is entered with, on the extended reals
variable (V : (c : Dev nD) → (b : Ref sig .tc) → Buf (Elt Ideal) ((c : Thread nD τ).loc b))

/-- The first layer of the specification, of the six arrays the region reads as it finds them. -/
abbrev G0 (c : Dev nD) : S100000x64.Idx → EReal :=
  Cert.Spec.layer1 (V c main_v40) (V c main_arg0) (V c main_v30) (V c main_v42) (V c main_v41) (V c main_v43)

/-- The block indices, decided over the 25 grid points: the three row-tiled inputs and the output are at block t
    of their rows, the weights and the bias at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The grid has 25 points. -/
theorem point0_lt (t : Fin cfg0.N) : t.val < 25 := lt_of_lt_of_eq t.isLt N_0

/-- Row p of block t is row t * 4000 + p of the array. -/
abbrev row0 (t : Fin cfg0.N) (p : Fin 4000) : Fin 100000 := ⟨t.val * 4000 + p.val, by have := point0_lt t; have := p.isLt; omega⟩

/-- Block t of the neighbourhood sums is rows t * 4000 … of that array. -/
theorem iblk0_0_apply (c : Dev nD) (t : Fin cfg0.N) (p : Fin 4000) (b : Fin 20) :
    iblk0 V c 0 t (ix2 p b) = V c main_v40 (ix2 (row0 t p) b) := by
  obtain ⟨e00, e01, e10, e11, e20, e21, e30, e31, e40, e41, e50, e51, e60, e61⟩ := idx_facts0 t
  show V c main_v40 (((cfg0.win 0).blk t).view.emb (ix2 p b)) = _
  refine congrArg _ (funext fun x => Fin.ext ?_)
  match x with
  | ⟨0, _⟩ => show win0_0.index t (0 : Fin 2) * 4000 + 1 * p.val = t.val * 4000 + p.val; omega
  | ⟨1, _⟩ => show win0_0.index t (1 : Fin 2) * 20 + 1 * b.val = b.val; omega

/-- Block t of the features likewise, -/
theorem iblk0_1_apply (c : Dev nD) (t : Fin cfg0.N) (p : Fin 4000) (b : Fin 20) :
    iblk0 V c 1 t (ix2 p b) = V c main_arg0 (ix2 (row0 t p) b) := by
  obtain ⟨e00, e01, e10, e11, e20, e21, e30, e31, e40, e41, e50, e51, e60, e61⟩ := idx_facts0 t
  show V c main_arg0 (((cfg0.win 1).blk t).view.emb (ix2 p b)) = _
  refine congrArg _ (funext fun x => Fin.ext ?_)
  match x with
  | ⟨0, _⟩ => show win0_1.index t (0 : Fin 2) * 4000 + 1 * p.val = t.val * 4000 + p.val; omega
  | ⟨1, _⟩ => show win0_1.index t (1 : Fin 2) * 20 + 1 * b.val = b.val; omega

/-- and block t of the inverse degrees. -/
theorem iblk0_2_apply (c : Dev nD) (t : Fin cfg0.N) (p : Fin 4000) (b : Fin 1) :
    iblk0 V c 2 t (ix2 p b) = V c main_v30 (ix2 (row0 t p) b) := by
  obtain ⟨e00, e01, e10, e11, e20, e21, e30, e31, e40, e41, e50, e51, e60, e61⟩ := idx_facts0 t
  show V c main_v30 (((cfg0.win 2).blk t).view.emb (ix2 p b)) = _
  refine congrArg _ (funext fun x => Fin.ext ?_)
  match x with
  | ⟨0, _⟩ => show win0_2.index t (0 : Fin 2) * 4000 + 1 * p.val = t.val * 4000 + p.val; omega
  | ⟨1, _⟩ => show win0_2.index t (1 : Fin 2) * 1 + 1 * b.val = b.val; omega

/-- The first weight matrix's one block is the matrix, -/
theorem iblk0_3_apply (c : Dev nD) (t : Fin cfg0.N) (a : Fin 20) (b : Fin 64) :
    iblk0 V c 3 t (ix2 a b) = V c main_v42 (ix2 a b) := by
  obtain ⟨e00, e01, e10, e11, e20, e21, e30, e31, e40, e41, e50, e51, e60, e61⟩ := idx_facts0 t
  show V c main_v42 (((cfg0.win 3).blk t).view.emb (ix2 a b)) = _
  refine congrArg _ (funext fun x => Fin.ext ?_)
  match x with
  | ⟨0, _⟩ => show win0_3.index t (0 : Fin 2) * 20 + 1 * a.val = a.val; omega
  | ⟨1, _⟩ => show win0_3.index t (1 : Fin 2) * 64 + 1 * b.val = b.val; omega

/-- the bias row's one block the row, -/
theorem iblk0_4_apply (c : Dev nD) (t : Fin cfg0.N) (a : Fin 1) (b : Fin 64) :
    iblk0 V c 4 t (ix2 a b) = V c main_v41 (ix2 a b) := by
  obtain ⟨e00, e01, e10, e11, e20, e21, e30, e31, e40, e41, e50, e51, e60, e61⟩ := idx_facts0 t
  show V c main_v41 (((cfg0.win 4).blk t).view.emb (ix2 a b)) = _
  refine congrArg _ (funext fun x => Fin.ext ?_)
  match x with
  | ⟨0, _⟩ => show win0_4.index t (0 : Fin 2) * 1 + 1 * a.val = a.val; omega
  | ⟨1, _⟩ => show win0_4.index t (1 : Fin 2) * 64 + 1 * b.val = b.val; omega

/-- and the second weight matrix's one block the matrix. -/
theorem iblk0_5_apply (c : Dev nD) (t : Fin cfg0.N) (a : Fin 20) (b : Fin 64) :
    iblk0 V c 5 t (ix2 a b) = V c main_v43 (ix2 a b) := by
  obtain ⟨e00, e01, e10, e11, e20, e21, e30, e31, e40, e41, e50, e51, e60, e61⟩ := idx_facts0 t
  show V c main_v43 (((cfg0.win 5).blk t).view.emb (ix2 a b)) = _
  refine congrArg _ (funext fun x => Fin.ext ?_)
  match x with
  | ⟨0, _⟩ => show win0_5.index t (0 : Fin 2) * 20 + 1 * a.val = a.val; omega
  | ⟨1, _⟩ => show win0_5.index t (1 : Fin 2) * 64 + 1 * b.val = b.val; omega

/-- Entry (p, q) of the output's block t is entry (t * 4000 + p, q) of the output array. -/
theorem emb0_6_apply (t : Fin cfg0.N) (p : Fin 4000) (q : Fin 64) :
    ((cfg0.win 6).blk t).view.emb (ix2 p q) = ix2 (row0 t p) q := by
  obtain ⟨e00, e01, e10, e11, e20, e21, e30, e31, e40, e41, e50, e51, e60, e61⟩ := idx_facts0 t
  refine funext fun x => Fin.ext ?_
  match x with
  | ⟨0, _⟩ => show win0_6.index t (0 : Fin 2) * 4000 + 1 * p.val = t.val * 4000 + p.val; omega
  | ⟨1, _⟩ => show win0_6.index t (1 : Fin 2) * 64 + 1 * q.val = q.val; omega

/-- What grid point t writes back to the output array is block t of the specification's array: the payload at an
    entry of the block is the layer at the entry's row and column, every input block read at that row or whole. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz0]
  simp only [View.ld_unit_zero (S := S4000x20) hz0, View.ld_unit_zero (S := S4000x1) hz0, View.ld_unit_zero (S := S20x64) hz0, View.ld_unit_zero (S := S1x64) hz0]
  funext j
  obtain ⟨p, q, rfl⟩ : ∃ (p : Fin 4000) (q : Fin 64), j = ix2 p q := ⟨j 0, j 1, eq_ix2 (n0 := 4000) (n1 := 64) j⟩
  show k0_pay1 (iblk0 V c 0 t) (iblk0 V c 2 t) (iblk0 V c 1 t) (iblk0 V c 3 t) (iblk0 V c 4 t) (iblk0 V c 5 t) (ix2 p q)
    = G0 V c (((cfg0.win 6).blk t).view.emb (ix2 p q))
  rw [pay0_apply, emb0_6_apply]
  simp only [iblk0_0_apply, iblk0_1_apply, iblk0_2_apply, iblk0_3_apply, iblk0_4_apply, iblk0_5_apply]
  rfl

/-! ## The 25 blocks cover the output array -/

/-- An entry of the output array is in point t's block exactly when each coordinate is in the block's range. -/
theorem mem_blk0_6 (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v44).slice (win0_6.rect t)).set ↔ _
  rw [View.set_slice_whole, Rect.mem_set_unit]
  exact Iff.rfl

/-- Row r of the output array lies in block r / 4000, which is written back: 25 blocks of 4000 rows are all 100000 rows. -/
theorem covered0_6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, lt_of_lt_of_eq (show (i 0).val / 4000 < 25 by omega) N_0.symm⟩, rfl⟩
  obtain ⟨e00, e01, e10, e11, e20, e21, e30, e31, e40, e41, e50, e51, e60, e61⟩ := idx_facts0 t
  refine ⟨t, flush0_6 t, ?_⟩
  rw [mem_blk0_6]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 64 ≤ (i 1).val ∧ (i 1).val < win0_6.index t (1 : Fin 2) * 64 + 64; omega

/-! ## The output array -/

/-- After the region's 25 points the output array is the first layer of the specification of the six arrays the
    region read: every entry is in a block some point wrote back, and each point wrote its block of that array. -/
theorem arr0_eq (c : Dev nD) : (dat0 (F := Ideal) V c).arrAt 6 cfg0.N
    = Cert.Spec.layer1 (V c main_v40) (V c main_arg0) (V c main_v30) (V c main_v42) (V c main_v41) (V c main_v43) :=
  (dat0 (F := Ideal) V c).arrAt_eq_of_cover 6 (G0 V c) (fun t _ => flushed0_eq V c t) (fun i => covered0_6 i)

end Cert.KernelIdeal.Hand
-- ==== Proof.KI.Result0.lean ====
/- The first region's output array and the second region's entry contents, in terms of the arrays @main is launched
   with: region 0 leaves the first layer of the specification of the host's neighbourhood sums, the features, the
   inverse degrees and the narrowed weights; region 1 is entered with the host's sums of that array's rows beside it. -/
import proofs.«170781_j19602230739553_2_alg».proof.Proof.KI.Run
import proofs.«170781_j19602230739553_2_alg».proof.Proof.KI.Host
import proofs.«170781_j19602230739553_2_alg».proof.Proof.KI.Value0

noncomputable section

namespace Cert.KernelIdeal.Hand
open Cert.KernelIdeal Cert.KernelIdeal.Gen
open Idealize.ShloMosaic Idealize.ShloMosaic.TcCoe Idealize.SL.Sem

/-! ## What region 1 is entered with, for any float instance -/

section Entry1
variable {F : FTy → Type} [FloatOps F] [Named F]
variable (m : (ℓ : Loc nD τ sig) → Buf (Elt F) ℓ) (c : Dev nD)

/-- The hidden rows' neighbourhood sums: the host's sums of the rows of region 0's output. -/
theorem Vin1_v55 : Vin1 m c main_v55 = agg2 (outs m 6 main_v44 c) (m ((c : Thread nD τ).loc main_arg1)) := by
  rw [outs_eq_outs0]; exact V7_v55 m c (outs0 m)

/-- Region 0's output itself, -/
theorem Vin1_v44 : Vin1 m c main_v44 = outs m 6 main_v44 c := by
  rw [outs_eq_outs0]; exact V7_v44 m c (outs0 m)

/-- the inverse degrees as region 0 had them, -/
theorem Vin1_v30 : Vin1 m c main_v30 = dinv (m ((c : Thread nD τ).loc main_arg1)) := V7_v30 m c (outs0 m)

/-- the second layer's first weight matrix narrowed, -/
theorem Vin1_v57 : Vin1 m c main_v57 = (truncf .bf16 (m ((c : Thread nD τ).loc main_arg5)) bitsLt_bf16_f32 : (⟨S64x64, .bf16⟩ : BufTy).Contents (Elt F)) :=
  V7_v57 m c (outs0 m)

/-- its bias as a row, -/
theorem Vin1_v56 : Vin1 m c main_v56 = biasRow (m ((c : Thread nD τ).loc main_arg6)) := V7_v56 m c (outs0 m)

/-- and its second weight matrix narrowed. -/
theorem Vin1_v58 : Vin1 m c main_v58 = (truncf .bf16 (m ((c : Thread nD τ).loc main_arg7)) bitsLt_bf16_f32 : (⟨S64x64, .bf16⟩ : BufTy).Contents (Elt F)) :=
  V7_v58 m c (outs0 m)

end Entry1

/-! ## Region 0's output, on the extended reals -/

section Result
variable (m : (ℓ : Loc nD τ sig) → Buf (Elt Ideal) ℓ) (c : Dev nD)

/-- The first layer, of the launch arrays: the host's neighbourhood sums of the features, the features, the inverse
    degrees, and the first layer's two weight matrices narrowed and its bias as a row. -/
abbrev hidden1 : S100000x64.Idx → EReal :=
  Cert.Spec.layer1 (agg1 (m ((c : Thread nD τ).loc main_arg0)) (m ((c : Thread nD τ).loc main_arg1))) (m ((c : Thread nD τ).loc main_arg0))
    (dinv (m ((c : Thread nD τ).loc main_arg1))) (truncf (F := Ideal) (φ := .f32) .bf16 (m ((c : Thread nD τ).loc main_arg2)) bitsLt_bf16_f32)
    (biasRow (m ((c : Thread nD τ).loc main_arg3))) (truncf (F := Ideal) (φ := .f32) .bf16 (m ((c : Thread nD τ).loc main_arg4)) bitsLt_bf16_f32)

/-- Region 0 leaves that array in its output. -/
theorem v44_eq : outs (F := Ideal) m 6 main_v44 c
    = Cert.Spec.layer1 (agg1 (m ((c : Thread nD τ).loc main_arg0)) (m ((c : Thread nD τ).loc main_arg1))) (m ((c : Thread nD τ).loc main_arg0))
        (dinv (m ((c : Thread nD τ).loc main_arg1))) (truncf (F := Ideal) (φ := .f32) .bf16 (m ((c : Thread nD τ).loc main_arg2)) bitsLt_bf16_f32)
        (biasRow (m ((c : Thread nD τ).loc main_arg3))) (truncf (F := Ideal) (φ := .f32) .bf16 (m ((c : Thread nD τ).loc main_arg4)) bitsLt_bf16_f32) := by
  rw [outs_v44, arr0_eq (Vin0 m) c]
  show Cert.Spec.layer1 (Gen.V5 m c main_v40) (Gen.V5 m c main_arg0) (Gen.V5 m c main_v30) (Gen.V5 m c main_v42) (Gen.V5 m c main_v41) (Gen.V5 m c main_v43) = _
  rw [V5_v40 m c, V5_arg0 m c, V5_v30 m c, V5_v42 m c, V5_v41 m c, V5_v43 m c]

/-- Given what region 1 leaves as a function of what it is entered with (the mean of the second layer, for every
    entry contents), its output is the mean of the second layer of the host's sums of the first layer's rows, the
    first layer, the inverse degrees, and the second layer's narrowed weights and bias row. -/
theorem v59_eq_of
    (harr1 : ∀ (V : (c : Dev nD) → (b : Ref sig .tc) → Buf (Elt Ideal) ((c : Thread nD τ).loc b)) (c : Dev nD),
      (dat1 (F := Ideal) V c).arrAt 6 cfg1.N
        = Cert.Spec.meanOut (V c main_v55) (V c main_v44) (V c main_v30) (V c main_v57) (V c main_v56) (V c main_v58)) :
    outs (F := Ideal) m 8 main_v59 c
      = Cert.Spec.meanOut (agg2 (hidden1 m c) (m ((c : Thread nD τ).loc main_arg1))) (hidden1 m c)
          (dinv (m ((c : Thread nD τ).loc main_arg1))) (truncf (F := Ideal) (φ := .f32) .bf16 (m ((c : Thread nD τ).loc main_arg5)) bitsLt_bf16_f32)
          (biasRow (m ((c : Thread nD τ).loc main_arg6))) (truncf (F := Ideal) (φ := .f32) .bf16 (m ((c : Thread nD τ).loc main_arg7)) bitsLt_bf16_f32) := by
  rw [outs_v59, harr1 (Vin1 m) c, Vin1_v55, Vin1_v44, Vin1_v30, Vin1_v57, Vin1_v56, Vin1_v58, v44_eq]

/-- And so is @main's result: that one-row array read as a vector of 64. -/
theorem v60_eq_of
    (harr1 : ∀ (V : (c : Dev nD) → (b : Ref sig .tc) → Buf (Elt Ideal) ((c : Thread nD τ).loc b)) (c : Dev nD),
      (dat1 (F := Ideal) V c).arrAt 6 cfg1.N
        = Cert.Spec.meanOut (V c main_v55) (V c main_v44) (V c main_v30) (V c main_v57) (V c main_v56) (V c main_v58)) :
    Gen.V9 m (outs m) c main_v60
      = shapeCast S64 (Cert.Spec.meanOut (agg2 (hidden1 m c) (m ((c : Thread nD τ).loc main_arg1))) (hidden1 m c)
          (dinv (m ((c : Thread nD τ).loc main_arg1))) (truncf (F := Ideal) (φ := .f32) .bf16 (m ((c : Thread nD τ).loc main_arg5)) bitsLt_bf16_f32)
          (biasRow (m ((c : Thread nD τ).loc main_arg6))) (truncf (F := Ideal) (φ := .f32) .bf16 (m ((c : Thread nD τ).loc main_arg7)) bitsLt_bf16_f32)) shapeCasts_S1x64_S64 := by
  rw [V9_v60 m c (outs m), v59_eq_of m c harr1]

end Result

end Cert.KernelIdeal.Hand
-- ==== Proof.KI.R1Vals.lean ====
/- Region 1: what the accumulator and the output block hold after each point, as values. Each case's stores are of the
   whole buffer, and each load is of a whole buffer, so the pieces the runs found read back as the body's payloads over
   the input blocks themselves: the accumulator after the first point is the first block's column sums added to zero,
   after each later point the block's column sums added to what it held, and the output block after the last point is
   the accumulator scaled by 1/100000. -/
import proofs.«170781_j19602230739553_2_alg».proof.Proof.KI.R1
import Idealize.ShloMosaic.Lib.WholeRead

-- membership in a rectangle of large extents (`View.cover_of_tiledL`) recurses once per coordinate of the long axes
set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## Loads and stores of whole buffers -/

/-- The zero offsets of a rank-2 rectangle, as the body spells them. -/
theorem off2_zero : (![0, 0] : Fin 2 → ℕ) = fun _ => 0 := by funext a; fin_cases a <;> rfl

/-- A load of a whole memref held at the contents that read `X`, through the rectangle of the whole shape, reads `X`. -/
theorem readAt_whole_unread {s : Shape} {e : EltTy} {m : Memref sig .tc .vmem s e} (h : m.IsWhole) (X : s.Idx → Elt F e)
    {off : Fin s.rank → ℕ} (hoff : off = fun _ => 0) (inb : ∀ a, off a + s.size a ≤ s.size a) :
    View.readAt (Elt F) m.view (Rect.unit off s.size inb).toLoadRect (h.unread X) = X := by
  funext x; rw [Memref.IsWhole.readAt_unread]; exact congrFun (View.ld_unit_zero hoff inb X) x

/-! ## What each case leaves, as the body's payloads over the blocks -/

set_option maxHeartbeats 400000 in
/-- At the first point the accumulator ends as the block's column sums added to the zero it was just set to. -/
theorem sout1_A_0_eq (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) :
    sout1_A_0 c i arg1 harg1 arg2 harg2 arg3 harg3 arg4 harg4 arg5 harg5 arg6 harg6 arg7 harg7 arg8 harg8 hc0 hc1 x0 x1 x2 x3 x4 x5 = k1_pay2 x0 x2 x1 x3 x4 x5 (k1_pay1 (F := F)) := by
  unfold sout1_A_0
  rw [View.read_writes_eq_canon _ _ _ (scover1_A_0 c i arg1 harg1 arg2 harg2 arg3 harg3 arg4 harg4 arg5 harg5 arg6 harg6 arg7 harg7 arg8 harg8 hc0 hc1 x0 x1 x2 x3 x4 x5)]
  unfold kernelRun1_A kernelRun1_A.sl.v23 kernelRun1_A.sl.HS0_1
  rw [View.canon_cons_unit_zero off2_zero, View.readCov_unit_zero _ off2_zero,
    readAt_whole_unread harg1 x0 off2_zero inb_S4000x64_S4000x64_0_0,
    readAt_whole_unread harg2 x1 off2_zero inb_S4000x64_S4000x64_0_0,
    readAt_whole_unread harg3 x2 off2_zero inb_S4000x1_S4000x1_0_0,
    readAt_whole_unread harg4 x3 off2_zero inb_S64x64_S64x64_0_0,
    readAt_whole_unread harg5 x4 off2_zero inb_S1x64_S1x64_0_0,
    readAt_whole_unread harg6 x5 off2_zero inb_S64x64_S64x64_0_0]

set_option maxHeartbeats 400000 in
/-- At a middle point the accumulator ends as the block's column sums added to what it held. -/
theorem sout1_B_0_eq (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : ¬cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) :
    sout1_B_0 c i arg1 harg1 arg2 harg2 arg3 harg3 arg4 harg4 arg5 harg5 arg6 harg6 arg7 harg7 arg8 harg8 hc0 hc1 x0 x1 x2 x3 x4 x5 xs0 = k1_pay2 x0 x2 x1 x3 x4 x5 xs0 := by
  unfold sout1_B_0
  rw [View.read_writes_eq_canon _ _ _ (scover1_B_0 c i arg1 harg1 arg2 harg2 arg3 harg3 arg4 harg4 arg5 harg5 arg6 harg6 arg7 harg7 arg8 harg8 hc0 hc1 x0 x1 x2 x3 x4 x5 xs0)]
  unfold kernelRun1_B
  rw [View.canon_unit_zero off2_zero,
    readAt_whole_unread harg1 x0 off2_zero inb_S4000x64_S4000x64_0_0,
    readAt_whole_unread harg2 x1 off2_zero inb_S4000x64_S4000x64_0_0,
    readAt_whole_unread harg3 x2 off2_zero inb_S4000x1_S4000x1_0_0,
    readAt_whole_unread harg4 x3 off2_zero inb_S64x64_S64x64_0_0,
    readAt_whole_unread harg5 x4 off2_zero inb_S1x64_S1x64_0_0,
    readAt_whole_unread harg6 x5 off2_zero inb_S64x64_S64x64_0_0,
    readAt_whole_unread harg8 xs0 off2_zero inb_S1x64_S1x64_0_0]

set_option maxHeartbeats 400000 in
/-- At the last point the accumulator ends as the block's column sums added to what it held. -/
theorem sout1_C_0_eq (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) :
    sout1_C_0 c i arg1 harg1 arg2 harg2 arg3 harg3 arg4 harg4 arg5 harg5 arg6 harg6 arg7 harg7 arg8 harg8 hc0 hc1 x0 x1 x2 x3 x4 x5 xs0 = k1_pay2 x0 x2 x1 x3 x4 x5 xs0 := by
  unfold sout1_C_0
  rw [View.read_writes_eq_canon _ _ _ (scover1_C_0 c i arg1 harg1 arg2 harg2 arg3 harg3 arg4 harg4 arg5 harg5 arg6 harg6 arg7 harg7 arg8 harg8 hc0 hc1 x0 x1 x2 x3 x4 x5 xs0)]
  unfold kernelRun1_C kernelRun1_C.sl.HS0_1
  rw [View.canon_unit_zero off2_zero,
    readAt_whole_unread harg1 x0 off2_zero inb_S4000x64_S4000x64_0_0,
    readAt_whole_unread harg2 x1 off2_zero inb_S4000x64_S4000x64_0_0,
    readAt_whole_unread harg3 x2 off2_zero inb_S4000x1_S4000x1_0_0,
    readAt_whole_unread harg4 x3 off2_zero inb_S64x64_S64x64_0_0,
    readAt_whole_unread harg5 x4 off2_zero inb_S1x64_S1x64_0_0,
    readAt_whole_unread harg6 x5 off2_zero inb_S64x64_S64x64_0_0,
    readAt_whole_unread harg8 xs0 off2_zero inb_S1x64_S1x64_0_0]

set_option maxHeartbeats 400000 in
/-- At the last point the output block ends as the accumulator's final contents scaled by 1/100000. -/
theorem out1_C_6_eq (c : Dev nD) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S1x64 .f32) (harg8 : arg8.IsWhole) (hc0 : ¬cond1_0 i) (hc1 : cond1_1 i)
    (x0 : Vec F S4000x64 .f32) (x1 : Vec F S4000x64 .bf16) (x2 : Vec F S4000x1 .f32) (x3 : Vec F S64x64 .bf16) (x4 : Vec F S1x64 .f32) (x5 : Vec F S64x64 .bf16) (xs0 : Vec F S1x64 .f32) :
    out1_C_6 c i arg1 harg1 arg2 harg2 arg3 harg3 arg4 harg4 arg5 harg5 arg6 harg6 arg7 harg7 arg8 harg8 hc0 hc1 x0 x1 x2 x3 x4 x5 xs0 = k1_pay3 (k1_pay2 x0 x2 x1 x3 x4 x5 xs0) := by
  unfold out1_C_6
  rw [View.read_writes_eq_canon _ _ _ (cover1_C_6 c i arg1 harg1 arg2 harg2 arg3 harg3 arg4 harg4 arg5 harg5 arg6 harg6 arg7 harg7 arg8 harg8 hc0 hc1 x0 x1 x2 x3 x4 x5 xs0)]
  unfold kernelRun1_C kernelRun1_C.sl.v33 kernelRun1_C.sl.HS0_1
  rw [View.canon_unit_zero off2_zero, View.readCov_unit_zero _ off2_zero,
    readAt_whole_unread harg1 x0 off2_zero inb_S4000x64_S4000x64_0_0,
    readAt_whole_unread harg2 x1 off2_zero inb_S4000x64_S4000x64_0_0,
    readAt_whole_unread harg3 x2 off2_zero inb_S4000x1_S4000x1_0_0,
    readAt_whole_unread harg4 x3 off2_zero inb_S64x64_S64x64_0_0,
    readAt_whole_unread harg5 x4 off2_zero inb_S1x64_S1x64_0_0,
    readAt_whole_unread harg6 x5 off2_zero inb_S64x64_S64x64_0_0,
    readAt_whole_unread harg8 xs0 off2_zero inb_S1x64_S1x64_0_0]

/-! ## Point by point -/

/-- After the first point the accumulator holds the first block's column sums added to zero. -/
theorem outsAt1_zero_snd (c : Dev nD) (h : 0 < cfg1.N) :
    (outsAt1 V c 0 h).2 = k1_pay2 (iblk1 V c 0 ⟨0, h⟩) (iblk1 V c 2 ⟨0, h⟩) (iblk1 V c 1 ⟨0, h⟩) (iblk1 V c 3 ⟨0, h⟩) (iblk1 V c 4 ⟨0, h⟩) (iblk1 V c 5 ⟨0, h⟩) (k1_pay1 (F := F)) := by
  have e : outsAt1 V c 0 h = _ := outsAt1_A V c ⟨0, h⟩ (Nat.zero_mod _) (show ¬ 0 % 25 = 24 by decide)
  rw [e]; dsimp only
  rw [sout1_A_0_eq (F := F)]

/-- After a later point the accumulator holds that block's column sums added to what it held after the point before. -/
theorem outsAt1_pos_snd (c : Dev nD) (n : ℕ) (h : n < cfg1.N) (hn : n ≠ 0) :
    (outsAt1 V c n h).2 = k1_pay2 (iblk1 V c 0 ⟨n, h⟩) (iblk1 V c 2 ⟨n, h⟩) (iblk1 V c 1 ⟨n, h⟩) (iblk1 V c 3 ⟨n, h⟩) (iblk1 V c 4 ⟨n, h⟩) (iblk1 V c 5 ⟨n, h⟩) (outsAt1 V c (n - 1) (Nat.lt_of_le_of_lt (Nat.sub_le _ _) h)).2 := by
  have hN : n < 25 := lt_of_lt_of_eq h (show cfg1.N = 25 from N_1)
  have h0 : ¬ n % 25 = 0 := by omega
  by_cases h1 : n % 25 = 24
  · have e : outsAt1 V c n h = _ := outsAt1_C V c ⟨n, h⟩ h0 h1
    rw [e]; dsimp only
    rw [sout1_C_0_eq (F := F)]
  · have e : outsAt1 V c n h = _ := outsAt1_B V c ⟨n, h⟩ h0 h1
    rw [e]; dsimp only
    rw [sout1_B_0_eq (F := F)]

/-- After the last point the output block holds the accumulator's final contents scaled by 1/100000. -/
theorem outsAt1_last_fst (c : Dev nD) (t : Fin cfg1.N) (h1 : t.val % 25 = 24) :
    (outsAt1 V c t.val t.isLt).1 = k1_pay3 (outsAt1 V c t.val t.isLt).2 := by
  have h0 : ¬ t.val % 25 = 0 := by omega
  rw [outsAt1_C V c t h0 h1]
  dsimp only
  rw [out1_C_6_eq (F := F), sout1_C_0_eq (F := F)]

/-- The same at the position 24. -/
theorem outsAt1_24_fst (c : Dev nD) (h : 24 < cfg1.N) :
    (outsAt1 V c 24 h).1 = k1_pay3 (outsAt1 V c 24 h).2 :=
  outsAt1_last_fst V c ⟨24, h⟩ (show 24 % 25 = 24 by rfl)

end Cert.KernelIdeal.Hand

end
-- ==== Proof.KI.Arr1.lean ====
/- The second region's output array after the run. The region's output window has ONE block, the whole [1,64] array
   `main_v59`, at a block index that never moves; the body stores into it at the last grid point only, and the pipeline
   writes it back at that point only. So after the 25 points the array holds what the body left in the window's staging
   buffer at point 24: the first component of the accumulation `outsAt1` there. -/
import proofs.«170781_j19602230739553_2_alg».proof.Proof.Gen.KernelIdeal.Points
import proofs.«170781_j19602230739553_2_alg».proof.Proof.KI.R1
import Idealize.ShloMosaic.Lib.Pipeline.Value
import Idealize.ShloMosaic.Lib.Tactic

noncomputable section

namespace Cert.KernelIdeal.Hand
open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
variable {F : FTy → Type} [FloatOps F] [Named F]

-- the TensorCore's buffer contents when the region is entered
variable (V : (c : Dev nD) → (b : Ref sig .tc) → Buf (Elt F) ((c : Thread nD τ).loc b))

/-- The last grid point: the only one at which the output block is written back. -/
abbrev tLast1 : Fin cfg1.N := ⟨24, by decide⟩

/-- What the body leaves in the output window's staging buffer at the last point, as contents of the output array
    (the window's one block is the array). -/
abbrev last1 (c : Dev nD) : Buf (Elt F) ((c : Thread nD τ).loc main_v59) := (outsAt1 V c tLast1.val tLast1.isLt).1

/-- The one write-back, at point 24, writes it: block (0, 0) of the [1,64] array, read through zero offsets, is the array. -/
theorem flushed1_6_eq (c : Dev nD) (t : Fin cfg1.N) (hf : (cfg1.win 6).flush t = true) :
    (dat1 V c).flushed 6 t = ((cfg1.win 6).blk t).view.read (Elt F) (last1 V c) := by
  have hN : cfg1.N = 25 := N_1
  have h24 : t.val = 24 := by have := (flush1_6 t).mp hf; have := t.isLt; omega
  obtain rfl : t = tLast1 := Fin.ext h24
  show (cfg1.win 6).cut (grid1.coords tLast1) ((dat1 V c).after 6 tLast1) = _
  rw [after1_6]
  have hz' : (fun a => win1_6.index tLast1 a * main_v59.ty.shape.size a) = fun _ => 0 := funext fun a => by fin_cases a <;> decide
  exact (Memref.read_access_unit_zero (Elt F) main_v59 hz' (fun a => by rw [congrFun hz' a]; simp) (last1 V c)).symm

/-- Every index of the output array lies in the block the last point writes back. -/
theorem cover1_6 (c : Dev nD) (i : ((cfg1.win 6).arr.view.loc (c : Thread nD τ)).2.ty.Idx) :
    ∃ t : Fin cfg1.N, (cfg1.win 6).flush t = true ∧ i ∈ ((cfg1.win 6).blk t).view.set :=
  ⟨tLast1, (flush1_6 tLast1).mpr rfl, by
    show i ∈ ((View.whole main_v59).slice (win1_6.rect tLast1)).set
    rw [View.set_slice_whole, Rect.mem_set_unit]
    intro a
    have h0 : (i 0 : Nat) < 1 := (i 0).isLt
    have h1 : (i 1 : Nat) < 64 := (i 1).isLt
    match a with
    | ⟨0, _⟩ =>
      show win1_6.index tLast1 0 * win1_6.size 0 ≤ (i 0 : Nat) ∧ (i 0 : Nat) < win1_6.index tLast1 0 * win1_6.size 0 + win1_6.xsize (grid1.coords tLast1) 0
      rw [show win1_6.index tLast1 0 * win1_6.size 0 = 0 from by decide +kernel, show win1_6.xsize (grid1.coords tLast1) 0 = 1 from by decide +kernel]; omega
    | ⟨1, _⟩ =>
      show win1_6.index tLast1 1 * win1_6.size 1 ≤ (i 1 : Nat) ∧ (i 1 : Nat) < win1_6.index tLast1 1 * win1_6.size 1 + win1_6.xsize (grid1.coords tLast1) 1
      rw [show win1_6.index tLast1 1 * win1_6.size 1 = 0 from by decide +kernel, show win1_6.xsize (grid1.coords tLast1) 1 = 64 from by decide +kernel]; omega⟩

/-- THE OUTPUT ARRAY AFTER THE RUN is what the body left in the output's staging buffer at the last grid point. -/
theorem arr1_last (c : Dev nD) (h : 24 < cfg1.N) : (dat1 V c).arrAt 6 cfg1.N = (outsAt1 V c 24 h).1 :=
  (dat1 V c).arrAt_eq_of_cover 6 (last1 V c) (flushed1_6_eq V c) (cover1_6 c)

/-- info: 'Cert.KernelIdeal.Hand.arr1_last' depends on axioms: [propext, Classical.choice, Quot.sound] -/
#guard_msgs in #print axioms arr1_last

end Cert.KernelIdeal.Hand

end
-- ==== Proof.KI.Value1.lean ====
/-
  Region 1 at the ideal values: the one-row array it leaves is the mean of the second layer over all 100000 nodes.

  The region's body adds, at each of the 25 grid points, the column sums of that point's 4000 rows of the layer
  — (Σ_k (agg r k · dinv r) · Wl k j + b j) + Σ_k h r k · Wr k j at row r, column j — to an accumulator zeroed at the first
  point, and at the last point stores the accumulator times the real number 1/100000. Read at an entry: the two products
  onto the zero splat are plain sums over the contraction, the narrowing to bf16 is the identity on extended reals, the lane
  reduction is the sum over the block's rows, the named constant is 1/100000. By induction on the point the accumulator
  after point n holds the sum over the first n + 1 blocks; the 25 blocks of 4000 consecutive rows are the 100000 rows
  (only the associativity of the addition on the extended reals is used).
-/
import proofs.«170781_j19602230739553_2_alg».proof.Proof.KI.R1Vals
import proofs.«170781_j19602230739553_2_alg».proof.Proof.KI.Arr1
import proofs.«170781_j19602230739553_2_alg».proof.Proof.Spec
import Idealize.ShloMosaic.Lib.Pipeline.Value
import Idealize.ShloMosaic.Lib.ValueIdx
import Idealize.ShloMosaic.PureOps.IdealRules
import Idealize.ShloMosaic.PureOps.Ideal.Laws

noncomputable section

open scoped BigOperators

namespace Cert.KernelIdeal.Hand
open Cert.KernelIdeal Cert.KernelIdeal.Gen
open Idealize.ShloMosaic Idealize.ShloMosaic.TcCoe Idealize.ShloMosaic.ValueIdx
open Idealize.ShloMosaic.Pipeline (Dat)

/-! ## The payloads at an entry, at the ideal values -/

/-- One block's contribution to column `j` of the accumulator: the layer's entries of the block's 4000 rows, summed. -/
def blockSum (x0 : Vec Ideal S4000x64 .f32) (x2 : Vec Ideal S4000x1 .f32) (x1 : Vec Ideal S4000x64 .bf16) (x3 : Vec Ideal S64x64 .bf16)
    (x4 : Vec Ideal S1x64 .f32) (x5 : Vec Ideal S64x64 .bf16) (j : Fin 64) : EReal :=
  ∑ r : Fin 4000, (((∑ k : Fin 64, (x0 (ix2 r k) * x2 (ix2 r 0)) * x3 (ix2 k j)) + x4 (ix2 0 j)) + ∑ k : Fin 64, x1 (ix2 r k) * x5 (ix2 k j))

abbrev D64 := dot_S4000x64_S64x64_S4000x64_1_0_0_1_n_n

theorem lhs64 (r : Fin 4000) (j k : Fin 64) : D64.lhsIdx (ix2 r j) ((contrEquiv1 D64 64 rfl rfl).symm k) = ix2 r k := by
  funext a
  match a with
  | ⟨0, _⟩ => first | rfl | fail "lhs64 0"
  | ⟨1, _⟩ => first | rfl | exact Fin.ext (contrEquiv1_symm_val D64 64 rfl rfl k) | fail "lhs64 1"

theorem rhs64 (r : Fin 4000) (j k : Fin 64) : D64.rhsIdx (ix2 r j) ((contrEquiv1 D64 64 rfl rfl).symm k) = ix2 k j := by
  funext a
  match a with
  | ⟨0, _⟩ => first | rfl | exact Fin.ext (contrEquiv1_symm_val D64 64 rfl rfl k) | fail "rhs64 0"
  | ⟨1, _⟩ => first | rfl | fail "rhs64 1"

set_option maxHeartbeats 400000 in
theorem row_term (x0 : FVec Ideal S4000x64 .f32) (x2 : FVec Ideal S4000x1 .f32) (x1 : FVec Ideal S4000x64 .bf16) (x3 : FVec Ideal S64x64 .bf16)
    (x4 : FVec Ideal S1x64 .f32) (x5 : FVec Ideal S64x64 .bf16) (r : Fin 4000) (j : Fin 64) :
    (addf (addf (matmul D64 none (truncf .bf16 (mulf x0 (broadcastTo S4000x64 x2 broadcasts_S4000x1_S4000x64)) bitsLt_bf16_f32 : FVec Ideal S4000x64 .bf16) x3 (constant S4000x64 .f32 0x00000000#32))
        (broadcastTo S4000x64 x4 broadcasts_S1x64_S4000x64)) (matmul D64 none x1 x5 (constant S4000x64 .f32 0x00000000#32)) : FVec Ideal S4000x64 .f32) (ix2 r j)
      = ((∑ k : Fin 64, (x0 (ix2 r k) * x2 (ix2 r 0)) * x3 (ix2 k j)) + x4 (ix2 0 j)) + ∑ k : Fin 64, x1 (ix2 r k) * x5 (ix2 k j) := by
  rw [addf_apply, addf_apply]
  refine congrArg₂ (· + ·) (congrArg₂ (· + ·) ?_ ?_) ?_
  · refine (Idealize.ShloMosaic.Ideal.matmul_constant_zero_apply D64 none _ _ (ix2 r j)).trans ?_
    rw [← Equiv.sum_comp (contrEquiv1 D64 64 rfl rfl).symm]
    refine Finset.sum_congr rfl fun k _ => ?_
    rw [lhs64, rhs64, truncf_apply, mulf_apply]
    refine congrArg (x0 (ix2 r k) * · * x3 (ix2 k j)) ?_
    exact broadcastTo_apply x2 _ (ix2 r k) (ix2 r 0) (fun a => by match a with | ⟨0, _⟩ => rfl | ⟨1, _⟩ => rfl)
  · exact broadcastTo_apply x4 _ (ix2 r j) (ix2 0 j) (fun a => by match a with | ⟨0, _⟩ => rfl | ⟨1, _⟩ => rfl)
  · refine (Idealize.ShloMosaic.Ideal.matmul_constant_zero_apply D64 none _ _ (ix2 r j)).trans ?_
    rw [← Equiv.sum_comp (contrEquiv1 D64 64 rfl rfl).symm]
    refine Finset.sum_congr rfl fun k _ => ?_
    rw [lhs64, rhs64]

set_option maxHeartbeats 400000 in
/-- The accumulator's step at the ideal values, column by column: what it held plus the block's contribution. -/
theorem k1_pay2_apply (x0 : Vec Ideal S4000x64 .f32) (x2 : Vec Ideal S4000x1 .f32) (x1 : Vec Ideal S4000x64 .bf16) (x3 : Vec Ideal S64x64 .bf16)
    (x4 : Vec Ideal S1x64 .f32) (x5 : Vec Ideal S64x64 .bf16) (s : Vec Ideal S1x64 .f32) (j : Fin 64) :
    k1_pay2 (F := Ideal) x0 x2 x1 x3 x4 x5 s (ix2 0 j) = s (ix2 0 j) + blockSum x0 x2 x1 x3 x4 x5 j := by
  unfold k1_pay2 blockSum
  simp only [shapeCast_self]
  rw [addf_apply]
  refine congrArg (s (ix2 0 j) + ·) ?_
  rw [shapeCast_apply _ _ (ix2 0 j) (ix1 j) (by rw [Shape.rowMajor_val_one, Shape.rowMajor_val_two]; simp)]
  refine (Idealize.ShloMosaic.Ideal.multiReduction_add_single _ _ _ _ _ _).trans ?_
  refine Finset.sum_congr rfl fun r _ => ?_
  have hl : reduces_S4000x64_S64.lift (ix1 j) r = ix2 r j := by
    funext a
    match a with
    | ⟨0, _⟩ => first | rfl | fail "lift 0"
    | ⟨1, _⟩ => first | rfl | fail "lift 1"
  rw [hl]
  exact row_term x0 x2 x1 x3 x4 x5 r j

/-- The named reciprocal is the real number 1/100000 at the ideal values. -/
theorem inv_n : Named.named (F := Ideal) Cert.KernelIdeal.κ "inv_100000" (φ := .f32) 0x3727C5AC#32 = ((1 / 100000 : ℝ) : EReal) :=
  IdealRules.named_const.ideal_named_scalar _ _ _ _ rfl

/-- The accumulator's reset value is zero in every column. -/
theorem k1_pay1_apply (i : S1x64.Idx) : k1_pay1 (F := Ideal) i = 0 := by
  unfold k1_pay1
  simp only [shapeCast_self]
  show Idealize.ShloMosaic.Ideal.ofBits .f32 0x00000000#32 = 0
  exact Idealize.ShloMosaic.Ideal.ofBits_zero_f32

/-- The output block is the accumulator times 1/100000, column by column. -/
theorem k1_pay3_apply (v : Vec Ideal S1x64 .f32) (i : S1x64.Idx) : k1_pay3 (F := Ideal) v i = v i * ((1 / 100000 : ℝ) : EReal) := by
  unfold k1_pay3
  rw [mulf_apply, broadcast_apply, inv_n]

variable (V : (c : Dev nD) → (b : Ref sig .tc) → Buf (Elt Ideal) ((c : Thread nD τ).loc b))

/-! ## The input blocks at an entry -/

/-- The row blocks move down the arrays 4000 rows per point; the weights' and the bias's one block is the whole array. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `r` of point `t`'s block of the neighbourhood sums is row `4000 t + r` of the array. -/
theorem blk1_0 (c : Dev nD) (t : Fin cfg1.N) (r : Fin 4000) (k : Fin 64) (R : Fin 100000) (hR : R.val = 4000 * t.val + r.val) :
    iblk1 V c 0 t (ix2 r k) = V c main_v55 (ix2 R k) := by
  show V c main_v55 (((cfg1.win 0).blk t).view.emb (ix2 r k)) = _
  refine congrArg (V c main_v55) (funext fun a => Fin.ext ?_)
  obtain ⟨e0, e1, -⟩ := idx_facts1 t
  match a with
  | ⟨0, _⟩ => show win1_0.index t (0 : Fin 2) * 4000 + 1 * r.val = R.val; omega
  | ⟨1, _⟩ => show win1_0.index t (1 : Fin 2) * 64 + 1 * k.val = k.val; omega

/-- The same for the hidden rows … -/
theorem blk1_1 (c : Dev nD) (t : Fin cfg1.N) (r : Fin 4000) (k : Fin 64) (R : Fin 100000) (hR : R.val = 4000 * t.val + r.val) :
    iblk1 V c 1 t (ix2 r k) = V c main_v44 (ix2 R k) := by
  show V c main_v44 (((cfg1.win 1).blk t).view.emb (ix2 r k)) = _
  refine congrArg (V c main_v44) (funext fun a => Fin.ext ?_)
  obtain ⟨-, -, e0, e1, -⟩ := idx_facts1 t
  match a with
  | ⟨0, _⟩ => show win1_1.index t (0 : Fin 2) * 4000 + 1 * r.val = R.val; omega
  | ⟨1, _⟩ => show win1_1.index t (1 : Fin 2) * 64 + 1 * k.val = k.val; omega

/-- … and for the inverse degrees' one column. -/
theorem blk1_2 (c : Dev nD) (t : Fin cfg1.N) (r : Fin 4000) (R : Fin 100000) (hR : R.val = 4000 * t.val + r.val) :
    iblk1 V c 2 t (ix2 r 0) = V c main_v30 (ix2 R 0) := by
  show V c main_v30 (((cfg1.win 2).blk t).view.emb (ix2 r 0)) = _
  refine congrArg (V c main_v30) (funext fun a => Fin.ext ?_)
  obtain ⟨-, -, -, -, e0, e1, -⟩ := idx_facts1 t
  match a with
  | ⟨0, _⟩ => show win1_2.index t (0 : Fin 2) * 4000 + 1 * r.val = R.val; omega
  | ⟨1, _⟩ => show win1_2.index t (1 : Fin 2) * 1 + 1 * 0 = 0; omega

/-- The neighbour weights' block is the whole matrix at every point … -/
theorem blk1_3 (c : Dev nD) (t : Fin cfg1.N) (k j : Fin 64) : iblk1 V c 3 t (ix2 k j) = V c main_v57 (ix2 k j) := by
  show V c main_v57 (((cfg1.win 3).blk t).view.emb (ix2 k j)) = _
  refine congrArg (V c main_v57) (funext fun a => Fin.ext ?_)
  obtain ⟨-, -, -, -, -, -, e0, e1, -⟩ := idx_facts1 t
  match a with
  | ⟨0, _⟩ => show win1_3.index t (0 : Fin 2) * 64 + 1 * k.val = k.val; omega
  | ⟨1, _⟩ => show win1_3.index t (1 : Fin 2) * 64 + 1 * j.val = j.val; omega

/-- … so is the bias row's … -/
theorem blk1_4 (c : Dev nD) (t : Fin cfg1.N) (j : Fin 64) : iblk1 V c 4 t (ix2 0 j) = V c main_v56 (ix2 0 j) := by
  show V c main_v56 (((cfg1.win 4).blk t).view.emb (ix2 0 j)) = _
  refine congrArg (V c main_v56) (funext fun a => Fin.ext ?_)
  obtain ⟨-, -, -, -, -, -, -, -, e0, e1, -⟩ := idx_facts1 t
  match a with
  | ⟨0, _⟩ => show win1_4.index t (0 : Fin 2) * 1 + 1 * 0 = 0; omega
  | ⟨1, _⟩ => show win1_4.index t (1 : Fin 2) * 64 + 1 * j.val = j.val; omega

/-- … and the root weights'. -/
theorem blk1_5 (c : Dev nD) (t : Fin cfg1.N) (k j : Fin 64) : iblk1 V c 5 t (ix2 k j) = V c main_v58 (ix2 k j) := by
  show V c main_v58 (((cfg1.win 5).blk t).view.emb (ix2 k j)) = _
  refine congrArg (V c main_v58) (funext fun a => Fin.ext ?_)
  obtain ⟨-, -, -, -, -, -, -, -, -, -, e0, e1⟩ := idx_facts1 t
  match a with
  | ⟨0, _⟩ => show win1_5.index t (0 : Fin 2) * 64 + 1 * k.val = k.val; omega
  | ⟨1, _⟩ => show win1_5.index t (1 : Fin 2) * 64 + 1 * j.val = j.val; omega

/-! ## Sums over the rows, block by block -/

/-- A sum over `B · n` consecutive naturals is the sum over `n` blocks of `B`: only the associativity of the addition. -/
theorem sum_range_blocks {M : Type*} [AddCommMonoid M] (f : ℕ → M) (B : ℕ) :
    ∀ n : ℕ, ∑ s ∈ Finset.range n, ∑ r ∈ Finset.range B, f (B * s + r) = ∑ R ∈ Finset.range (B * n), f R
  | 0 => by simp
  | n + 1 => by rw [Finset.sum_range_succ, sum_range_blocks f B n, Nat.mul_succ, Finset.sum_range_add]

/-! ## The accumulator after each point -/

/-- The second layer's entry at row `R` and column `j` of the arrays the region finds, as a function of every natural
    (zero past the last row), so that sums over row ranges need no bounds. -/
def rowVal (c : Dev nD) (j : Fin 64) (R : ℕ) : EReal :=
  if h : R < 100000 then Cert.Spec.pre (K := 64) (V c main_v55) (V c main_v44) (V c main_v30) (V c main_v57) (V c main_v56) (V c main_v58) ⟨R, h⟩ j else 0

set_option maxHeartbeats 400000 in
/-- Point `t`'s block contributes the entries of rows `4000 t … 4000 t + 3999`. -/
theorem blockSum_eq (c : Dev nD) (t : Fin cfg1.N) (j : Fin 64) :
    blockSum (iblk1 V c 0 t) (iblk1 V c 2 t) (iblk1 V c 1 t) (iblk1 V c 3 t) (iblk1 V c 4 t) (iblk1 V c 5 t) j
      = ∑ r ∈ Finset.range 4000, rowVal V c j (4000 * t.val + r) := by
  have ht : t.val < 25 := lt_of_lt_of_eq t.isLt (show cfg1.N = 25 from N_1)
  unfold blockSum
  rw [← Fin.sum_univ_eq_sum_range (fun r => rowVal V c j (4000 * t.val + r)) 4000]
  refine Finset.sum_congr rfl fun r _ => ?_
  have hr : r.val < 4000 := r.isLt
  have hR : 4000 * t.val + r.val < 100000 := by omega
  rw [rowVal, dif_pos hR]
  unfold Cert.Spec.pre
  rw [blk1_2 V c t r ⟨_, hR⟩ rfl, blk1_4 V c t j]
  refine congrArg₂ (· + ·) (congrArg (· + _) (Finset.sum_congr rfl fun k _ => ?_)) (Finset.sum_congr rfl fun k _ => ?_)
  · rw [blk1_0 V c t r k ⟨_, hR⟩ rfl, blk1_3 V c t k j]
  · rw [blk1_1 V c t r k ⟨_, hR⟩ rfl, blk1_5 V c t k j]

/-- After point `n` the accumulator holds, column by column, the entries of the first `n + 1` blocks' rows summed:
    by induction on the point. -/
theorem acc_apply (c : Dev nD) : ∀ (n : ℕ) (h : n < cfg1.N) (j : Fin 64),
    (outsAt1 V c n h).2 (ix2 0 j) = ∑ s ∈ Finset.range (n + 1), ∑ r ∈ Finset.range 4000, rowVal V c j (4000 * s + r)
  | 0, h, j => by
    rw [outsAt1_zero_snd V c h, k1_pay2_apply, k1_pay1_apply, zero_add, blockSum_eq V c ⟨0, h⟩ j, Finset.sum_range_one]
  | n + 1, h, j => by
    rw [outsAt1_pos_snd V c (n + 1) h (Nat.succ_ne_zero n), k1_pay2_apply, blockSum_eq V c ⟨n + 1, h⟩ j, Finset.sum_range_succ _ (n + 1)]
    refine congrArg (· + _) ?_
    exact acc_apply c n (Nat.lt_of_succ_lt h) j

/-! ## The output block -/

/-- What the last point leaves in the output block is the mean over all 100000 rows, column by column. -/
theorem out_last_eq (c : Dev nD) (h24 : 24 < cfg1.N) :
    (outsAt1 V c 24 h24).1 = Cert.Spec.meanOut (V c main_v55) (V c main_v44) (V c main_v30) (V c main_v57) (V c main_v56) (V c main_v58) := by
  funext i
  obtain ⟨u, j, rfl⟩ : ∃ (u : Fin 1) (j : Fin 64), i = ix2 u j := ⟨i 0, i 1, eq_ix2 i⟩
  obtain rfl : u = 0 := Subsingleton.elim _ _
  rw [outsAt1_24_fst V c h24, k1_pay3_apply, acc_apply V c 24 h24 j, Cert.Spec.meanOut_apply]
  refine congrArg (· * _) ?_
  rw [sum_range_blocks (rowVal V c j) 4000 25, show 4000 * 25 = 100000 from rfl, ← Fin.sum_univ_eq_sum_range (rowVal V c j) 100000]
  refine Finset.sum_congr rfl fun R _ => ?_
  rw [rowVal, dif_pos R.isLt]

/-- REGION 1'S RESULT: the output array after the region is the mean of the second layer over the nodes, as a function
    of the arrays the region finds. -/
theorem arr1_eq (c : Dev nD) :
    (dat1 (F := Ideal) V c).arrAt 6 cfg1.N = Cert.Spec.meanOut (V c main_v55) (V c main_v44) (V c main_v30) (V c main_v57) (V c main_v56) (V c main_v58) :=
  have h24 : 24 < cfg1.N := lt_of_lt_of_eq (by decide : 24 < 25) (show cfg1.N = 25 from N_1).symm
  (arr1_last V c h24).trans (out_last_eq V c h24)

end Cert.KernelIdeal.Hand

end
-- ==== Proof.KI.Value.lean ====
/-
  The kernel program's result at the ideal values, as one term over the launch arguments: the mean over the nodes of the
  second layer, computed from the first layer's clamped output, the two aggregations over the edges sorted by destination,
  and the inverse degrees. Each region's output array is the specification's function of the arrays it finds
  (`arr0_eq`, `arr1_eq`); the host operations between the regions read back as the host values over the arguments.
-/
import proofs.«170781_j19602230739553_2_alg».proof.Proof.KI.Result0
import proofs.«170781_j19602230739553_2_alg».proof.Proof.KI.Value1

noncomputable section

namespace Cert.KernelIdeal.Hand
open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

set_option maxHeartbeats 400000 in
/-- THE KERNEL PROGRAM'S RESULT: `%60` ends holding, at column `j`, the mean over the nodes of the second layer — weights
    `%arg5`, `%arg7`, bias `%arg6` — over the first layer's output `hidden1`, its sums over the incoming edges, and the
    inverse degrees. -/
theorem kernel_result : Gen.V9 m (outs m) c main_v60 = fun (i : S64.Idx) =>
    Cert.Spec.meanOut (agg2 (hidden1 m c) (m ((c : Thread nD τ).loc main_arg1))) (hidden1 m c) (dinv (m ((c : Thread nD τ).loc main_arg1)))
      (truncf (F := Ideal) (φ := .f32) .bf16 (m ((c : Thread nD τ).loc main_arg5)) bitsLt_bf16_f32) (biasRow (m ((c : Thread nD τ).loc main_arg6)))
      (truncf (F := Ideal) (φ := .f32) .bf16 (m ((c : Thread nD τ).loc main_arg7)) bitsLt_bf16_f32) (ix2 0 (i 0)) := by
  rw [v60_eq_of m c (fun V c => arr1_eq V c)]
  funext i
  exact shapeCast_apply _ _ i (ix2 0 (i 0)) (by rw [Shape.rowMajor_val_one, Shape.rowMajor_val_two]; simp)

end Cert.KernelIdeal.Hand

end
-- ==== Proof.Final.lean ====
/-
  The two programs' results are equal at the ideal values, given the bridge law between the common specification over
  the kernel program's host values and the reference's composed term.

  The kernel program ends with its result at the mean, over the nodes, of the second layer over the first layer's output
  (`kernel_result`); the reference's result is its composed term of the eight arguments (`val_main_v56`). From memories that
  agree on the arguments the two are equal as soon as that term is the specification's function of the same arrays: the
  one hypothesis.
-/
import proofs.«170781_j19602230739553_2_alg».proof.Proof.Algebraic
import proofs.«170781_j19602230739553_2_alg».proof.Proof.KI.Value

noncomputable section

open Idealize.ShloMosaic Idealize.ShloMosaic.TcCoe Idealize.SL.Sem Idealize.ShloMosaic.ValueIdx

namespace Cert.Proof.Alg

open Cert.KernelIdeal Cert.KernelIdeal.Gen Cert.KernelIdeal.Hand

/-- The first layer's output as a function of the five arrays it reads: the features, the edge list, the neighbour
    weights, the bias and the root weights. -/
abbrev H1 (x0 : (⟨S100000x20, .f32⟩ : BufTy).Contents (Elt Ideal)) (x1 : (⟨S2x3200000, .i32⟩ : BufTy).Contents (Elt Ideal))
    (x2 : (⟨S20x64, .f32⟩ : BufTy).Contents (Elt Ideal)) (x3 : (⟨S64, .f32⟩ : BufTy).Contents (Elt Ideal))
    (x4 : (⟨S20x64, .f32⟩ : BufTy).Contents (Elt Ideal)) : S100000x64.Idx → EReal :=
  Cert.Spec.layer1 (agg1 x0 x1) x0 (dinv x1) (truncf (F := Ideal) (φ := .f32) .bf16 x2 bitsLt_bf16_f32) (biasRow x3)
    (truncf (F := Ideal) (φ := .f32) .bf16 x4 bitsLt_bf16_f32)

/-- THE BRIDGE LAW: the specification's mean of the second layer, over the kernel program's host values of the eight
    argument arrays, is the reference's composed term of the same arrays. -/
abbrev BridgeLaw : Prop :=
  ∀ (x0 : (⟨S100000x20, .f32⟩ : BufTy).Contents (Elt Ideal)) (x1 : (⟨S2x3200000, .i32⟩ : BufTy).Contents (Elt Ideal))
    (x2 : (⟨S20x64, .f32⟩ : BufTy).Contents (Elt Ideal)) (x3 : (⟨S64, .f32⟩ : BufTy).Contents (Elt Ideal))
    (x4 : (⟨S20x64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal)),
    (fun (i : S64.Idx) => Cert.Spec.meanOut (agg2 (H1 x0 x1 x2 x3 x4) x1) (H1 x0 x1 x2 x3 x4) (dinv x1)
        (truncf (F := Ideal) (φ := .f32) .bf16 x5 bitsLt_bf16_f32) (biasRow x6) (truncf (F := Ideal) (φ := .f32) .bf16 x7 bitsLt_bf16_f32) (ix2 0 (i 0)))
      = Cert.ReferenceIdeal.ReadP.val_main_v56 (F := Ideal) x0 x1 x2 x3 x4 x5 x6 x7

set_option maxHeartbeats 400000 in
/-- THE ONE EQUATION, from the bridge law: from memories that agree on the eight arguments, the reference's result term
    is the kernel program's last valuation at its result. -/
theorem final_eq_of (hspec : BridgeLaw)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.KernelIdeal.nD) :
    Cert.ReferenceIdeal.ValueP.res_main_v56 (F := Ideal) m' c
      = Cert.KernelIdeal.Gen.V9 m (Cert.KernelIdeal.Hand.outs m) c Cert.KernelIdeal.main_v60 := by
  obtain ⟨h0, h1, h2, h3, h4, h5, h6, h7⟩ := hagree c
  rw [Cert.ReferenceIdeal.ReadP.val_main_v56_eq m' c, h0, h1, h2, h3, h4, h5, h6, h7, kernel_result m c]
  exact (hspec _ _ _ _ _ _ _ _).symm

/-- The algebraic conjunct of the claim, from the bridge law. -/
theorem algebraic (hspec : BridgeLaw) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  algebraic_of (final_eq_of hspec)

end Cert.Proof.Alg

end
-- ==== Proof.LibSegmentSumPerm.lean ====
/-
  The law that joins the two programs: a segment sum does not depend on the order of its updates.

  One program adds each edge's message into its destination node in the order the edges are given; the other first sorts
  the edges by destination (a stable argsort) and adds them in the sorted order. On the extended reals addition is
  commutative and associative, so both give the same sums. This file proves, over library notions only:

    • where an update of a segment sum lands (`segDims1_resultIdx`, `segDims2_resultIdx`): on the element its scatter
      index names, read as a signed integer; nowhere when that is outside the operand;
    • the permutation law (`scatterAdd_perm1`, `scatterAdd_perm2`): scatter indices and updates read through ONE
      permutation of the update positions give the same segment sum;
    • a stable argsort's entries are the values of a permutation of the positions (`sortPerm`, `argsort_apply`);
    • the gathers read at an index (`gather1_apply`, `gather2_apply`): the operand at the entry (row) the index word
      names, read signed and clamped (`rowOf`), and jnp's wrap of a negative index leaves a position (`wrap_ofNat32`).
-/
import Idealize.ShloMosaic.PureOps.Ideal
import Idealize.ShloMosaic.Lib.SortFacts
import Idealize.ShloMosaic.Lib.ValueIdx

noncomputable section

open scoped BigOperators

namespace Cert.Perm

open Idealize.ShloMosaic Idealize.ShloMosaic.ValueIdx

/-- The dimension numbers of a segment sum of scalars: operand `[N]`, one scatter index per update in a column `[E, 1]`,
    updates `[E]`. -/
abbrev segDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E C w : Nat}

theorem segDims1_siIdx (wf : ScatterDims.WF ⟨1, ![N]⟩ ⟨2, ![E, 1]⟩ ⟨1, ![E]⟩ [] [0] [0] 1)
    (j : (⟨1, ![E]⟩ : Shape).Idx) (c : Fin (segDims1 N E wf).scatterDimsToOperandDims.length) :
    (segDims1 N E wf).siIdx j c = ix2 (j 0) 0 := by
  funext b; refine Fin.ext ?_
  match b with
  | ⟨0, _⟩ => rfl
  | ⟨1, _⟩ =>
    have h : c.val < 1 := c.isLt
    show c.val = 0
    omega

theorem segDims1_start (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (segDims1 N E wf).start j idx a = (idx (ix2 (j 0) 0)).toInt := by
  obtain rfl : a = 0 := Subsingleton.elim _ _
  unfold ScatterDims.start
  rw [dif_pos (show (0 : Fin 1) ∈ (segDims1 N E wf).scatterDimsToOperandDims from List.mem_singleton.mpr rfl)]
  exact congrArg (fun q => (idx q).toInt) (segDims1_siIdx wf j _)

theorem segDims1_window (wf : ScatterDims.WF ⟨1, ![N]⟩ ⟨2, ![E, 1]⟩ ⟨1, ![E]⟩ [] [0] [0] 1)
    (j : (⟨1, ![E]⟩ : Shape).Idx) (a : Fin 1) :
    (segDims1 N E wf).window j a = 0 := by
  obtain rfl : a = 0 := Subsingleton.elim _ _
  unfold ScatterDims.window
  rw [dif_neg]
  simp [ScatterDims.sKept, Shape.kept]

/-- WHERE A SCALAR UPDATE LANDS: update `j` of a segment sum of scalars lands on element `i` exactly when its scatter
    index, read as a signed integer, is `i`'s position (an index outside `[0, N)` lands nowhere). -/
theorem segDims1_resultIdx (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (segDims1 N E wf).resultIdx? j idx = some i ↔ (idx (ix2 (j 0) 0)).toInt = ((i 0).val : Int) := by
  unfold ScatterDims.resultIdx?
  have hi : (i 0).val < N := (i 0).isLt
  split
  · rename_i h
    have h0 := h 0
    rw [segDims1_start, segDims1_window] at h0
    constructor
    · intro hs
      have hv := congrArg Fin.val (congrFun (Option.some.inj hs) 0)
      simp only [segDims1_start, segDims1_window] at hv
      omega
    · intro ht
      refine congrArg some (funext fun a => ?_)
      obtain rfl : a = 0 := Subsingleton.elim _ _
      refine Fin.ext ?_
      show ((segDims1 N E wf).start j idx 0 + ((segDims1 N E wf).window j 0 : Nat)).toNat = (i 0).val
      rw [segDims1_start, segDims1_window]
      omega
  · rename_i h
    constructor
    · intro hs; exact absurd hs (by simp)
    · intro ht
      exfalso; apply h; intro a
      obtain rfl : a = 0 := Subsingleton.elim _ _
      rw [segDims1_start, segDims1_window]
      show 0 ≤ _ + ((0 : Nat) : Int) ∧ _ + ((0 : Nat) : Int) < ((N : Nat) : Int)
      omega

/-- The dimension numbers of a segment sum of rows: operand `[N, C]`, one scatter index per update row in a column
    `[E, 1]`, updates `[E, C]` (each update row a window along the operand's second axis). -/
abbrev segDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem segDims2_siIdx (wf : ScatterDims.WF ⟨2, ![N, C]⟩ ⟨2, ![E, 1]⟩ ⟨2, ![E, C]⟩ [1] [0] [0] 1)
    (j : (⟨2, ![E, C]⟩ : Shape).Idx) (c : Fin (segDims2 N E C wf).scatterDimsToOperandDims.length) :
    (segDims2 N E C wf).siIdx j c = ix2 (j 0) 0 := by
  funext b; refine Fin.ext ?_
  match b with
  | ⟨0, _⟩ => rfl
  | ⟨1, _⟩ =>
    have h : c.val < 1 := c.isLt
    show c.val = 0
    omega

theorem segDims2_start0 (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (segDims2 N E C wf).start j idx 0 = (idx (ix2 (j 0) 0)).toInt := by
  unfold ScatterDims.start
  rw [dif_pos (show (0 : Fin 2) ∈ (segDims2 N E C wf).scatterDimsToOperandDims from List.mem_singleton.mpr rfl)]
  exact congrArg (fun q => (idx q).toInt) (segDims2_siIdx wf j _)

theorem segDims2_start1 (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (segDims2 N E C wf).start j idx 1 = 0 := by
  unfold ScatterDims.start
  rw [dif_neg (show (1 : Fin 2) ∉ ([0] : List (Fin 2)) by decide)]

theorem segDims2_window0 (wf : ScatterDims.WF ⟨2, ![N, C]⟩ ⟨2, ![E, 1]⟩ ⟨2, ![E, C]⟩ [1] [0] [0] 1)
    (j : (⟨2, ![E, C]⟩ : Shape).Idx) : (segDims2 N E C wf).window j 0 = 0 := by
  unfold ScatterDims.window
  have h : (0 : Fin 2) ∉ (segDims2 N E C wf).sKept := by
    show (0 : Fin 2) ∉ ([1] : List (Fin 2))
    decide
  rw [dif_neg h]

theorem segDims2_window1 (wf : ScatterDims.WF ⟨2, ![N, C]⟩ ⟨2, ![E, 1]⟩ ⟨2, ![E, C]⟩ [1] [0] [0] 1)
    (j : (⟨2, ![E, C]⟩ : Shape).Idx) : (segDims2 N E C wf).window j 1 = (j 1).val := by
  unfold ScatterDims.window
  have h : (1 : Fin 2) ∈ (segDims2 N E C wf).sKept := by
    show (1 : Fin 2) ∈ ([1] : List (Fin 2))
    decide
  rw [dif_pos h]
  rfl

/-- WHERE AN UPDATE ROW'S ENTRY LANDS: entry `(e, c)` of the updates of a segment sum of rows lands on element `(r, c')`
    exactly when row `e`'s scatter index, read as a signed integer, is `r` and `c = c'`. -/
theorem segDims2_resultIdx (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (i : (⟨2, ![N, C]⟩ : Shape).Idx) :
    (segDims2 N E C wf).resultIdx? j idx = some i ↔
      (idx (ix2 (j 0) 0)).toInt = ((i 0).val : Int) ∧ (j 1).val = (i 1).val := by
  unfold ScatterDims.resultIdx?
  have hi0 : (i 0).val < N := (i 0).isLt
  have hi1 : (i 1).val < C := (i 1).isLt
  have hj1 : (j 1).val < C := (j 1).isLt
  split
  · rename_i h
    have h0 := h 0
    rw [segDims2_start0, segDims2_window0] at h0
    constructor
    · intro hs
      have hv0 := congrArg Fin.val (congrFun (Option.some.inj hs) 0)
      have hv1 := congrArg Fin.val (congrFun (Option.some.inj hs) 1)
      simp only [segDims2_start0, segDims2_window0] at hv0
      simp only [segDims2_start1, segDims2_window1] at hv1
      omega
    · intro ht
      refine congrArg some (funext fun a => ?_)
      refine Fin.ext ?_
      match a with
      | ⟨0, _⟩ =>
        show ((segDims2 N E C wf).start j idx 0 + ((segDims2 N E C wf).window j 0 : Nat)).toNat = (i 0).val
        rw [segDims2_start0, segDims2_window0]; omega
      | ⟨1, _⟩ =>
        show ((segDims2 N E C wf).start j idx 1 + ((segDims2 N E C wf).window j 1 : Nat)).toNat = (i 1).val
        rw [segDims2_start1, segDims2_window1]; omega
  · rename_i h
    constructor
    · intro hs; exact absurd hs (by simp)
    · intro ht
      exfalso; apply h; intro a
      match a with
      | ⟨0, _⟩ =>
        show 0 ≤ (segDims2 N E C wf).start j idx 0 + ((segDims2 N E C wf).window j 0 : Nat) ∧
          (segDims2 N E C wf).start j idx 0 + ((segDims2 N E C wf).window j 0 : Nat) < ((N : Nat) : Int)
        rw [segDims2_start0, segDims2_window0]; omega
      | ⟨1, _⟩ =>
        show 0 ≤ (segDims2 N E C wf).start j idx 1 + ((segDims2 N E C wf).window j 1 : Nat) ∧
          (segDims2 N E C wf).start j idx 1 + ((segDims2 N E C wf).window j 1 : Nat) < ((C : Nat) : Int)
        rw [segDims2_start1, segDims2_window1]; omega

/-! ## A segment sum does not depend on the order of its updates -/

/-- A permutation of the `E` update positions, acting on the indices of `[E]`. -/
def rows1 (σ : Equiv.Perm (Fin E)) : (⟨1, ![E]⟩ : Shape).Idx ≃ (⟨1, ![E]⟩ : Shape).Idx where
  toFun j := ix1 (σ (j 0))
  invFun j := ix1 (σ.symm (j 0))
  left_inv j := by
    exact (congrArg ix1 (σ.symm_apply_apply (j 0))).trans (eq_ix1 j).symm
  right_inv j := by
    exact (congrArg ix1 (σ.apply_symm_apply (j 0))).trans (eq_ix1 j).symm

/-- A permutation of the `E` update rows, acting on the indices of `[E, C]` (the column kept). -/
def rows2 (σ : Equiv.Perm (Fin E)) : (⟨2, ![E, C]⟩ : Shape).Idx ≃ (⟨2, ![E, C]⟩ : Shape).Idx where
  toFun j := ix2 (σ (j 0)) (j 1)
  invFun j := ix2 (σ.symm (j 0)) (j 1)
  left_inv j := by
    exact (congrArg (fun e => ix2 e (j 1)) (σ.symm_apply_apply (j 0))).trans (eq_ix2 j).symm
  right_inv j := by
    exact (congrArg (fun e => ix2 e (j 1)) (σ.apply_symm_apply (j 0))).trans (eq_ix2 j).symm

/-- THE PERMUTATION LAW, scalars: a segment sum whose scatter indices and updates are read through one permutation `σ`
    of the update positions is the segment sum of the unpermuted ones — each element receives the same updates, in
    another order, and addition of extended reals is commutative and associative. -/
theorem scatterAdd_perm1 (wf : ScatterDims.WF ⟨1, ![N]⟩ ⟨2, ![E, 1]⟩ ⟨1, ![E]⟩ [] [0] [0] 1) (σ : Equiv.Perm (Fin E))
    (x : (⟨1, ![N]⟩ : Shape).Idx → EReal) (idx idx' : IVec ⟨2, ![E, 1]⟩ w) (upd upd' : (⟨1, ![E]⟩ : Shape).Idx → EReal)
    (hidx : ∀ e, idx' (ix2 e 0) = idx (ix2 (σ e) 0)) (hupd : ∀ e, upd' (ix1 e) = upd (ix1 (σ e))) :
    Ideal.hostScatterAdd (segDims1 N E wf) x idx' upd' = Ideal.hostScatterAdd (segDims1 N E wf) x idx upd := by
  funext i
  unfold Ideal.hostScatterAdd
  congr 1
  refine Finset.sum_equiv (rows1 σ) (fun j => ?_) (fun j _ => ?_)
  · simp only [Finset.mem_filter, Finset.mem_univ, true_and]
    rw [segDims1_resultIdx, segDims1_resultIdx]
    have h : idx' (ix2 (j 0) 0) = idx (ix2 ((rows1 σ j) 0) 0) := hidx (j 0)
    exact iff_of_eq (congrArg (fun b : BitVec w => b.toInt = ((i 0).val : Int)) h)
  · rw [eq_ix1 j]; exact hupd (j 0)

/-- THE PERMUTATION LAW, rows: the same for a segment sum of rows, the permutation acting on the update rows. -/
theorem scatterAdd_perm2 (wf : ScatterDims.WF ⟨2, ![N, C]⟩ ⟨2, ![E, 1]⟩ ⟨2, ![E, C]⟩ [1] [0] [0] 1) (σ : Equiv.Perm (Fin E))
    (x : (⟨2, ![N, C]⟩ : Shape).Idx → EReal) (idx idx' : IVec ⟨2, ![E, 1]⟩ w) (upd upd' : (⟨2, ![E, C]⟩ : Shape).Idx → EReal)
    (hidx : ∀ e, idx' (ix2 e 0) = idx (ix2 (σ e) 0)) (hupd : ∀ e c, upd' (ix2 e c) = upd (ix2 (σ e) c)) :
    Ideal.hostScatterAdd (segDims2 N E C wf) x idx' upd' = Ideal.hostScatterAdd (segDims2 N E C wf) x idx upd := by
  funext i
  unfold Ideal.hostScatterAdd
  congr 1
  refine Finset.sum_equiv (rows2 σ) (fun j => ?_) (fun j _ => ?_)
  · simp only [Finset.mem_filter, Finset.mem_univ, true_and]
    rw [segDims2_resultIdx, segDims2_resultIdx]
    have h : idx' (ix2 (j 0) 0) = idx (ix2 ((rows2 σ j) 0) 0) := hidx (j 0)
    exact iff_of_eq (congrArg (fun b : BitVec w => b.toInt = ((i 0).val : Int) ∧ (j 1).val = (i 1).val) h)
  · rw [eq_ix2 j]; exact hupd (j 0) (j 1)

/-! ## A stable argsort is a permutation of the positions, and the gathers read through it -/

theorem ofFin_eq_ix1 {n : Nat} (k : Fin n) : Shape.Idx.ofFin k = ix1 k := by
  funext d
  match d with
  | ⟨0, _⟩ => rfl

/-- The position whose pair a stable sort of two rank-1 arrays (keys `x`, a carried array `y`) puts at position `k`. -/
def sortPos {n : Nat} {α β : Type} (cmp : α × β → α × β → BitVec 1) (x : (⟨1, ![n]⟩ : Shape).Idx → α)
    (y : (⟨1, ![n]⟩ : Shape).Idx → β) : Fin n → Fin n :=
  sortedFrom (fun k k' => cmp (x (ix1 k), y (ix1 k)) (x (ix1 k'), y (ix1 k')) == 1#1)

/-- That position function is a permutation: a stable sort moves every position to exactly one place. -/
def sortPerm {n : Nat} {α β : Type} (cmp : α × β → α × β → BitVec 1) (x : (⟨1, ![n]⟩ : Shape).Idx → α)
    (y : (⟨1, ![n]⟩ : Shape).Idx → β) : Equiv.Perm (Fin n) :=
  Equiv.ofBijective (sortPos cmp x y) ⟨sortedFrom_injective _, sortedFrom_surjective _⟩

theorem sortPerm_apply {n : Nat} {α β : Type} (cmp : α × β → α × β → BitVec 1) (x : (⟨1, ![n]⟩ : Shape).Idx → α)
    (y : (⟨1, ![n]⟩ : Shape).Idx → β) (k : Fin n) : sortPerm cmp x y k = sortPos cmp x y k := rfl

/-- A sort of two rank-1 arrays along their axis reads both through that one position function. -/
theorem sort2_rank1 {n : Nat} {α β : Type} (cmp : α × β → α × β → BitVec 1) (x : (⟨1, ![n]⟩ : Shape).Idx → α)
    (y : (⟨1, ![n]⟩ : Shape).Idx → β) :
    Host.sort2 ⟨1, ![n]⟩ 0 cmp x y
      = (fun j => x (ix1 (sortPos cmp x y (j 0))), fun j => y (ix1 (sortPos cmp x y (j 0)))) := by
  unfold Host.sort2 sortPos
  simp [ofFin_eq_ix1]

/-- THE ARGSORT'S ENTRIES: the carried position counter after the sort holds, at `k`, the position the sort put there. -/
theorem argsort_apply {n : Nat} (cmp : BitVec 32 × BitVec 32 → BitVec 32 × BitVec 32 → BitVec 1)
    (keys : IVec ⟨1, ![n]⟩ 32) (k : Fin n) :
    (Host.sort2 ⟨1, ![n]⟩ 0 cmp keys (iotaInDim ⟨1, ![n]⟩ 32 0)).2 (ix1 k)
      = BitVec.ofNat 32 (sortPerm cmp keys (iotaInDim ⟨1, ![n]⟩ 32 0) k).val := by
  rw [sort2_rank1]
  rfl

/-! ## The index arithmetic around the gathers -/

theorem toInt_ofNat32 (m : Nat) (hm : m < 2 ^ 31) : (BitVec.ofNat 32 m).toInt = (m : Int) := by
  have h1 : (BitVec.ofNat 32 m).toNat = m := by
    rw [BitVec.toNat_ofNat]; exact Nat.mod_eq_of_lt (by omega)
  rw [BitVec.toInt_eq_toNat_of_lt (by rw [h1]; omega), h1]

/-- jnp's wrap of a negative index (`v < 0 ? v + n : v`) leaves a word that is a natural number below `2^31`. -/
theorem wrap_ofNat32 (n : BitVec 32) (m : Nat) (hm : m < 2 ^ 31) :
    Scalar.select (IntOp.cmpi .slt (BitVec.ofNat 32 m) 0#32) (IntOp.addi (BitVec.ofNat 32 m) n) (BitVec.ofNat 32 m)
      = BitVec.ofNat 32 m := by
  have h : IntOp.cmpi .slt (BitVec.ofNat 32 m) 0#32 = 0#1 := by
    unfold IntOp.cmpi
    have : (BitVec.ofNat 32 m).slt 0#32 = false := by
      rw [BitVec.slt, toInt_ofNat32 m hm]
      simp
    simp [this]
  rw [h]
  exact select_zero _ _

/-- The entry a start index names along an axis of `N` entries: the word read as a signed integer and clamped into
    `[0, N − 1]`, as a gather clamps every start index. -/
def rowOf (N : Nat) (hN : 0 < N) (v : BitVec w) : Fin N := ⟨min v.toInt.toNat (N - 1), by omega⟩

theorem rowOf_ofNat32 (hN : 0 < N) (m : Nat) (hm : m < N) (hm' : m < 2 ^ 31) :
    rowOf N hN (BitVec.ofNat 32 m) = ⟨m, hm⟩ := by
  refine Fin.ext ?_
  show min (BitVec.ofNat 32 m).toInt.toNat (N - 1) = m
  rw [toInt_ofNat32 m hm']
  omega

/-- The dimension numbers of `x[idx]` for a flat `x : [N]` at `E` indices kept as a column `[E, 1]`. -/
abbrev takeDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES READ AT `e`: the operand at the entry index `e`'s word names. -/
theorem gather1_apply {α : Type} (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (takeDims1 N E wf) x idx j = x (ix1 (rowOf N hN (idx (ix2 (j 0) 0)))) := by
  unfold Host.gather
  congr 1
  funext a
  obtain rfl : a = 0 := Subsingleton.elim _ _
  refine Fin.ext ?_
  show (takeDims1 N E wf).start j idx 0 + (takeDims1 N E wf).batchCoord j 0 + (takeDims1 N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N E wf).startIndexMap from List.mem_singleton.mpr rfl)]
  have hsi : (takeDims1 N E wf).siIdx j ⟨List.idxOf (0 : Fin 1) (takeDims1 N E wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The dimension numbers of `X[idx]` for a matrix `X : [N, C]` at `E` row indices kept as a column `[E, 1]`: whole rows. -/
abbrev takeDims2 (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, c)`: the operand's row named by index `e`'s word, at column `c`. -/
theorem gather2_apply {α : Type} (hN : 0 < N)
    (wf : GatherDims.WF ⟨2, ![N, C]⟩ ⟨2, ![E, 1]⟩ ⟨2, ![E, C]⟩ [1] [0] [] [0] [] 1 ![1, C])
    (X : (⟨2, ![N, C]⟩ : Shape).Idx → α) (idx : IVec ⟨2, ![E, 1]⟩ w) (j : (⟨2, ![E, C]⟩ : Shape).Idx) :
    Host.gather (takeDims2 N E C wf) X idx j = X (ix2 (rowOf N hN (idx (ix2 (j 0) 0))) (j 1)) := by
  unfold Host.gather
  congr 1
  funext a
  refine Fin.ext ?_
  match a with
  | ⟨0, _⟩ =>
    show (takeDims2 N E C wf).start j idx 0 + (takeDims2 N E C wf).batchCoord j 0 + (takeDims2 N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeDims2 N E C wf).startIndexMap from List.mem_singleton.mpr rfl)]
    have hsi : (takeDims2 N E C wf).siIdx j ⟨List.idxOf (0 : Fin 2) (takeDims2 N E C wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (takeDims2 N E C wf).start j idx 1 + (takeDims2 N E C wf).batchCoord j 1 + (takeDims2 N E C wf).offCoord j 1 = (j 1).val
    rw [GatherDims.batchCoord_eq_zero _ _ _ List.not_mem_nil]
    have hs : (takeDims2 N E C wf).start j idx 1 = 0 := by
      unfold GatherDims.start
      have h : (1 : Fin 2) ∉ (takeDims2 N E C wf).startIndexMap := by
        show (1 : Fin 2) ∉ ([0] : List (Fin 2))
        decide
      rw [dif_neg h]
    have ho : (takeDims2 N E C wf).offCoord j 1 = (j 1).val := by
      unfold GatherDims.offCoord
      have h : (1 : Fin 2) ∈ (takeDims2 N E C wf).sKept := by
        show (1 : Fin 2) ∈ ([1] : List (Fin 2))
        decide
      rw [dif_pos h]
      rfl
    rw [hs, ho]
    omega

/-- A flat array of `E` words kept as a column `[E, 1]` holds, in row `e`, the array's word `e`. -/
theorem column_apply {α : Type} (hE : E ≠ 1) (h : (⟨1, ![E]⟩ : Shape).BroadcastsInDim ⟨2, ![E, 1]⟩ ![0])
    (v : (⟨1, ![E]⟩ : Shape).Idx → α) (q : (⟨2, ![E, 1]⟩ : Shape).Idx) :
    broadcastInDim ⟨2, ![E, 1]⟩ ![0] h v q = v (ix1 (q 0)) := by
  unfold broadcastInDim
  refine congrArg v (funext fun a => ?_)
  obtain rfl : a = 0 := Subsingleton.elim _ _
  rw [dif_neg (show ¬ (⟨1, ![E]⟩ : Shape).size 0 = 1 from hE)]
  rfl

end Cert.Perm

end
-- ==== Proof.KI.Unsort.lean ====
/-
  The sort only permutes the edges.

  The kernel program sorts the edge positions stably by destination and reads the destination and source rows in that
  order before it forms its segment sums (each node's number of incoming edges; the feature rows and the hidden rows
  summed over each node's incoming edges). A segment sum is the same terms in whatever order they are added, so each of
  these sums is the one formed from the edge list as given. Here: the sort as a permutation `sortσ` of the 3200000 edge
  positions (never evaluated), the sorted rows read through it, and the three sums equal to their unsorted forms
  `degU`, `agg1U`, `agg2U` — the same terms as the program's with the raw rows in place of the sorted ones.
  Stated at the ideal instance, where the sums are of extended reals.
-/
import proofs.«170781_j19602230739553_2_alg».proof.Proof.KI.Host
import proofs.«170781_j19602230739553_2_alg».proof.Proof.LibSegmentSumPerm

noncomputable section

namespace Cert.KernelIdeal.Hand

open Cert.KernelIdeal Cert.KernelIdeal.Gen
open Idealize.ShloMosaic Idealize.ShloMosaic.ValueIdx
open Cert.Perm

/-! ## Words and values at an index -/

/-- There are edges. -/
theorem pos_edges : 0 < 3200000 := by omega
/-- There are nodes. -/
theorem pos_nodes : 0 < 100000 := by omega

/-- jnp's wrap of a negative index, at an index: `v + n` where `v < 0`, else `v`. -/
theorem wrapIdx_apply (n : BitVec 32) (v : (⟨S3200000, .i32⟩ : BufTy).Contents (Elt Ideal)) (j : S3200000.Idx) :
    wrapIdx (F := Ideal) n v j = Scalar.select (IntOp.cmpi .slt (v j) 0#32) (IntOp.addi (v j) n) (v j) := rfl

/-- A vector of edge values kept as a column holds, in row `e`, the vector's entry `e`. -/
theorem column_at (v : (⟨S3200000, .i32⟩ : BufTy).Contents (Elt Ideal)) (e : Fin 3200000) : column (F := Ideal) v (ix2 e 0) = v (ix1 e) :=
  column_apply (E := 3200000) (by omega) bcast_S3200000_S3200000x1_0 v (ix2 e 0)

/-- The update "one per edge" is the same value at every edge. -/
theorem ones_at (j j' : S3200000.Idx) :
    ((broadcastInDim S3200000 ![] bcast_S_S3200000 (constant (F := Ideal) S_ .f32 0x3F800000#32 : (⟨S_, .f32⟩ : BufTy).Contents (Elt Ideal))) : (⟨S3200000, .f32⟩ : BufTy).Contents (Elt Ideal)) j
      = ((broadcastInDim S3200000 ![] bcast_S_S3200000 (constant (F := Ideal) S_ .f32 0x3F800000#32 : (⟨S_, .f32⟩ : BufTy).Contents (Elt Ideal))) : (⟨S3200000, .f32⟩ : BufTy).Contents (Elt Ideal)) j' := rfl

/-- At the ideal instance the host's segment sum is the exact sum. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

section
variable (ei : (⟨S2x3200000, .i32⟩ : BufTy).Contents (Elt Ideal))

/-! ## The sort as a permutation of the edge positions -/

/-- The stable sort by destination, as a permutation of the edge positions: the edge that comes `k`-th is `sortσ ei k`. -/
def sortσ : Equiv.Perm (Fin 3200000) :=
  sortPerm comparator_i32_i32_d0 (dstRaw (F := Ideal) ei : IVec ⟨1, ![3200000]⟩ 32) (iotaInDim ⟨1, ![3200000]⟩ 32 0)

/-- The sorted order holds, at `k`, the position of the edge that comes `k`-th, as a word. -/
theorem order_apply (k : Fin 3200000) : order (F := Ideal) ei (ix1 k) = BitVec.ofNat 32 (sortσ ei k).val :=
  argsort_apply comparator_i32_i32_d0 (dstRaw (F := Ideal) ei : IVec ⟨1, ![3200000]⟩ 32) k

/-- An edge position is nonnegative as a signed word, so the wrap leaves it. -/
theorem wrapped_order (k : Fin 3200000) :
    column (F := Ideal) (wrapIdx 3200000#32 (order ei)) (ix2 k 0) = BitVec.ofNat 32 (sortσ ei k).val := by
  rw [column_at, wrapIdx_apply, order_apply]
  generalize sortσ ei k = s
  exact wrap_ofNat32 _ s.val (by have := s.isLt; omega)

/-- And it is a position of the row it indexes, so the gather reads that entry. -/
theorem rowOf_wrapped_order (k : Fin 3200000) :
    rowOf 3200000 pos_edges (column (F := Ideal) (wrapIdx 3200000#32 (order ei)) (ix2 k 0)) = sortσ ei k := by
  rw [wrapped_order]
  generalize sortσ ei k = s
  have h1 : s.val < 2 ^ 31 := by have := s.isLt; omega
  exact (rowOf_ofNat32 pos_edges s.val s.isLt h1).trans (Fin.eta s s.isLt)

/-- (i) The sorted destinations are the destinations read through the sort's permutation. -/
theorem dstS_apply (k : Fin 3200000) : dstS (F := Ideal) ei (ix1 k) = dstRaw (F := Ideal) ei (ix1 (sortσ ei k)) := by
  have h := gather1_apply (N := 3200000) (E := 3200000) pos_edges gather_S3200000_S3200000x1_S3200000_n_0_n_n_0_1_1_wf
      (dstRaw (F := Ideal) ei) (column (F := Ideal) (wrapIdx 3200000#32 (order ei))) (ix1 k)
  have hr := rowOf_wrapped_order ei k
  generalize sortσ ei k = s at hr ⊢
  exact h.trans (congrArg (fun r => dstRaw (F := Ideal) ei (ix1 r)) hr)

/-- (i) The sorted sources are the sources read through the same permutation. -/
theorem srcS_apply (k : Fin 3200000) : srcS (F := Ideal) ei (ix1 k) = srcRaw (F := Ideal) ei (ix1 (sortσ ei k)) := by
  have h := gather1_apply (N := 3200000) (E := 3200000) pos_edges gather_S3200000_S3200000x1_S3200000_n_0_n_n_0_1_1_wf
      (srcRaw (F := Ideal) ei) (column (F := Ideal) (wrapIdx 3200000#32 (order ei))) (ix1 k)
  have hr := rowOf_wrapped_order ei k
  generalize sortσ ei k = s at hr ⊢
  exact h.trans (congrArg (fun r => srcRaw (F := Ideal) ei (ix1 r)) hr)

/-- The scatter indices of the sorted sums are those of the unsorted ones read through the permutation. -/
theorem column_dstS (e : Fin 3200000) :
    column (F := Ideal) (dstS ei) (ix2 e 0) = column (F := Ideal) (dstRaw ei) (ix2 (sortσ ei e) 0) := by
  rw [column_at, column_at, dstS_apply]

/-- The wrapped source of the edge that comes `e`-th is the wrapped source of edge `sortσ ei e`. -/
theorem column_wrap_srcS (n : BitVec 32) (e : Fin 3200000) :
    column (F := Ideal) (wrapIdx n (srcS ei)) (ix2 e 0) = column (F := Ideal) (wrapIdx n (srcRaw ei)) (ix2 (sortσ ei e) 0) := by
  rw [column_at, column_at, wrapIdx_apply, wrapIdx_apply, srcS_apply]

/-! ## The three segment sums, unsorted -/

/-- Each node's number of incoming edges, from the edge list as given. -/
def degU : (⟨S100000, .f32⟩ : BufTy).Contents (Elt Ideal) :=
  Host.scatterAdd scatter_S100000_S3200000x1_S3200000_n_0_0_1
    (broadcastInDim S100000 ![] bcast_S_S100000 (constant (F := Ideal) S_ .f32 0x00000000#32 : (⟨S_, .f32⟩ : BufTy).Contents (Elt Ideal)))
    (column (dstRaw ei))
    (broadcastInDim S3200000 ![] bcast_S_S3200000 (constant (F := Ideal) S_ .f32 0x3F800000#32 : (⟨S_, .f32⟩ : BufTy).Contents (Elt Ideal)))

/-- (ii) The degrees do not depend on the sort. -/
theorem deg_eq_degU : deg (F := Ideal) ei = degU ei := by
  unfold deg degU
  rw [scatterAdd_ideal, scatterAdd_ideal]
  exact scatterAdd_perm1 (N := 100000) (E := 3200000) scatter_S100000_S3200000x1_S3200000_n_0_0_1_wf (sortσ ei)
    (broadcastInDim S100000 ![] bcast_S_S100000 (constant (F := Ideal) S_ .f32 0x00000000#32 : (⟨S_, .f32⟩ : BufTy).Contents (Elt Ideal)))
    (column (F := Ideal) (dstRaw ei)) (column (F := Ideal) (dstS ei))
    (broadcastInDim S3200000 ![] bcast_S_S3200000 (constant (F := Ideal) S_ .f32 0x3F800000#32 : (⟨S_, .f32⟩ : BufTy).Contents (Elt Ideal))) (broadcastInDim S3200000 ![] bcast_S_S3200000 (constant (F := Ideal) S_ .f32 0x3F800000#32 : (⟨S_, .f32⟩ : BufTy).Contents (Elt Ideal)))
    (column_dstS ei) (fun e => ones_at (ix1 e) (ix1 (sortσ ei e)))

end

/-- The feature rows summed over each node's incoming edges, from the edge list as given. -/
def agg1U (x : (⟨S100000x20, .f32⟩ : BufTy).Contents (Elt Ideal)) (ei : (⟨S2x3200000, .i32⟩ : BufTy).Contents (Elt Ideal)) : (⟨S100000x20, .f32⟩ : BufTy).Contents (Elt Ideal) :=
  Host.scatterAdd scatter_S100000x20_S3200000x1_S3200000x20_1_0_0_1
    (broadcastInDim S100000x20 ![] bcast_S_S100000x20 (constant (F := Ideal) S_ .f32 0x00000000#32 : (⟨S_, .f32⟩ : BufTy).Contents (Elt Ideal)))
    (column (dstRaw ei))
    (Host.gather gather_S100000x20_S3200000x1_S3200000x20_1_0_n_n_0_1_120 x (column (wrapIdx 100000#32 (srcRaw ei))))

/-- (iii) The summed feature rows do not depend on the sort: the row gathered for an edge depends on the edge only
    through its source. -/
theorem agg1_eq_agg1U (x : (⟨S100000x20, .f32⟩ : BufTy).Contents (Elt Ideal)) (ei : (⟨S2x3200000, .i32⟩ : BufTy).Contents (Elt Ideal)) :
    agg1 (F := Ideal) x ei = agg1U x ei := by
  unfold agg1 agg1U
  rw [scatterAdd_ideal, scatterAdd_ideal]
  refine scatterAdd_perm2 (N := 100000) (E := 3200000) (C := 20) scatter_S100000x20_S3200000x1_S3200000x20_1_0_0_1_wf (sortσ ei) _
    (column (F := Ideal) (dstRaw ei)) (column (F := Ideal) (dstS ei)) _ _ (column_dstS ei) (fun e c => ?_)
  have h1 := gather2_apply (N := 100000) (E := 3200000) (C := 20) pos_nodes gather_S100000x20_S3200000x1_S3200000x20_1_0_n_n_0_1_120_wf x
    (column (F := Ideal) (wrapIdx 100000#32 (srcS ei))) (ix2 e c)
  have h2 := gather2_apply (N := 100000) (E := 3200000) (C := 20) pos_nodes gather_S100000x20_S3200000x1_S3200000x20_1_0_n_n_0_1_120_wf x
    (column (F := Ideal) (wrapIdx 100000#32 (srcRaw ei))) (ix2 (sortσ ei e) c)
  have hw := column_wrap_srcS ei 100000#32 e
  generalize sortσ ei e = s at h2 hw ⊢
  exact h1.trans ((congrArg (fun v : BitVec 32 => x (ix2 (rowOf 100000 pos_nodes v) c)) hw).trans h2.symm)

/-- The hidden rows (widened to f32) summed over each node's incoming edges, from the edge list as given. -/
def agg2U (h : (⟨S100000x64, .bf16⟩ : BufTy).Contents (Elt Ideal)) (ei : (⟨S2x3200000, .i32⟩ : BufTy).Contents (Elt Ideal)) : (⟨S100000x64, .f32⟩ : BufTy).Contents (Elt Ideal) :=
  Host.scatterAdd scatter_S100000x64_S3200000x1_S3200000x64_1_0_0_1
    (broadcastInDim S100000x64 ![] bcast_S_S100000x64 (constant (F := Ideal) S_ .f32 0x00000000#32 : (⟨S_, .f32⟩ : BufTy).Contents (Elt Ideal)))
    (column (dstRaw ei))
    (extf (F := Ideal) .f32 (Host.gather gather_S100000x64_S3200000x1_S3200000x64_1_0_n_n_0_1_164 h (column (wrapIdx 100000#32 (srcRaw ei)))) bitsLt_bf16_f32
      : (⟨S3200000x64, .f32⟩ : BufTy).Contents (Elt Ideal))

/-- (iv) The summed hidden rows do not depend on the sort (widening is the identity on exact values). -/
theorem agg2_eq_agg2U (h : (⟨S100000x64, .bf16⟩ : BufTy).Contents (Elt Ideal)) (ei : (⟨S2x3200000, .i32⟩ : BufTy).Contents (Elt Ideal)) :
    agg2 (F := Ideal) h ei = agg2U h ei := by
  unfold agg2 agg2U
  rw [scatterAdd_ideal, scatterAdd_ideal]
  refine scatterAdd_perm2 (N := 100000) (E := 3200000) (C := 64) scatter_S100000x64_S3200000x1_S3200000x64_1_0_0_1_wf (sortσ ei) _
    (column (F := Ideal) (dstRaw ei)) (column (F := Ideal) (dstS ei)) _ _ (column_dstS ei) (fun e c => ?_)
  have h1 := gather2_apply (N := 100000) (E := 3200000) (C := 64) pos_nodes gather_S100000x64_S3200000x1_S3200000x64_1_0_n_n_0_1_164_wf h
    (column (F := Ideal) (wrapIdx 100000#32 (srcS ei))) (ix2 e c)
  have h2 := gather2_apply (N := 100000) (E := 3200000) (C := 64) pos_nodes gather_S100000x64_S3200000x1_S3200000x64_1_0_n_n_0_1_164_wf h
    (column (F := Ideal) (wrapIdx 100000#32 (srcRaw ei))) (ix2 (sortσ ei e) c)
  have hw := column_wrap_srcS ei 100000#32 e
  generalize sortσ ei e = s at h2 hw ⊢
  exact h1.trans ((congrArg (fun v : BitVec 32 => h (ix2 (rowOf 100000 pos_nodes v) c)) hw).trans h2.symm)

end Cert.KernelIdeal.Hand

end
-- ==== Proof.BridgeCols.lean ====
/- The inverse-degree column of the two programs. Both compute, node by node, `1 / max deg 1` where the node has an
   incoming edge (`deg > 0`) and `0` elsewhere, from the node's number of incoming edges `deg`; the kernel program
   makes the [100000] vector a [100000,1] column by a reshape, the reference by a broadcast along axis 0. At index
   `(r, 0)` both read the vector at `r`: the row-major position of `(r, 0)` in [100000,1] is `r · 1 + 0`. So the two
   columns are equal as soon as the two degree vectors are. -/
import proofs.«170781_j19602230739553_2_alg».proof.Proof.KI.Host
import proofs.«170781_j19602230739553_2_alg».proof.Proof.RefRead
import Idealize.ShloMosaic.Lib.Pipeline.Value

noncomputable section

open Idealize.ShloMosaic

namespace Cert.Bridge

variable {F : FTy → Type} [FloatOps F] [Named F]

/-- The inverse degrees as a vector: the kernel program's select against zero is the reference's, given equal degrees. -/
theorem invDegSel_eq (ei : (⟨Cert.KernelIdeal.S2x3200000, .i32⟩ : BufTy).Contents (Elt F))
    (hdeg : Cert.KernelIdeal.Hand.deg (F := F) ei = Cert.ReferenceIdeal.ReadP.val_main_v7 (F := F) ei) :
    (select (Cert.KernelIdeal.Hand.hasIn (F := F) ei) (Cert.KernelIdeal.Hand.invDeg (F := F) ei)
        (broadcastInDim Cert.KernelIdeal.S100000 ![] Cert.KernelIdeal.Gen.bcast_S_S100000
          (constant Cert.KernelIdeal.S_ .f32 0x00000000#32 : (⟨Cert.KernelIdeal.S_, .f32⟩ : BufTy).Contents (Elt F)))
      : (⟨Cert.KernelIdeal.S100000, .f32⟩ : BufTy).Contents (Elt F))
      = Cert.ReferenceIdeal.ReadP.val_main_v14 (F := F) ei := by
  unfold Cert.KernelIdeal.Hand.hasIn Cert.KernelIdeal.Hand.invDeg
  rw [hdeg]
  rfl

/-- THE INVERSE-DEGREE COLUMNS AGREE, given equal degree vectors. -/
theorem dinv_eq (ei : (⟨Cert.KernelIdeal.S2x3200000, .i32⟩ : BufTy).Contents (Elt F))
    (hdeg : Cert.KernelIdeal.Hand.deg (F := F) ei = Cert.ReferenceIdeal.ReadP.val_main_v7 (F := F) ei) :
    Cert.KernelIdeal.Hand.dinv (F := F) ei = Cert.ReferenceIdeal.ReadP.val_main_v25 (F := F) ei := by
  funext i
  rw [Cert.ReferenceIdeal.ReadP.val_main_v25_apply, ← invDegSel_eq ei hdeg]
  unfold Cert.KernelIdeal.Hand.dinv
  refine shapeCast_apply _ _ i (Cert.ReferenceIdeal.ReadP.idx_main_v25 i) ?_
  rw [Shape.rowMajor_val_one, Shape.rowMajor_val_two]
  have h1 : (i 1).val < 1 := (i 1).isLt
  show (i 0).val = (i 0).val * 1 + (i 1).val
  omega

/-- info: 'Cert.Bridge.dinv_eq' depends on axioms: [propext, Classical.choice, Quot.sound] -/
#guard_msgs in #print axioms dinv_eq

end Cert.Bridge

end
-- ==== Proof.BridgeBias.lean ====
/- Two places where the kernel program and the reference write the same array differently. The bias: the kernel
   reshapes the vector of 64 to one row of 64, the reference spreads it along a new leading axis of length 1; at row 0,
   column j both are entry j of the vector. The weights: the kernel narrows them to a shorter format, which on the
   extended reals changes nothing. -/
import proofs.«170781_j19602230739553_2_alg».proof.Proof.KI.Host
import proofs.«170781_j19602230739553_2_alg».proof.Proof.RefRead
import Idealize.ShloMosaic.Lib.Pipeline.Value
import Idealize.ShloMosaic.Lib.ValueIdx

noncomputable section

namespace Cert.Bridge
open Idealize.ShloMosaic

/-! ## The bias row -/

/-- The first layer's bias: the kernel's one-row array is the reference's. -/
theorem biasRow_eq_v29 (b : (⟨Cert.KernelIdeal.S64, .f32⟩ : BufTy).Contents (Elt Ideal)) :
    Cert.KernelIdeal.Hand.biasRow (F := Ideal) b = Cert.ReferenceIdeal.ReadP.val_main_v29 (F := Ideal) b := by
  funext j
  rw [Cert.ReferenceIdeal.ReadP.val_main_v29_apply]
  unfold Cert.KernelIdeal.Hand.biasRow
  exact shapeCast_apply b Cert.KernelIdeal.Gen.shapeCasts_S64_S1x64 j (Cert.ReferenceIdeal.ReadP.idx_main_v29 j)
    (by rewrite [Shape.rowMajor_val_one, Shape.rowMajor_val_two]; have h0 : (j 0).val < 1 := (j 0).isLt; show (j 1).val = (j 0).val * 64 + (j 1).val; omega)

/-- The second layer's bias likewise. -/
theorem biasRow_eq_v49 (b : (⟨Cert.KernelIdeal.S64, .f32⟩ : BufTy).Contents (Elt Ideal)) :
    Cert.KernelIdeal.Hand.biasRow (F := Ideal) b = Cert.ReferenceIdeal.ReadP.val_main_v49 (F := Ideal) b := by
  funext j
  rw [Cert.ReferenceIdeal.ReadP.val_main_v49_apply]
  unfold Cert.KernelIdeal.Hand.biasRow
  exact shapeCast_apply b Cert.KernelIdeal.Gen.shapeCasts_S64_S1x64 j (Cert.ReferenceIdeal.ReadP.idx_main_v49 j)
    (by rewrite [Shape.rowMajor_val_one, Shape.rowMajor_val_two]; have h0 : (j 0).val < 1 := (j 0).isLt; show (j 1).val = (j 0).val * 64 + (j 1).val; omega)

/-! ## The narrowed weights -/

/-- On the extended reals, narrowing an array to the shorter format leaves it as it is. -/
theorem trunc_eq {s : Shape} (W : FVec Ideal s .f32) (h : FTy.bits .bf16 < FTy.bits .f32) :
    truncf (F := Ideal) (φ := .f32) .bf16 W h = W := funext fun _ => rfl

/-- The first layer's [20,64] weights, -/
theorem trunc_eq_S20x64 (W : (⟨Cert.KernelIdeal.S20x64, .f32⟩ : BufTy).Contents (Elt Ideal)) (h : FTy.bits .bf16 < FTy.bits .f32) :
    truncf (F := Ideal) (φ := .f32) .bf16 W h = W := trunc_eq W h

/-- and the second layer's [64,64] weights. -/
theorem trunc_eq_S64x64 (W : (⟨Cert.KernelIdeal.S64x64, .f32⟩ : BufTy).Contents (Elt Ideal)) (h : FTy.bits .bf16 < FTy.bits .f32) :
    truncf (F := Ideal) (φ := .f32) .bf16 W h = W := trunc_eq W h

end Cert.Bridge
-- ==== Proof.RefSide.lean ====
/-
  The reference side of the certificate: the reference program's stages, read at an index at the ideal values, are the
  common specification (Proof/Spec.lean) of its own intermediate arrays.

  The reference computes the first layer as `relu((agg · dinv) @ W1l + b1 + x @ W1r)` and the result as the mean over the
  nodes of `(agg₂ · dinv) @ W2l + b2 + h @ W2r`. Index by index, at the extended reals: a `dot_general` is the sum over
  the contracted axis of the products, the broadcasts read their operand at the kept coordinates, the float sum over the
  nodes is its initial value `0` plus the sum, and the quotient by the constant `100000` is the product with the real
  `1/100000`. Stated over the reference's own segment sums and inverse degrees (the stages `val_main_v24`, `val_main_v44`,
  `val_main_v25`), which this file does not open.
-/
import proofs.«170781_j19602230739553_2_alg».proof.Defs
import proofs.«170781_j19602230739553_2_alg».proof.Proof.RefRead
import proofs.«170781_j19602230739553_2_alg».proof.Proof.Spec

noncomputable section

open scoped BigOperators

namespace Cert.RefSide

open Cert.ReferenceIdeal Cert.ReferenceIdeal.Gen Cert.ReferenceIdeal.ReadP
open Idealize.ShloMosaic Idealize.ShloMosaic.ValueIdx

/-- The pattern of `100000.0`, the reference's divisor, denotes the real `100000`. -/
theorem ofBits_nodes : Ideal.ofBits .f32 0x47C35000#32 = ((100000 : ℝ) : EReal) := by
  simp [Ideal.ofBits, Ideal.ieee, -EReal.coe_mul]; norm_num

/-! ## The index maps of the generated reads, at explicit coordinates -/

theorem lidx28 (r : Fin 100000) (j : Fin 64) (k : Fin 20) : lidx_main_v28 (ix2 r j) k = ix2 r k :=
  funext fun a => match a with | ⟨0, _⟩ => rfl | ⟨1, _⟩ => rfl
theorem ridx28 (r : Fin 100000) (j : Fin 64) (k : Fin 20) : ridx_main_v28 (ix2 r j) k = ix2 k j :=
  funext fun a => match a with | ⟨0, _⟩ => rfl | ⟨1, _⟩ => rfl
theorem idx26 (r : Fin 100000) (k : Fin 20) : idx_main_v26 (ix2 r k) = ix2 r 0 :=
  funext fun a => match a with | ⟨0, _⟩ => rfl | ⟨1, _⟩ => rfl
theorem idx30 (r : Fin 100000) (j : Fin 64) : idx_main_v30 (ix2 r j) = ix2 0 j :=
  funext fun a => match a with | ⟨0, _⟩ => rfl | ⟨1, _⟩ => rfl
theorem lidx32 (r : Fin 100000) (j : Fin 64) (k : Fin 20) : lidx_main_v32 (ix2 r j) k = ix2 r k :=
  funext fun a => match a with | ⟨0, _⟩ => rfl | ⟨1, _⟩ => rfl
theorem ridx32 (r : Fin 100000) (j : Fin 64) (k : Fin 20) : ridx_main_v32 (ix2 r j) k = ix2 k j :=
  funext fun a => match a with | ⟨0, _⟩ => rfl | ⟨1, _⟩ => rfl
theorem lidx48 (r : Fin 100000) (j : Fin 64) (k : Fin 64) : lidx_main_v48 (ix2 r j) k = ix2 r k :=
  funext fun a => match a with | ⟨0, _⟩ => rfl | ⟨1, _⟩ => rfl
theorem ridx48 (r : Fin 100000) (j : Fin 64) (k : Fin 64) : ridx_main_v48 (ix2 r j) k = ix2 k j :=
  funext fun a => match a with | ⟨0, _⟩ => rfl | ⟨1, _⟩ => rfl
theorem idx46 (r : Fin 100000) (k : Fin 64) : idx_main_v46 (ix2 r k) = ix2 r 0 :=
  funext fun a => match a with | ⟨0, _⟩ => rfl | ⟨1, _⟩ => rfl
theorem idx50 (r : Fin 100000) (j : Fin 64) : idx_main_v50 (ix2 r j) = ix2 0 j :=
  funext fun a => match a with | ⟨0, _⟩ => rfl | ⟨1, _⟩ => rfl
theorem lidx52 (r : Fin 100000) (j : Fin 64) (k : Fin 64) : lidx_main_v52 (ix2 r j) k = ix2 r k :=
  funext fun a => match a with | ⟨0, _⟩ => rfl | ⟨1, _⟩ => rfl
theorem ridx52 (r : Fin 100000) (j : Fin 64) (k : Fin 64) : ridx_main_v52 (ix2 r j) k = ix2 k j :=
  funext fun a => match a with | ⟨0, _⟩ => rfl | ⟨1, _⟩ => rfl
theorem idx54 (j : Fin 64) (r : Fin 100000) : idx_main_v54 (ix1 j) r = ix2 r j :=
  funext fun a => match a with | ⟨0, _⟩ => rfl | ⟨1, _⟩ => rfl

/-- The second layer's copy of the inverse-degree column is the first layer's. -/
theorem v45_eq (x1 : (⟨S2x3200000, .i32⟩ : BufTy).Contents (Elt Ideal)) :
    val_main_v45 (F := Ideal) x1 = val_main_v25 (F := Ideal) x1 := rfl

/-! ## The two stages as the specification -/

section
variable (x0 : (⟨S100000x20, .f32⟩ : BufTy).Contents (Elt Ideal)) (x1 : (⟨S2x3200000, .i32⟩ : BufTy).Contents (Elt Ideal))
  (x2 : (⟨S20x64, .f32⟩ : BufTy).Contents (Elt Ideal)) (x3 : (⟨S64, .f32⟩ : BufTy).Contents (Elt Ideal))
  (x4 : (⟨S20x64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))

set_option maxHeartbeats 400000 in
/-- THE REFERENCE'S HIDDEN ARRAY: the first layer of the specification, over the reference's own neighbourhood sums
    and inverse degrees. -/
theorem hidden_eq :
    val_main_v34 (F := Ideal) x0 x1 x2 x3 x4
      = Cert.Spec.layer1 (val_main_v24 (F := Ideal) x0 x1) x0 (val_main_v25 (F := Ideal) x1) x2
          (val_main_v29 (F := Ideal) x3) x4 := by
  funext i
  obtain ⟨r, j, rfl⟩ : ∃ (r : Fin 100000) (j : Fin 64), i = ix2 r j := ⟨i 0, i 1, eq_ix2 i⟩
  rw [Cert.Spec.layer1_apply]
  unfold Cert.Spec.pre
  rw [val_main_v34_apply, val_main_v33_apply, val_main_v31_apply, val_main_v28_apply, val_main_v30_apply, val_main_v32_apply,
    val_main_call1_v0_apply, val_main_call1_cst_apply]
  refine congrArg₂ max (congrArg₂ (· + ·) (congrArg₂ (· + ·) (Finset.sum_congr rfl fun k _ => ?_) ?_)
    (Finset.sum_congr rfl fun k _ => ?_)) Ideal.ofBits_zero_f32
  · rw [lidx28 r j k, ridx28 r j k, val_main_v27_apply, val_main_v26_apply, idx26 r k]
    first | rfl | fail "first sum"
  · exact congrArg _ (idx30 r j)
  · rw [lidx32 r j k, ridx32 r j k]

set_option maxHeartbeats 400000 in
/-- One node's term of the reference's mean: the second layer at that node and output column. -/
theorem node_term (r : Fin 100000) (j : Fin 64) :
    val_main_v53 (F := Ideal) x0 x1 x2 x3 x4 x5 x6 x7 (ix2 r j)
      = Cert.Spec.pre (val_main_v44 (F := Ideal) x0 x1 x2 x3 x4) (val_main_v34 (F := Ideal) x0 x1 x2 x3 x4)
          (val_main_v25 (F := Ideal) x1) x5 (val_main_v49 (F := Ideal) x6) x7 r j := by
  unfold Cert.Spec.pre
  rw [val_main_v53_apply, val_main_v51_apply, val_main_v48_apply, val_main_v50_apply, val_main_v52_apply]
  refine congrArg₂ (· + ·) (congrArg₂ (· + ·) (Finset.sum_congr rfl fun k _ => ?_) ?_) (Finset.sum_congr rfl fun k _ => ?_)
  · rw [lidx48 r j k, ridx48 r j k, val_main_v47_apply, val_main_v46_apply, idx46 r k, v45_eq]
    first | rfl | fail "first sum"
  · exact congrArg _ (idx50 r j)
  · rw [lidx52 r j k, ridx52 r j k]

set_option maxHeartbeats 400000 in
/-- THE REFERENCE'S RESULT: at output column `j`, the specification's mean over the nodes of the second layer, over the
    reference's own second neighbourhood sums, its hidden array and its inverse degrees (the float sum over the nodes
    starts from `0`; the quotient by `100000` is the product with `1/100000`). -/
theorem result_eq (j : Fin 64) :
    val_main_v56 (F := Ideal) x0 x1 x2 x3 x4 x5 x6 x7 (ix1 j)
      = Cert.Spec.meanOut (val_main_v44 (F := Ideal) x0 x1 x2 x3 x4) (val_main_v34 (F := Ideal) x0 x1 x2 x3 x4)
          (val_main_v25 (F := Ideal) x1) x5 (val_main_v49 (F := Ideal) x6) x7 (ix2 0 j) := by
  rw [Cert.Spec.meanOut_apply]
  rw [val_main_v56_apply, val_main_v54_apply, val_main_v55_apply, val_main_cst_11_apply, val_main_cst_10_apply]
  simp only [Ideal.hostDivf_def, Ideal.ofBits_def]
  rw [ofBits_nodes, Ideal.div_coe (by norm_num : (100000 : ℝ) ≠ 0), Ideal.ofBits_zero_f32, zero_add]
  have key : ∀ r : Fin 100000, val_main_v53 (F := Ideal) x0 x1 x2 x3 x4 x5 x6 x7 (idx_main_v54 (ix1 j) r)
      = Cert.Spec.pre (val_main_v44 (F := Ideal) x0 x1 x2 x3 x4) (val_main_v34 (F := Ideal) x0 x1 x2 x3 x4)
          (val_main_v25 (F := Ideal) x1) x5 (val_main_v49 (F := Ideal) x6) x7 r j := fun r =>
    (congrArg _ (idx54 j r)).trans (node_term x0 x1 x2 x3 x4 x5 x6 x7 r j)
  rw [Finset.sum_congr rfl (fun r _ => key r)]

end

end Cert.RefSide

end
-- ==== Proof.Bridge.lean ====
/-
  The bridge between the two programs at the ideal values: the kernel program's result term is the reference's result.

  The kernel program differs from the reference in four ways, none of which changes an exact value:
    • it sorts the edges by destination before its three segment sums — a segment sum does not depend on the order of
      its updates (Proof/Perm.lean; applied to this program in Proof/KI/Unsort.lean), so each is the sum formed from the
      edge list as given, and that is the reference's stage: the same operations on the same arrays;
    • it reshapes where the reference broadcasts (the inverse degrees as a column, a bias as a row): the same entries
      (Proof/BridgeCols.lean, Proof/BridgeBias.lean);
    • it narrows the weights and the hidden rows to bf16 and widens them again: the identity on exact values;
    • it computes each layer in tiles, which the specification (Proof/Spec.lean) already abstracts; the reference's
      stages are that specification of its own arrays (Proof/RefSide.lean).
-/
import proofs.«170781_j19602230739553_2_alg».proof.Proof.KI.Unsort
import proofs.«170781_j19602230739553_2_alg».proof.Proof.BridgeCols
import proofs.«170781_j19602230739553_2_alg».proof.Proof.BridgeBias
import proofs.«170781_j19602230739553_2_alg».proof.Proof.RefSide

noncomputable section

open scoped BigOperators

namespace Cert.Bridge

open Cert.KernelIdeal Cert.KernelIdeal.Gen
open Idealize.ShloMosaic Idealize.ShloMosaic.ValueIdx
open Cert.KernelIdeal.Hand

/-! ## The edge rows and index columns of the two programs are the same terms -/

section
variable (ei : (⟨S2x3200000, .i32⟩ : BufTy).Contents (Elt Ideal))

theorem srcRaw_eq : srcRaw (F := Ideal) ei = Cert.ReferenceIdeal.ReadP.val_main_v1 (F := Ideal) ei := rfl
theorem dstRaw_eq : dstRaw (F := Ideal) ei = Cert.ReferenceIdeal.ReadP.val_main_v3 (F := Ideal) ei := rfl
theorem column_dst_v6 : column (F := Ideal) (dstRaw (F := Ideal) ei) = Cert.ReferenceIdeal.ReadP.val_main_v6 (F := Ideal) ei := rfl
theorem column_dst_v23 : column (F := Ideal) (dstRaw (F := Ideal) ei) = Cert.ReferenceIdeal.ReadP.val_main_v23 (F := Ideal) ei := rfl
theorem column_dst_v43 : column (F := Ideal) (dstRaw (F := Ideal) ei) = Cert.ReferenceIdeal.ReadP.val_main_v43 (F := Ideal) ei := rfl
theorem column_src_v20 : column (F := Ideal) (wrapIdx (F := Ideal) 100000#32 (srcRaw (F := Ideal) ei))
    = Cert.ReferenceIdeal.ReadP.val_main_v20 (F := Ideal) ei := rfl
theorem column_src_v40 : column (F := Ideal) (wrapIdx (F := Ideal) 100000#32 (srcRaw (F := Ideal) ei))
    = Cert.ReferenceIdeal.ReadP.val_main_v40 (F := Ideal) ei := rfl
end

/-! ## The two programs' dimension records and constant arrays are the same -/

theorem scat1_eq : scatter_S100000_S3200000x1_S3200000_n_0_0_1
    = Cert.ReferenceIdeal.scatter_S100000_S3200000x1_S3200000_n_0_0_1 := rfl
theorem scat20_eq : scatter_S100000x20_S3200000x1_S3200000x20_1_0_0_1
    = Cert.ReferenceIdeal.scatter_S100000x20_S3200000x1_S3200000x20_1_0_0_1 := rfl
theorem scat64_eq : scatter_S100000x64_S3200000x1_S3200000x64_1_0_0_1
    = Cert.ReferenceIdeal.scatter_S100000x64_S3200000x1_S3200000x64_1_0_0_1 := rfl
theorem gat20_eq : gather_S100000x20_S3200000x1_S3200000x20_1_0_n_n_0_1_120
    = Cert.ReferenceIdeal.gather_S100000x20_S3200000x1_S3200000x20_1_0_n_n_0_1_120 := rfl
theorem gat64_eq : gather_S100000x64_S3200000x1_S3200000x64_1_0_n_n_0_1_164
    = Cert.ReferenceIdeal.gather_S100000x64_S3200000x1_S3200000x64_1_0_n_n_0_1_164 := rfl

theorem zeros1_eq : (broadcastInDim S100000 ![] bcast_S_S100000
      (constant (F := Ideal) S_ .f32 0x00000000#32 : (⟨S_, .f32⟩ : BufTy).Contents (Elt Ideal)))
    = Cert.ReferenceIdeal.ReadP.val_main_v5 (F := Ideal) := rfl
theorem ones_eq : (broadcastInDim S3200000 ![] bcast_S_S3200000
      (constant (F := Ideal) S_ .f32 0x3F800000#32 : (⟨S_, .f32⟩ : BufTy).Contents (Elt Ideal)))
    = Cert.ReferenceIdeal.ReadP.val_main_v4 (F := Ideal) := rfl
theorem zeros20_eq : (broadcastInDim S100000x20 ![] bcast_S_S100000x20
      (constant (F := Ideal) S_ .f32 0x00000000#32 : (⟨S_, .f32⟩ : BufTy).Contents (Elt Ideal)))
    = Cert.ReferenceIdeal.ReadP.val_main_v22 (F := Ideal) := rfl
theorem zeros64_eq : (broadcastInDim S100000x64 ![] bcast_S_S100000x64
      (constant (F := Ideal) S_ .f32 0x00000000#32 : (⟨S_, .f32⟩ : BufTy).Contents (Elt Ideal)))
    = Cert.ReferenceIdeal.ReadP.val_main_v42 (F := Ideal) := rfl

/-- Widening to f32 is the identity on exact values. -/
theorem extf_id (a : (⟨S3200000x64, .bf16⟩ : BufTy).Contents (Elt Ideal)) :
    (extf (F := Ideal) .f32 a bitsLt_bf16_f32 : (⟨S3200000x64, .f32⟩ : BufTy).Contents (Elt Ideal)) = a := rfl

/-! ## The unsorted segment sums are the reference's stages -/

section
variable (x0 : (⟨S100000x20, .f32⟩ : BufTy).Contents (Elt Ideal)) (x1 : (⟨S2x3200000, .i32⟩ : BufTy).Contents (Elt Ideal))
  (x2 : (⟨S20x64, .f32⟩ : BufTy).Contents (Elt Ideal)) (x3 : (⟨S64, .f32⟩ : BufTy).Contents (Elt Ideal))
  (x4 : (⟨S20x64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))

set_option maxHeartbeats 400000 in
/-- The degree count from the edge list as given is the reference's. -/
theorem degU_eq : degU x1 = Cert.ReferenceIdeal.ReadP.val_main_v7 (F := Ideal) x1 := by
  unfold degU Cert.ReferenceIdeal.ReadP.val_main_v7
  rw [column_dst_v6, zeros1_eq, ones_eq, scat1_eq]

set_option maxHeartbeats 400000 in
/-- The feature rows summed from the edge list as given are the reference's first segment sum. -/
theorem agg1U_eq : agg1U x0 x1 = Cert.ReferenceIdeal.ReadP.val_main_v24 (F := Ideal) x0 x1 := by
  unfold agg1U Cert.ReferenceIdeal.ReadP.val_main_v24 Cert.ReferenceIdeal.ReadP.val_main_v21
  rw [column_dst_v23, column_src_v20, zeros20_eq, scat20_eq, gat20_eq]

set_option maxHeartbeats 400000 in
/-- The reference's hidden rows summed from the edge list as given are the reference's second segment sum. -/
theorem agg2U_eq :
    agg2U (Cert.ReferenceIdeal.ReadP.val_main_v34 (F := Ideal) x0 x1 x2 x3 x4) x1
      = Cert.ReferenceIdeal.ReadP.val_main_v44 (F := Ideal) x0 x1 x2 x3 x4 := by
  unfold agg2U Cert.ReferenceIdeal.ReadP.val_main_v44 Cert.ReferenceIdeal.ReadP.val_main_v41
  rw [extf_id, column_dst_v43, column_src_v40, zeros64_eq, scat64_eq, gat64_eq]

/-! ## The kernel program's host values are the reference's stages -/

/-- The degree count over the sorted edges is the reference's. -/
theorem deg_ref : deg (F := Ideal) x1 = Cert.ReferenceIdeal.ReadP.val_main_v7 (F := Ideal) x1 :=
  (deg_eq_degU x1).trans (degU_eq x1)

/-- The inverse-degree column is the reference's. -/
theorem dinv_ref : dinv (F := Ideal) x1 = Cert.ReferenceIdeal.ReadP.val_main_v25 (F := Ideal) x1 :=
  dinv_eq x1 (deg_ref x1)

/-- The feature rows summed over the sorted edges are the reference's first segment sum. -/
theorem agg1_ref : agg1 (F := Ideal) x0 x1 = Cert.ReferenceIdeal.ReadP.val_main_v24 (F := Ideal) x0 x1 :=
  (agg1_eq_agg1U x0 x1).trans (agg1U_eq x0 x1)

/-- The kernel program's first layer over its host values: the hidden array the first region leaves. -/
abbrev H1 : (⟨2, ![100000, 64]⟩ : Shape).Idx → EReal :=
  Cert.Spec.layer1 (agg1 (F := Ideal) x0 x1) x0 (dinv (F := Ideal) x1) (truncf (F := Ideal) (φ := .f32) .bf16 x2 bitsLt_bf16_f32)
    (biasRow (F := Ideal) x3) (truncf (F := Ideal) (φ := .f32) .bf16 x4 bitsLt_bf16_f32)

set_option maxHeartbeats 400000 in
/-- THE HIDDEN ARRAYS AGREE: the kernel program's first layer is the reference's hidden array. -/
theorem hidden_ref : H1 x0 x1 x2 x3 x4 = Cert.ReferenceIdeal.ReadP.val_main_v34 (F := Ideal) x0 x1 x2 x3 x4 := by
  show Cert.Spec.layer1 (agg1 (F := Ideal) x0 x1) x0 (dinv (F := Ideal) x1) (truncf (F := Ideal) (φ := .f32) .bf16 x2 bitsLt_bf16_f32)
    (biasRow (F := Ideal) x3) (truncf (F := Ideal) (φ := .f32) .bf16 x4 bitsLt_bf16_f32) = _
  rw [agg1_ref, dinv_ref, trunc_eq_S20x64, trunc_eq_S20x64, biasRow_eq_v29]
  exact (Cert.RefSide.hidden_eq x0 x1 x2 x3 x4).symm

end

set_option maxHeartbeats 400000 in
/-- THE TWO RESULTS AGREE: the kernel program's result term — the mean over the nodes of the second layer over its own
    hidden array, segment sums over the sorted edges and inverse degrees — is the reference's result. -/
theorem spec_eq : ∀ (x0 : (⟨S100000x20, .f32⟩ : BufTy).Contents (Elt Ideal)) (x1 : (⟨S2x3200000, .i32⟩ : BufTy).Contents (Elt Ideal))
    (x2 : (⟨S20x64, .f32⟩ : BufTy).Contents (Elt Ideal)) (x3 : (⟨S64, .f32⟩ : BufTy).Contents (Elt Ideal))
    (x4 : (⟨S20x64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal)),
    (fun (i : S64.Idx) => Cert.Spec.meanOut (agg2 (F := Ideal) (H1 x0 x1 x2 x3 x4) x1) (H1 x0 x1 x2 x3 x4) (dinv (F := Ideal) x1)
      (truncf (F := Ideal) (φ := .f32) .bf16 x5 bitsLt_bf16_f32) (biasRow (F := Ideal) x6)
      (truncf (F := Ideal) (φ := .f32) .bf16 x7 bitsLt_bf16_f32) (ix2 0 (i 0)))
    = Cert.ReferenceIdeal.ReadP.val_main_v56 (F := Ideal) x0 x1 x2 x3 x4 x5 x6 x7 := by
  intro x0 x1 x2 x3 x4 x5 x6 x7
  funext i
  rw [hidden_ref, agg2_eq_agg2U, agg2U_eq, dinv_ref, trunc_eq_S64x64, trunc_eq_S64x64, biasRow_eq_v49]
  exact ((congrArg (Cert.ReferenceIdeal.ReadP.val_main_v56 (F := Ideal) x0 x1 x2 x3 x4 x5 x6 x7) (eq_ix1 i)).trans
    (Cert.RefSide.result_eq x0 x1 x2 x3 x4 x5 x6 x7 (i 0))).symm

end Cert.Bridge

end
-- ==== Proof.lean ====
/-
  Two mean-aggregation graph layers over 100000 nodes and 3200000 edges, the second averaged over the nodes: the
  tiled program against the plain one, on the extended reals.

  Both programs count each node's incoming edges, invert the clamped count, sum the source rows into the destination
  rows, and apply  (Σ_k (agg r k · dinv r) · Wl k j + b j) + Σ_k feat r k · Wr k j  twice — clamped at zero after the first
  layer, averaged over the nodes after the second. The tiled program differs in four ways, none of which changes a value:
  it sorts the edges by destination first (each segment sum is the same terms in another order: addition on the
  extended reals is commutative and associative); it computes each layer on blocks of 4000 rows (an entry depends on
  its own row only); it rounds weights and hidden rows to a shorter format and back (the identity on exact values);
  and it accumulates the last sum block by block and multiplies by the named constant 1/100000 where the plain program
  divides by 100000 (the same product on every extended real). No finiteness is used.
-/
import proofs.«170781_j19602230739553_2_alg».proof.Defs
import proofs.«170781_j19602230739553_2_alg».proof.Proof.Gen.Kernel
import proofs.«170781_j19602230739553_2_alg».proof.Proof.Gen.KernelIdeal
import proofs.«170781_j19602230739553_2_alg».proof.Proof.Gen.ReferenceIdeal
import proofs.«170781_j19602230739553_2_alg».proof.Proof.Gen.Pre_finite_inputs
import proofs.«170781_j19602230739553_2_alg».proof.Proof.K.Run
import proofs.«170781_j19602230739553_2_alg».proof.Proof.KI.Run
import proofs.«170781_j19602230739553_2_alg».proof.Proof.Final
import proofs.«170781_j19602230739553_2_alg».proof.Proof.RefRun
import proofs.«170781_j19602230739553_2_alg».proof.Proof.RefRead
import proofs.«170781_j19602230739553_2_alg».proof.Proof.Bridge
import Idealize.ShloMosaic.PureOps.IdealRules

noncomputable section

namespace Cert.Proof

open Idealize.ShloMosaic Idealize.ShloMosaic.TcCoe Idealize.SL.Sem

/-- The word-level program runs to the end and leaves its arguments as they were. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The plain program's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The one rewrite of the idealization: the constant the last product uses is read as the real number 1/100000. -/
theorem preserves : Cert.preserves_Kernel_KernelIdeal :=
  IdealRules.named_const.statement Cert.KernelIdeal.κ "inv_100000" .f32 0x3727C5AC#32 ((1 / 100000 : ℝ) : EReal) rfl

/-- The two idealized programs, run from memories that agree on the arguments, end with equal results: the tiled program's
    result array and the plain program's are one function of the arguments (`Cert.Bridge.spec_eq`). -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  Cert.Proof.Alg.algebraic Cert.Bridge.spec_eq

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
